-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x8 : Shape := ⟨2, ![4096, 8]⟩
abbrev S1024x2048 : Shape := ⟨2, ![1024, 2048]⟩
abbrev S2048 : Shape := ⟨1, ![2048]⟩
abbrev S2048x10 : Shape := ⟨2, ![2048, 10]⟩
abbrev S10 : Shape := ⟨1, ![10]⟩
abbrev S8x1024x256 : Shape := ⟨3, ![8, 1024, 256]⟩
abbrev S8x256 : Shape := ⟨2, ![8, 256]⟩
abbrev S8x256x10 : Shape := ⟨3, ![8, 256, 10]⟩
abbrev S8x10 : Shape := ⟨2, ![8, 10]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x10 : S_.BroadcastsInDim S2048x10 (![] : Fin 0 → Fin S2048x10.rank)
  reducesTo_S2048x10_S_d0_1 : S2048x10.ReducesTo [0, 1] S_
  bcast_S_S10 : S_.BroadcastsInDim S10 (![] : Fin 0 → Fin S10.rank)
  reducesTo_S10_S_d0 : S10.ReducesTo [0] S_
  bcast_S_S8x1024x256 : S_.BroadcastsInDim S8x1024x256 (![] : Fin 0 → Fin S8x1024x256.rank)
  reducesTo_S8x1024x256_S_d0_1_2 : S8x1024x256.ReducesTo [0, 1, 2] S_
  bcast_S_S8x256 : S_.BroadcastsInDim S8x256 (![] : Fin 0 → Fin S8x256.rank)
  reducesTo_S8x256_S_d0_1 : S8x256.ReducesTo [0, 1] S_
  bcast_S_S8x256x10 : S_.BroadcastsInDim S8x256x10 (![] : Fin 0 → Fin S8x256x10.rank)
  reducesTo_S8x256x10_S_d0_1_2 : S8x256x10.ReducesTo [0, 1, 2] S_
  bcast_S_S8x10 : S_.BroadcastsInDim S8x10 (![] : Fin 0 → Fin S8x10.rank)
  reducesTo_S8x10_S_d0_1 : S8x10.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part2 {F : FTy → Type} [FloatOps F] (main_arg1 : IVec S4096x8 32) (main_arg8 : FVec F S8x256x10 .f32) (main_arg9 : FVec F S8x10 .f32) (main_v33 : IVec S_ 1) : IVec S_ 1 :=
  let main_v34 : FVec F S8x256x10 .f32 := Host.absf main_arg8
  let main_cst_12 : FVec F S_ .f32 := constant S_ .f32 0x7F800000#32
  let main_v35 : FVec F S8x256x10 .f32 := broadcastInDim S8x256x10 ![] bcast_S_S8x256x10 main_cst_12
  let main_v36 : IVec S8x256x10 1 := cmpf .olt main_v34 main_v35
  let main_c_13 : IVec S_ 1 := constantI S_ 1 1#1
  let main_v37 : IVec S_ 1 := (fun x v => Host.reduce IntOp.andi x v reducesTo_S8x256x10_S_d0_1_2 h_S_) main_v36 main_c_13
  let main_v38 : IVec S_ 1 := andi main_v33 main_v37
  let main_v39 : FVec F S8x10 .f32 := Host.absf main_arg9
  let main_cst_14 : FVec F S_ .f32 := constant S_ .f32 0x7F800000#32
  let main_v40 : FVec F S8x10 .f32 := broadcastInDim S8x10 ![] bcast_S_S8x10 main_cst_14
  let main_v41 : IVec S8x10 1 := cmpf .olt main_v39 main_v40
  let main_c_15 : IVec S_ 1 := constantI S_ 1 1#1
  let main_v42 : IVec S_ 1 := (fun x v => Host.reduce IntOp.andi x v reducesTo_S8x10_S_d0_1 h_S_) main_v41 main_c_15
  let main_v43 : IVec S_ 1 := andi main_v38 main_v42
  let main_c_16 : IVec S_ 32 := constantI S_ 32 0#32
  let main_v44 : IVec S4096x8 32 := broadcastInDim S4096x8 ![] bcast_S_S4096x8 main_c_16
  let main_v45 : IVec S4096x8 1 := cmpi .eq main_arg1 main_v44
  let main_c_17 : IVec S_ 32 := constantI S_ 32 1#32
  let main_v46 : IVec S4096x8 32 := broadcastInDim S4096x8 ![] bcast_S_S4096x8 main_c_17
  let main_v47 : IVec S4096x8 1 := cmpi .eq main_arg1 main_v46
  let main_v48 : IVec S4096x8 1 := ori main_v45 main_v47
  let main_c_18 : IVec S_ 1 := constantI S_ 1 1#1
  let main_v49 : IVec S_ 1 := (fun x v => Host.reduce IntOp.andi x v reducesTo_S4096x8_S_d0_1 h_S_) main_v48 main_c_18
  let main_v50 : IVec S_ 1 := andi main_v43 main_v49
  main_v50

def fn_part1 {F : FTy → Type} [FloatOps F] (main_arg1 : IVec S4096x8 32) (main_arg5 : FVec F S10 .f32) (main_arg6 : FVec F S8x1024x256 .f32) (main_arg7 : FVec F S8x256 .f32) (main_arg8 : FVec F S8x256x10 .f32) (main_arg9 : FVec F S8x10 .f32) (main_v13 : IVec S_ 1) (main_v16 : IVec S2048x10 1) : IVec S_ 1 :=
  let main_c_5 : IVec S_ 1 := constantI S_ 1 1#1
  let main_v17 : IVec S_ 1 := (fun x v => Host.reduce IntOp.andi x v reducesTo_S2048x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S8x1024x256 .f32 := Host.absf main_arg6
  let main_cst_8 : FVec F S_ .f32 := constant S_ .f32 0x7F800000#32
  let main_v25 : FVec F S8x1024x256 .f32 := broadcastInDim S8x1024x256 ![] bcast_S_S8x1024x256 main_cst_8
  let main_v26 : IVec S8x1024x256 1 := cmpf .olt main_v24 main_v25
  let main_c_9 : IVec S_ 1 := constantI S_ 1 1#1
  let main_v27 : IVec S_ 1 := (fun x v => Host.reduce IntOp.andi x v reducesTo_S8x1024x256_S_d0_1_2 h_S_) main_v26 main_c_9
  let main_v28 : IVec S_ 1 := andi main_v23 main_v27
  let main_v29 : FVec F S8x256 .f32 := Host.absf main_arg7
  let main_cst_10 : FVec F S_ .f32 := constant S_ .f32 0x7F800000#32
  let main_v30 : FVec F S8x256 .f32 := broadcastInDim S8x256 ![] bcast_S_S8x256 main_cst_10
  let main_v31 : IVec S8x256 1 := cmpf .olt main_v29 main_v30
  let main_c_11 : IVec S_ 1 := constantI S_ 1 1#1
  let main_v32 : IVec S_ 1 := (fun x v => Host.reduce IntOp.andi x v reducesTo_S8x256_S_d0_1 h_S_) main_v31 main_c_11
  let main_v33 : IVec S_ 1 := andi main_v28 main_v32
  fn_part2 (F := F) main_arg1 main_arg8 main_arg9 main_v33

def fn {F : FTy → Type} [FloatOps F] (main_arg0 : FVec F S4096x1024 .f32) (main_arg1 : IVec S4096x8 32) (main_arg2 : FVec F S1024x2048 .f32) (main_arg3 : FVec F S2048 .f32) (main_arg4 : FVec F S2048x10 .f32) (main_arg5 : FVec F S10 .f32) (main_arg6 : FVec F S8x1024x256 .f32) (main_arg7 : FVec F S8x256 .f32) (main_arg8 : FVec F S8x256x10 .f32) (main_arg9 : FVec F S8x10 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x10 .f32 := Host.absf main_arg4
  let main_cst_4 : FVec F S_ .f32 := constant S_ .f32 0x7F800000#32
  let main_v15 : FVec F S2048x10 .f32 := broadcastInDim S2048x10 ![] bcast_S_S2048x10 main_cst_4
  let main_v16 : IVec S2048x10 1 := cmpf .olt main_v14 main_v15
  fn_part1 (F := F) main_arg1 main_arg5 main_arg6 main_arg7 main_arg8 main_arg9 main_v13 main_v16
-- ==== Kernel.lean ====
abbrev S4096x1024 : Shape := ⟨2, ![4096, 1024]⟩
abbrev S4096x8 : Shape := ⟨2, ![4096, 8]⟩
abbrev S1024x2048 : Shape := ⟨2, ![1024, 2048]⟩
abbrev S2048 : Shape := ⟨1, ![2048]⟩
abbrev S2048x10 : Shape := ⟨2, ![2048, 10]⟩
abbrev S10 : Shape := ⟨1, ![10]⟩
abbrev S8x1024x256 : Shape := ⟨3, ![8, 1024, 256]⟩
abbrev S8x256 : Shape := ⟨2, ![8, 256]⟩
abbrev S8x256x10 : Shape := ⟨3, ![8, 256, 10]⟩
abbrev S8x10 : Shape := ⟨2, ![8, 10]⟩
abbrev S4096x10 : Shape := ⟨2, ![4096, 10]⟩
abbrev S1x2048 : Shape := ⟨2, ![1, 2048]⟩
abbrev S1x10 : Shape := ⟨2, ![1, 10]⟩
abbrev S512x1024 : Shape := ⟨2, ![512, 1024]⟩
abbrev S512x8 : Shape := ⟨2, ![512, 8]⟩
abbrev S512x10 : Shape := ⟨2, ![512, 10]⟩
abbrev S512x4096 : Shape := ⟨2, ![512, 4096]⟩
abbrev S1024x256 : Shape := ⟨2, ![1024, 256]⟩
abbrev S512x256 : Shape := ⟨2, ![512, 256]⟩
abbrev S1x256 : Shape := ⟨2, ![1, 256]⟩
abbrev S1x1024x256 : Shape := ⟨3, ![1, 1024, 256]⟩
abbrev S256 : Shape := ⟨1, ![256]⟩
abbrev S512x1 : Shape := ⟨2, ![512, 1]⟩
abbrev S512 : Shape := ⟨1, ![512]⟩

abbrev nBuf : Space → Nat
  | .hbm => 17
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x8, .i32⟩
  | .hbm, ⟨2, _⟩ => ⟨S1024x2048, .f32⟩
  | .hbm, ⟨3, _⟩ => ⟨S2048, .f32⟩
  | .hbm, ⟨4, _⟩ => ⟨S2048x10, .f32⟩
  | .hbm, ⟨5, _⟩ => ⟨S10, .f32⟩
  | .hbm, ⟨6, _⟩ => ⟨S8x1024x256, .f32⟩
  | .hbm, ⟨7, _⟩ => ⟨S8x256, .f32⟩
  | .hbm, ⟨8, _⟩ => ⟨S8x256x10, .f32⟩
  | .hbm, ⟨9, _⟩ => ⟨S8x10, .f32⟩
  | .hbm, ⟨10, _⟩ => ⟨S4096x8, .f32⟩
  | .hbm, ⟨11, _⟩ => ⟨S2048x10, .f32⟩
  | .hbm, ⟨12, _⟩ => ⟨S4096x10, .f32⟩
  | .hbm, ⟨13, _⟩ => ⟨S4096x10, .bf16⟩
  | .hbm, ⟨14, _⟩ => ⟨S1x2048, .f32⟩
  | .hbm, ⟨15, _⟩ => ⟨S1x10, .f32⟩
  | .hbm, ⟨16, _⟩ => ⟨S4096x10, .f32⟩
  | .local _ .vmem, ⟨0, _⟩ => ⟨S512x1024, .f32⟩
  | .local _ .vmem, ⟨1, _⟩ => ⟨S512x1024, .f32⟩
  | .local _ .vmem, ⟨2, _⟩ => ⟨S512x8, .f32⟩
  | .local _ .vmem, ⟨3, _⟩ => ⟨S512x8, .f32⟩
  | .local _ .vmem, ⟨4, _⟩ => ⟨S1024x2048, .f32⟩
  | .local _ .vmem, ⟨5, _⟩ => ⟨S1x2048, .f32⟩
  | .local _ .vmem, ⟨6, _⟩ => ⟨S4096x10, .bf16⟩
  | .local _ .vmem, ⟨7, _⟩ => ⟨S1x10, .f32⟩
  | .local _ .vmem, ⟨8, _⟩ => ⟨S8x1024x256, .f32⟩
  | .local _ .vmem, ⟨9, _⟩ => ⟨S8x256, .f32⟩
  | .local _ .vmem, ⟨10, _⟩ => ⟨S8x10, .f32⟩
  | .local _ .vmem, ⟨11, _⟩ => ⟨S512x10, .f32⟩
  | .local _ .vmem, ⟨12, _⟩ => ⟨S512x10, .f32⟩
  | .local _ .vmem, ⟨13, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x256x10_S2048x10 : S8x256x10.ShapeCasts S2048x10
  concatenates_S2048x10_S2048x10_S4096x10_d0 : Shape.Concatenates [S2048x10, S2048x10] S4096x10 0
  bitsLt_bf16_f32 : FTy.bits .bf16 < FTy.bits .f32
  shapeCasts_S2048_S1x2048 : S2048.ShapeCasts S1x2048
  shapeCasts_S10_S1x10 : S10.ShapeCasts S1x10
  inb_S512x1024_S512x1024_0_0 : ∀ a, (![0, 0] : Fin 2 → Nat) a + S512x1024.size a ≤ S512x1024.size a
  h_S512x1024 : 0 < S512x1024.numel
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1024x2048_S1024x256_0_0 : ∀ a, (![0, 0] : Fin 2 → Nat) a + S1024x256.size a ≤ S1024x2048.size a
  h_S1024x256 : 0 < S1024x256.numel
  inb_S1x2048_S1x256_0_0 : ∀ a, (![0, 0] : Fin 2 → Nat) a + S1x256.size a ≤ S1x2048.size a
  h_S1x256 : 0 < S1x256.numel
  shapeCasts_S1x256_S1x256 : S1x256.ShapeCasts S1x256
  broadcasts_S1x256_S512x256 : S1x256.Broadcasts S512x256
  inb_S512x4096_S512x256_0_0 : ∀ a, (![0, 0] : Fin 2 → Nat) a + S512x256.size a ≤ S512x4096.size a
  h_S512x256 : 0 < S512x256.numel
  shapeCasts_S512x256_S512x256 : S512x256.ShapeCasts S512x256
  packedbf16_S512x4096_S512x256_0_0 : (Rect.unit (s := S512x4096) ![0, 0] S512x256.size inb_S512x4096_S512x256_0_0).PackedRows (EltTy.packing .bf16)
  inb_S1024x2048_S1024x256_0_256 : ∀ a, (![0, 256] : Fin 2 → Nat) a + S1024x256.size a ≤ S1024x2048.size a
  inb_S1x2048_S1x256_0_256 : ∀ a, (![0, 256] : Fin 2 → Nat) a + S1x256.size a ≤ S1x2048.size a
  inb_S512x4096_S512x256_0_256 : ∀ a, (![0, 256] : Fin 2 → Nat) a + S512x256.size a ≤ S512x4096.size a
  packedbf16_S512x4096_S512x256_0_256 : (Rect.unit (s := S512x4096) ![0, 256] S512x256.size inb_S512x4096_S512x256_0_256).PackedRows (EltTy.packing .bf16)
  inb_S1024x2048_S1024x256_0_512 : ∀ a, (![0, 512] : Fin 2 → Nat) a + S1024x256.size a ≤ S1024x2048.size a
  inb_S1x2048_S1x256_0_512 : ∀ a, (![0, 512] : Fin 2 → Nat) a + S1x256.size a ≤ S1x2048.size a
  inb_S512x4096_S512x256_0_512 : ∀ a, (![0, 512] : Fin 2 → Nat) a + S512x256.size a ≤ S512x4096.size a
  packedbf16_S512x4096_S512x256_0_512 : (Rect.unit (s := S512x4096) ![0, 512] S512x256.size inb_S512x4096_S512x256_0_512).PackedRows (EltTy.packing .bf16)
  inb_S1024x2048_S1024x256_0_768 : ∀ a, (![0, 768] : Fin 2 → Nat) a + S1024x256.size a ≤ S1024x2048.size a
  inb_S1x2048_S1x256_0_768 : ∀ a, (![0, 768] : Fin 2 → Nat) a + S1x256.size a ≤ S1x2048.size a
  inb_S512x4096_S512x256_0_768 : ∀ a, (![0, 768] : Fin 2 → Nat) a + S512x256.size a ≤ S512x4096.size a
  packedbf16_S512x4096_S512x256_0_768 : (Rect.unit (s := S512x4096) ![0, 768] S512x256.size inb_S512x4096_S512x256_0_768).PackedRows (EltTy.packing .bf16)
  inb_S1024x2048_S1024x256_0_1024 : ∀ a, (![0, 1024] : Fin 2 → Nat) a + S1024x256.size a ≤ S1024x2048.size a
  inb_S1x2048_S1x256_0_1024 : ∀ a, (![0, 1024] : Fin 2 → Nat) a + S1x256.size a ≤ S1x2048.size a
  inb_S512x4096_S512x256_0_1024 : ∀ a, (![0, 1024] : Fin 2 → Nat) a + S512x256.size a ≤ S512x4096.size a
  packedbf16_S512x4096_S512x256_0_1024 : (Rect.unit (s := S512x4096) ![0, 1024] S512x256.size inb_S512x4096_S512x256_0_1024).PackedRows (EltTy.packing .bf16)
  inb_S1024x2048_S1024x256_0_1280 : ∀ a, (![0, 1280] : Fin 2 → Nat) a + S1024x256.size a ≤ S1024x2048.size a
  inb_S1x2048_S1x256_0_1280 : ∀ a, (![0, 1280] : Fin 2 → Nat) a + S1x256.size a ≤ S1x2048.size a
  inb_S512x4096_S512x256_0_1280 : ∀ a, (![0, 1280] : Fin 2 → Nat) a + S512x256.size a ≤ S512x4096.size a
  packedbf16_S512x4096_S512x256_0_1280 : (Rect.unit (s := S512x4096) ![0, 1280] S512x256.size inb_S512x4096_S512x256_0_1280).PackedRows (EltTy.packing .bf16)
  inb_S1024x2048_S1024x256_0_1536 : ∀ a, (![0, 1536] : Fin 2 → Nat) a + S1024x256.size a ≤ S1024x2048.size a
  inb_S1x2048_S1x256_0_1536 : ∀ a, (![0, 1536] : Fin 2 → Nat) a + S1x256.size a ≤ S1x2048.size a
  inb_S512x4096_S512x256_0_1536 : ∀ a, (![0, 1536] : Fin 2 → Nat) a + S512x256.size a ≤ S512x4096.size a
  packedbf16_S512x4096_S512x256_0_1536 : (Rect.unit (s := S512x4096) ![0, 1536] S512x256.size inb_S512x4096_S512x256_0_1536).PackedRows (EltTy.packing .bf16)
  inb_S1024x2048_S1024x256_0_1792 : ∀ a, (![0, 1792] : Fin 2 → Nat) a + S1024x256.size a ≤ S1024x2048.size a
  inb_S1x2048_S1x256_0_1792 : ∀ a, (![0, 1792] : Fin 2 → Nat) a + S1x256.size a ≤ S1x2048.size a
  inb_S512x4096_S512x256_0_1792 : ∀ a, (![0, 1792] : Fin 2 → Nat) a + S512x256.size a ≤ S512x4096.size a
  packedbf16_S512x4096_S512x256_0_1792 : (Rect.unit (s := S512x4096) ![0, 1792] S512x256.size inb_S512x4096_S512x256_0_1792).PackedRows (EltTy.packing .bf16)
  inb_S8x1024x256_S1x1024x256_0_0_0 : ∀ a, (![0, 0, 0] : Fin 3 → Nat) a + S1x1024x256.size a ≤ S8x1024x256.size a
  h_S1x1024x256 : 0 < S1x1024x256.numel
  shapeCasts_S1x1024x256_S1024x256 : S1x1024x256.ShapeCasts S1024x256
  inb_S8x256_S1x256_0_0 : ∀ a, (![0, 0] : Fin 2 → Nat) a + S1x256.size a ≤ S8x256.size a
  shapeCasts_S1x256_S256 : S1x256.ShapeCasts S256
  shapeCasts_S256_S1x256 : S256.ShapeCasts S1x256
  slices_S512x8_o0_0_S512x1 : S512x8.Slices ![0, 0] S512x1
  shapeCasts_S512x1_S512 : S512x1.ShapeCasts S512
  shapeCasts_S512_S512x1 : S512.ShapeCasts S512x1
  broadcasts_S512x1_S512x256 : S512x1.Broadcasts S512x256
  inb_S512x4096_S512x256_0_2048 : ∀ a, (![0, 2048] : Fin 2 → Nat) a + S512x256.size a ≤ S512x4096.size a
  packedbf16_S512x4096_S512x256_0_2048 : (Rect.unit (s := S512x4096) ![0, 2048] S512x256.size inb_S512x4096_S512x256_0_2048).PackedRows (EltTy.packing .bf16)
  inb_S8x1024x256_S1x1024x256_1_0_0 : ∀ a, (![1, 0, 0] : Fin 3 → Nat) a + S1x1024x256.size a ≤ S8x1024x256.size a
  inb_S8x256_S1x256_1_0 : ∀ a, (![1, 0] : Fin 2 → Nat) a + S1x256.size a ≤ S8x256.size a
  slices_S512x8_o0_1_S512x1 : S512x8.Slices ![0, 1] S512x1
  inb_S512x4096_S512x256_0_2304 : ∀ a, (![0, 2304] : Fin 2 → Nat) a + S512x256.size a ≤ S512x4096.size a
  packedbf16_S512x4096_S512x256_0_2304 : (Rect.unit (s := S512x4096) ![0, 2304] S512x256.size inb_S512x4096_S512x256_0_2304).PackedRows (EltTy.packing .bf16)
  inb_S8x1024x256_S1x1024x256_2_0_0 : ∀ a, (![2, 0, 0] : Fin 3 → Nat) a + S1x1024x256.size a ≤ S8x1024x256.size a
  inb_S8x256_S1x256_2_0 : ∀ a, (![2, 0] : Fin 2 → Nat) a + S1x256.size a ≤ S8x256.size a
  slices_S512x8_o0_2_S512x1 : S512x8.Slices ![0, 2] S512x1
  inb_S512x4096_S512x256_0_2560 : ∀ a, (![0, 2560] : Fin 2 → Nat) a + S512x256.size a ≤ S512x4096.size a
  packedbf16_S512x4096_S512x256_0_2560 : (Rect.unit (s := S512x4096) ![0, 2560] S512x256.size inb_S512x4096_S512x256_0_2560).PackedRows (EltTy.packing .bf16)
  inb_S8x1024x256_S1x1024x256_3_0_0 : ∀ a, (![3, 0, 0] : Fin 3 → Nat) a + S1x1024x256.size a ≤ S8x1024x256.size a
  inb_S8x256_S1x256_3_0 : ∀ a, (![3, 0] : Fin 2 → Nat) a + S1x256.size a ≤ S8x256.size a
  slices_S512x8_o0_3_S512x1 : S512x8.Slices ![0, 3] S512x1
  inb_S512x4096_S512x256_0_2816 : ∀ a, (![0, 2816] : Fin 2 → Nat) a + S512x256.size a ≤ S512x4096.size a
  packedbf16_S512x4096_S512x256_0_2816 : (Rect.unit (s := S512x4096) ![0, 2816] S512x256.size inb_S512x4096_S512x256_0_2816).PackedRows (EltTy.packing .bf16)
  inb_S8x1024x256_S1x1024x256_4_0_0 : ∀ a, (![4, 0, 0] : Fin 3 → Nat) a + S1x1024x256.size a ≤ S8x1024x256.size a
  inb_S8x256_S1x256_4_0 : ∀ a, (![4, 0] : Fin 2 → Nat) a + S1x256.size a ≤ S8x256.size a
  slices_S512x8_o0_4_S512x1 : S512x8.Slices ![0, 4] S512x1
  inb_S512x4096_S512x256_0_3072 : ∀ a, (![0, 3072] : Fin 2 → Nat) a + S512x256.size a ≤ S512x4096.size a
  packedbf16_S512x4096_S512x256_0_3072 : (Rect.unit (s := S512x4096) ![0, 3072] S512x256.size inb_S512x4096_S512x256_0_3072).PackedRows (EltTy.packing .bf16)
  inb_S8x1024x256_S1x1024x256_5_0_0 : ∀ a, (![5, 0, 0] : Fin 3 → Nat) a + S1x1024x256.size a ≤ S8x1024x256.size a
  inb_S8x256_S1x256_5_0 : ∀ a, (![5, 0] : Fin 2 → Nat) a + S1x256.size a ≤ S8x256.size a
  slices_S512x8_o0_5_S512x1 : S512x8.Slices ![0, 5] S512x1
  inb_S512x4096_S512x256_0_3328 : ∀ a, (![0, 3328] : Fin 2 → Nat) a + S512x256.size a ≤ S512x4096.size a
  packedbf16_S512x4096_S512x256_0_3328 : (Rect.unit (s := S512x4096) ![0, 3328] S512x256.size inb_S512x4096_S512x256_0_3328).PackedRows (EltTy.packing .bf16)
  inb_S8x1024x256_S1x1024x256_6_0_0 : ∀ a, (![6, 0, 0] : Fin 3 → Nat) a + S1x1024x256.size a ≤ S8x1024x256.size a
  inb_S8x256_S1x256_6_0 : ∀ a, (![6, 0] : Fin 2 → Nat) a + S1x256.size a ≤ S8x256.size a
  slices_S512x8_o0_6_S512x1 : S512x8.Slices ![0, 6] S512x1
  inb_S512x4096_S512x256_0_3584 : ∀ a, (![0, 3584] : Fin 2 → Nat) a + S512x256.size a ≤ S512x4096.size a
  packedbf16_S512x4096_S512x256_0_3584 : (Rect.unit (s := S512x4096) ![0, 3584] S512x256.size inb_S512x4096_S512x256_0_3584).PackedRows (EltTy.packing .bf16)
  inb_S8x1024x256_S1x1024x256_7_0_0 : ∀ a, (![7, 0, 0] : Fin 3 → Nat) a + S1x1024x256.size a ≤ S8x1024x256.size a
  inb_S8x256_S1x256_7_0 : ∀ a, (![7, 0] : Fin 2 → Nat) a + S1x256.size a ≤ S8x256.size a
  slices_S512x8_o0_7_S512x1 : S512x8.Slices ![0, 7] S512x1
  inb_S512x4096_S512x256_0_3840 : ∀ a, (![0, 3840] : Fin 2 → Nat) a + S512x256.size a ≤ S512x4096.size a
  packedbf16_S512x4096_S512x256_0_3840 : (Rect.unit (s := S512x4096) ![0, 3840] S512x256.size inb_S512x4096_S512x256_0_3840).PackedRows (EltTy.packing .bf16)
  inb_S512x4096_S512x4096_0_0 : ∀ a, (![0, 0] : Fin 2 → Nat) a + S512x4096.size a ≤ S512x4096.size a
  h_S512x4096 : 0 < S512x4096.numel
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S8x10_S8x10_0_0 : ∀ a, (![0, 0] : Fin 2 → Nat) a + S8x10.size a ≤ S8x10.size a
  h_S8x10 : 0 < S8x10.numel
  inb_S512x10_S512x10_0_0 : ∀ a, (![0, 0] : Fin 2 → Nat) a + S512x10.size a ≤ S512x10.size a
  h_S512x10 : 0 < S512x10.numel
  dot_S512x1024_S1024x256_S512x256_1_0_0_1_n_n_wf : DotDims.WF S512x1024 S1024x256 S512x256 [1] [0] [0] [1] [] []
  dot_S512x4096_S4096x10_S512x10_1_0_0_1_n_n_wf : DotDims.WF S512x4096 S4096x10 S512x10 [1] [0] [0] [1] [] []
  dot_S512x8_S8x10_S512x10_1_0_0_1_n_n_wf : DotDims.WF S512x8 S8x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S4096x8.size a
  hwx0_1 : ∀ i : grid0.Coords, EltTy.bits .f32 = 32 ∨ (Rect.block (s := S4096x8) S512x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .f32 = 32 ∨ (Rect.block (s := S1024x2048) S1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x10.size a ≤ S4096x10.size a
  hwx0_4 : ∀ i : grid0.Coords, EltTy.bits .bf16 = 32 ∨ (Rect.block (s := S4096x10) S4096x10.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1024x256.size a ≤ S8x1024x256.size a
  hwx0_6 : ∀ i : grid0.Coords, EltTy.bits .f32 = 32 ∨ (Rect.block (s := S8x1024x256) S8x1024x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S8x256.size a
  hwx0_7 : ∀ i : grid0.Coords, EltTy.bits .f32 = 32 ∨ (Rect.block (s := S8x256) S8x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x10.size a ≤ S8x10.size a
  hwx0_8 : ∀ i : grid0.Coords, EltTy.bits .f32 = 32 ∨ (Rect.block (s := S8x10) S8x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x10.size a ≤ S4096x10.size a
  hwx0_9 : ∀ i : grid0.Coords, EltTy.bits .f32 = 32 ∨ (Rect.block (s := S4096x10) S512x10.size (cc0_transform_9 i) (hinb0_9 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x4096_S4096x10_S512x10_1_0_0_1_n_n : DotDims S512x4096 S4096x10 S512x10 where
  lhsContracting := [1]
  rhsContracting := [0]
  lhsNonContracting := [0]
  rhsNonContracting := [1]
  lhsBatch := []
  rhsBatch := []
  wf := dot_S512x4096_S4096x10_S512x10_1_0_0_1_n_n_wf
def dot_S512x8_S8x10_S512x10_1_0_0_1_n_n : DotDims S512x8 S8x10 S512x10 where
  lhsContracting := [1]
  rhsContracting := [0]
  lhsNonContracting := [0]
  rhsNonContracting := [1]
  lhsBatch := []
  rhsBatch := []
  wf := dot_S512x8_S8x10_S512x10_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x1024x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S8x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S512x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x8 : Shape := ⟨2, ![4096, 8]⟩
abbrev S1024x2048 : Shape := ⟨2, ![1024, 2048]⟩
abbrev S2048 : Shape := ⟨1, ![2048]⟩
abbrev S2048x10 : Shape := ⟨2, ![2048, 10]⟩
abbrev S10 : Shape := ⟨1, ![10]⟩
abbrev S8x1024x256 : Shape := ⟨3, ![8, 1024, 256]⟩
abbrev S8x256 : Shape := ⟨2, ![8, 256]⟩
abbrev S8x256x10 : Shape := ⟨3, ![8, 256, 10]⟩
abbrev S8x10 : Shape := ⟨2, ![8, 10]⟩
abbrev S4096x2048 : Shape := ⟨2, ![4096, 2048]⟩
abbrev S1x2048 : Shape := ⟨2, ![1, 2048]⟩
abbrev S_ : Shape := ⟨0, ![]⟩
abbrev S4096x10 : Shape := ⟨2, ![4096, 10]⟩
abbrev S1x10 : Shape := ⟨2, ![1, 10]⟩
abbrev S1x1024x256 : Shape := ⟨3, ![1, 1024, 256]⟩
abbrev S1024x256 : Shape := ⟨2, ![1024, 256]⟩
abbrev S4096x256 : Shape := ⟨2, ![4096, 256]⟩
abbrev S1x256 : Shape := ⟨2, ![1, 256]⟩
abbrev S256 : Shape := ⟨1, ![256]⟩
abbrev S1x256x10 : Shape := ⟨3, ![1, 256, 10]⟩
abbrev S256x10 : Shape := ⟨2, ![256, 10]⟩
abbrev S4096x1 : Shape := ⟨2, ![4096, 1]⟩
abbrev S4096 : Shape := ⟨1, ![4096]⟩

abbrev nBuf : Space → Nat
  | .hbm => 261
  | .vmem => 0
  | .smem => 0
  | _ => 0

abbrev hbmTy0_0 (i : Nat) : BufTy := match i % 128 with
  | 0 => ⟨S4096x1024, .f32⟩
  | 1 => ⟨S4096x8, .i32⟩
  | 2 => ⟨S1024x2048, .f32⟩
  | 3 => ⟨S2048, .f32⟩
  | 4 => ⟨S2048x10, .f32⟩
  | 5 => ⟨S10, .f32⟩
  | 6 => ⟨S8x1024x256, .f32⟩
  | 7 => ⟨S8x256, .f32⟩
  | 8 => ⟨S8x256x10, .f32⟩
  | 9 => ⟨S8x10, .f32⟩
  | 10 => ⟨S4096x2048, .f32⟩
  | 11 => ⟨S1x2048, .f32⟩
  | 12 => ⟨S4096x2048, .f32⟩
  | 13 => ⟨S4096x2048, .f32⟩
  | 14 => ⟨S_, .f32⟩
  | 15 => ⟨S4096x2048, .f32⟩
  | 16 => ⟨S4096x2048, .f32⟩
  | 17 => ⟨S4096x10, .f32⟩
  | 18 => ⟨S1x10, .f32⟩
  | 19 => ⟨S4096x10, .f32⟩
  | 20 => ⟨S4096x10, .f32⟩
  | 21 => ⟨S1x1024x256, .f32⟩
  | 22 => ⟨S1024x256, .f32⟩
  | 23 => ⟨S4096x256, .f32⟩
  | 24 => ⟨S1x256, .f32⟩
  | 25 => ⟨S256, .f32⟩
  | 26 => ⟨S1x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S1x256x10, .f32⟩
  | 33 => ⟨S256x10, .f32⟩
  | 34 => ⟨S4096x10, .f32⟩
  | 35 => ⟨S1x10, .f32⟩
  | 36 => ⟨S10, .f32⟩
  | 37 => ⟨S1x10, .f32⟩
  | 38 => ⟨S4096x10, .f32⟩
  | 39 => ⟨S4096x10, .f32⟩
  | 40 => ⟨S4096x1, .i32⟩
  | 41 => ⟨S4096, .i32⟩
  | 42 => ⟨S_, .i32⟩
  | 43 => ⟨S4096, .i32⟩
  | 44 => ⟨S4096, .i1⟩
  | 45 => ⟨S4096x1, .i1⟩
  | 46 => ⟨S_, .f32⟩
  | 47 => ⟨S4096x10, .f32⟩
  | 48 => ⟨S4096x10, .i1⟩
  | 49 => ⟨S4096x10, .f32⟩
  | 50 => ⟨S4096x10, .f32⟩
  | 51 => ⟨S1x1024x256, .f32⟩
  | 52 => ⟨S1024x256, .f32⟩
  | 53 => ⟨S4096x256, .f32⟩
  | 54 => ⟨S1x256, .f32⟩
  | 55 => ⟨S256, .f32⟩
  | 56 => ⟨S1x256, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S1x256x10, .f32⟩
  | 63 => ⟨S256x10, .f32⟩
  | 64 => ⟨S4096x10, .f32⟩
  | 65 => ⟨S1x10, .f32⟩
  | 66 => ⟨S10, .f32⟩
  | 67 => ⟨S1x10, .f32⟩
  | 68 => ⟨S4096x10, .f32⟩
  | 69 => ⟨S4096x10, .f32⟩
  | 70 => ⟨S4096x1, .i32⟩
  | 71 => ⟨S4096, .i32⟩
  | 72 => ⟨S_, .i32⟩
  | 73 => ⟨S4096, .i32⟩
  | 74 => ⟨S4096, .i1⟩
  | 75 => ⟨S4096x1, .i1⟩
  | 76 => ⟨S_, .f32⟩
  | 77 => ⟨S4096x10, .f32⟩
  | 78 => ⟨S4096x10, .i1⟩
  | 79 => ⟨S4096x10, .f32⟩
  | 80 => ⟨S4096x10, .f32⟩
  | 81 => ⟨S1x1024x256, .f32⟩
  | 82 => ⟨S1024x256, .f32⟩
  | 83 => ⟨S4096x256, .f32⟩
  | 84 => ⟨S1x256, .f32⟩
  | 85 => ⟨S256, .f32⟩
  | 86 => ⟨S1x256, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x10, .f32⟩
  | 93 => ⟨S256x10, .f32⟩
  | 94 => ⟨S4096x10, .f32⟩
  | 95 => ⟨S1x10, .f32⟩
  | 96 => ⟨S10, .f32⟩
  | 97 => ⟨S1x10, .f32⟩
  | 98 => ⟨S4096x10, .f32⟩
  | 99 => ⟨S4096x10, .f32⟩
  | 100 => ⟨S4096x1, .i32⟩
  | 101 => ⟨S4096, .i32⟩
  | 102 => ⟨S_, .i32⟩
  | 103 => ⟨S4096, .i32⟩
  | 104 => ⟨S4096, .i1⟩
  | 105 => ⟨S4096x1, .i1⟩
  | 106 => ⟨S_, .f32⟩
  | 107 => ⟨S4096x10, .f32⟩
  | 108 => ⟨S4096x10, .i1⟩
  | 109 => ⟨S4096x10, .f32⟩
  | 110 => ⟨S4096x10, .f32⟩
  | 111 => ⟨S1x1024x256, .f32⟩
  | 112 => ⟨S1024x256, .f32⟩
  | 113 => ⟨S4096x256, .f32⟩
  | 114 => ⟨S1x256, .f32⟩
  | 115 => ⟨S256, .f32⟩
  | 116 => ⟨S1x256, .f32⟩
  | 117 => ⟨S4096x256, .f32⟩
  | 118 => ⟨S4096x256, .f32⟩
  | 119 => ⟨S_, .f32⟩
  | 120 => ⟨S4096x256, .f32⟩
  | 121 => ⟨S4096x256, .f32⟩
  | 122 => ⟨S1x256x10, .f32⟩
  | 123 => ⟨S256x10, .f32⟩
  | 124 => ⟨S4096x10, .f32⟩
  | 125 => ⟨S1x10, .f32⟩
  | 126 => ⟨S10, .f32⟩
  | 127 => ⟨S1x10, .f32⟩
  | _ => ⟨S4096x1024, .f32⟩

abbrev hbmTy0_1 (i : Nat) : BufTy := match i % 128 with
  | 0 => ⟨S4096x10, .f32⟩
  | 1 => ⟨S4096x10, .f32⟩
  | 2 => ⟨S4096x1, .i32⟩
  | 3 => ⟨S4096, .i32⟩
  | 4 => ⟨S_, .i32⟩
  | 5 => ⟨S4096, .i32⟩
  | 6 => ⟨S4096, .i1⟩
  | 7 => ⟨S4096x1, .i1⟩
  | 8 => ⟨S_, .f32⟩
  | 9 => ⟨S4096x10, .f32⟩
  | 10 => ⟨S4096x10, .i1⟩
  | 11 => ⟨S4096x10, .f32⟩
  | 12 => ⟨S4096x10, .f32⟩
  | 13 => ⟨S1x1024x256, .f32⟩
  | 14 => ⟨S1024x256, .f32⟩
  | 15 => ⟨S4096x256, .f32⟩
  | 16 => ⟨S1x256, .f32⟩
  | 17 => ⟨S256, .f32⟩
  | 18 => ⟨S1x256, .f32⟩
  | 19 => ⟨S4096x256, .f32⟩
  | 20 => ⟨S4096x256, .f32⟩
  | 21 => ⟨S_, .f32⟩
  | 22 => ⟨S4096x256, .f32⟩
  | 23 => ⟨S4096x256, .f32⟩
  | 24 => ⟨S1x256x10, .f32⟩
  | 25 => ⟨S256x10, .f32⟩
  | 26 => ⟨S4096x10, .f32⟩
  | 27 => ⟨S1x10, .f32⟩
  | 28 => ⟨S10, .f32⟩
  | 29 => ⟨S1x10, .f32⟩
  | 30 => ⟨S4096x10, .f32⟩
  | 31 => ⟨S4096x10, .f32⟩
  | 32 => ⟨S4096x1, .i32⟩
  | 33 => ⟨S4096, .i32⟩
  | 34 => ⟨S_, .i32⟩
  | 35 => ⟨S4096, .i32⟩
  | 36 => ⟨S4096, .i1⟩
  | 37 => ⟨S4096x1, .i1⟩
  | 38 => ⟨S_, .f32⟩
  | 39 => ⟨S4096x10, .f32⟩
  | 40 => ⟨S4096x10, .i1⟩
  | 41 => ⟨S4096x10, .f32⟩
  | 42 => ⟨S4096x10, .f32⟩
  | 43 => ⟨S1x1024x256, .f32⟩
  | 44 => ⟨S1024x256, .f32⟩
  | 45 => ⟨S4096x256, .f32⟩
  | 46 => ⟨S1x256, .f32⟩
  | 47 => ⟨S256, .f32⟩
  | 48 => ⟨S1x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S1x256x10, .f32⟩
  | 55 => ⟨S256x10, .f32⟩
  | 56 => ⟨S4096x10, .f32⟩
  | 57 => ⟨S1x10, .f32⟩
  | 58 => ⟨S10, .f32⟩
  | 59 => ⟨S1x10, .f32⟩
  | 60 => ⟨S4096x10, .f32⟩
  | 61 => ⟨S4096x10, .f32⟩
  | 62 => ⟨S4096x1, .i32⟩
  | 63 => ⟨S4096, .i32⟩
  | 64 => ⟨S_, .i32⟩
  | 65 => ⟨S4096, .i32⟩
  | 66 => ⟨S4096, .i1⟩
  | 67 => ⟨S4096x1, .i1⟩
  | 68 => ⟨S_, .f32⟩
  | 69 => ⟨S4096x10, .f32⟩
  | 70 => ⟨S4096x10, .i1⟩
  | 71 => ⟨S4096x10, .f32⟩
  | 72 => ⟨S4096x10, .f32⟩
  | 73 => ⟨S1x1024x256, .f32⟩
  | 74 => ⟨S1024x256, .f32⟩
  | 75 => ⟨S4096x256, .f32⟩
  | 76 => ⟨S1x256, .f32⟩
  | 77 => ⟨S256, .f32⟩
  | 78 => ⟨S1x256, .f32⟩
  | 79 => ⟨S4096x256, .f32⟩
  | 80 => ⟨S4096x256, .f32⟩
  | 81 => ⟨S_, .f32⟩
  | 82 => ⟨S4096x256, .f32⟩
  | 83 => ⟨S4096x256, .f32⟩
  | 84 => ⟨S1x256x10, .f32⟩
  | 85 => ⟨S256x10, .f32⟩
  | 86 => ⟨S4096x10, .f32⟩
  | 87 => ⟨S1x10, .f32⟩
  | 88 => ⟨S10, .f32⟩
  | 89 => ⟨S1x10, .f32⟩
  | 90 => ⟨S4096x10, .f32⟩
  | 91 => ⟨S4096x10, .f32⟩
  | 92 => ⟨S4096x1, .i32⟩
  | 93 => ⟨S4096, .i32⟩
  | 94 => ⟨S_, .i32⟩
  | 95 => ⟨S4096, .i32⟩
  | 96 => ⟨S4096, .i1⟩
  | 97 => ⟨S4096x1, .i1⟩
  | 98 => ⟨S_, .f32⟩
  | 99 => ⟨S4096x10, .f32⟩
  | 100 => ⟨S4096x10, .i1⟩
  | 101 => ⟨S4096x10, .f32⟩
  | 102 => ⟨S4096x10, .f32⟩
  | 103 => ⟨S1x1024x256, .f32⟩
  | 104 => ⟨S1024x256, .f32⟩
  | 105 => ⟨S4096x256, .f32⟩
  | 106 => ⟨S1x256, .f32⟩
  | 107 => ⟨S256, .f32⟩
  | 108 => ⟨S1x256, .f32⟩
  | 109 => ⟨S4096x256, .f32⟩
  | 110 => ⟨S4096x256, .f32⟩
  | 111 => ⟨S_, .f32⟩
  | 112 => ⟨S4096x256, .f32⟩
  | 113 => ⟨S4096x256, .f32⟩
  | 114 => ⟨S1x256x10, .f32⟩
  | 115 => ⟨S256x10, .f32⟩
  | 116 => ⟨S4096x10, .f32⟩
  | 117 => ⟨S1x10, .f32⟩
  | 118 => ⟨S10, .f32⟩
  | 119 => ⟨S1x10, .f32⟩
  | 120 => ⟨S4096x10, .f32⟩
  | 121 => ⟨S4096x10, .f32⟩
  | 122 => ⟨S4096x1, .i32⟩
  | 123 => ⟨S4096, .i32⟩
  | 124 => ⟨S_, .i32⟩
  | 125 => ⟨S4096, .i32⟩
  | 126 => ⟨S4096, .i1⟩
  | 127 => ⟨S4096x1, .i1⟩
  | _ => ⟨S4096x1024, .f32⟩

abbrev hbmTy0_2 (i : Nat) : BufTy := match i % 128 with
  | 0 => ⟨S_, .f32⟩
  | 1 => ⟨S4096x10, .f32⟩
  | 2 => ⟨S4096x10, .i1⟩
  | 3 => ⟨S4096x10, .f32⟩
  | 4 => ⟨S4096x10, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_3 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_call1_v0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_c_6 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_7 : Ref sig .tc := ⟨.hbm, 106, rfl⟩
abbrev main_v85 : Ref sig .tc := ⟨.hbm, 107, rfl⟩
abbrev main_call2_v0 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_8 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_c_9 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_10 : Ref sig .tc := ⟨.hbm, 136, rfl⟩
abbrev main_v111 : Ref sig .tc := ⟨.hbm, 137, rfl⟩
abbrev main_call3_v0 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_11 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_c_12 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_13 : Ref sig .tc := ⟨.hbm, 166, rfl⟩
abbrev main_v137 : Ref sig .tc := ⟨.hbm, 167, rfl⟩
abbrev main_call4_v0 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_14 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_c_15 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_16 : Ref sig .tc := ⟨.hbm, 196, rfl⟩
abbrev main_v163 : Ref sig .tc := ⟨.hbm, 197, rfl⟩
abbrev main_call5_v0 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_17 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_c_18 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_cst_19 : Ref sig .tc := ⟨.hbm, 226, rfl⟩
abbrev main_v189 : Ref sig .tc := ⟨.hbm, 227, rfl⟩
abbrev main_call6_v0 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_cst_20 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_c_21 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_cst_22 : Ref sig .tc := ⟨.hbm, 256, rfl⟩
abbrev main_v215 : Ref sig .tc := ⟨.hbm, 257, rfl⟩
abbrev main_call7_v0 : Ref sig .tc := ⟨.hbm, 258, rfl⟩
abbrev main_v216 : Ref sig .tc := ⟨.hbm, 259, rfl⟩
abbrev main_v217 : Ref sig .tc := ⟨.hbm, 260, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  slices_S8x1024x256_S1x1024x256_0_0_0 : S8x1024x256.Slices ![0, 0, 0] S1x1024x256
  shapeCasts_S1x1024x256_S1024x256 : S1x1024x256.ShapeCasts S1024x256
  slices_S8x256_S1x256_0_0 : S8x256.Slices ![0, 0] S1x256
  shapeCasts_S1x256_S256 : S1x256.ShapeCasts S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  slices_S8x256x10_S1x256x10_0_0_0 : S8x256x10.Slices ![0, 0, 0] S1x256x10
  shapeCasts_S1x256x10_S256x10 : S1x256x10.ShapeCasts S256x10
  slices_S8x10_S1x10_0_0 : S8x10.Slices ![0, 0] S1x10
  shapeCasts_S1x10_S10 : S1x10.ShapeCasts S10
  slices_S4096x8_S4096x1_0_0 : S4096x8.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x10 : S_.BroadcastsInDim S4096x10 (![] : Fin 0 → Fin S4096x10.rank)
  bcast_S4096x1_S4096x10_0_1 : S4096x1.BroadcastsInDim S4096x10 (![0, 1] : Fin 2 → Fin S4096x10.rank)
  slices_S8x1024x256_S1x1024x256_1_0_0 : S8x1024x256.Slices ![1, 0, 0] S1x1024x256
  slices_S8x256_S1x256_1_0 : S8x256.Slices ![1, 0] S1x256
  slices_S8x256x10_S1x256x10_1_0_0 : S8x256x10.Slices ![1, 0, 0] S1x256x10
  slices_S8x10_S1x10_1_0 : S8x10.Slices ![1, 0] S1x10
  slices_S4096x8_S4096x1_0_1 : S4096x8.Slices ![0, 1] S4096x1
  slices_S8x1024x256_S1x1024x256_2_0_0 : S8x1024x256.Slices ![2, 0, 0] S1x1024x256
  slices_S8x256_S1x256_2_0 : S8x256.Slices ![2, 0] S1x256
  slices_S8x256x10_S1x256x10_2_0_0 : S8x256x10.Slices ![2, 0, 0] S1x256x10
  slices_S8x10_S1x10_2_0 : S8x10.Slices ![2, 0] S1x10
  slices_S4096x8_S4096x1_0_2 : S4096x8.Slices ![0, 2] S4096x1
  slices_S8x1024x256_S1x1024x256_3_0_0 : S8x1024x256.Slices ![3, 0, 0] S1x1024x256
  slices_S8x256_S1x256_3_0 : S8x256.Slices ![3, 0] S1x256
  slices_S8x256x10_S1x256x10_3_0_0 : S8x256x10.Slices ![3, 0, 0] S1x256x10
  slices_S8x10_S1x10_3_0 : S8x10.Slices ![3, 0] S1x10
  slices_S4096x8_S4096x1_0_3 : S4096x8.Slices ![0, 3] S4096x1
  slices_S8x1024x256_S1x1024x256_4_0_0 : S8x1024x256.Slices ![4, 0, 0] S1x1024x256
  slices_S8x256_S1x256_4_0 : S8x256.Slices ![4, 0] S1x256
  slices_S8x256x10_S1x256x10_4_0_0 : S8x256x10.Slices ![4, 0, 0] S1x256x10
  slices_S8x10_S1x10_4_0 : S8x10.Slices ![4, 0] S1x10
  slices_S4096x8_S4096x1_0_4 : S4096x8.Slices ![0, 4] S4096x1
  slices_S8x1024x256_S1x1024x256_5_0_0 : S8x1024x256.Slices ![5, 0, 0] S1x1024x256
  slices_S8x256_S1x256_5_0 : S8x256.Slices ![5, 0] S1x256
  slices_S8x256x10_S1x256x10_5_0_0 : S8x256x10.Slices ![5, 0, 0] S1x256x10
  slices_S8x10_S1x10_5_0 : S8x10.Slices ![5, 0] S1x10
  slices_S4096x8_S4096x1_0_5 : S4096x8.Slices ![0, 5] S4096x1
  slices_S8x1024x256_S1x1024x256_6_0_0 : S8x1024x256.Slices ![6, 0, 0] S1x1024x256
  slices_S8x256_S1x256_6_0 : S8x256.Slices ![6, 0] S1x256
  slices_S8x256x10_S1x256x10_6_0_0 : S8x256x10.Slices ![6, 0, 0] S1x256x10
  slices_S8x10_S1x10_6_0 : S8x10.Slices ![6, 0] S1x10
  slices_S4096x8_S4096x1_0_6 : S4096x8.Slices ![0, 6] S4096x1
  slices_S8x1024x256_S1x1024x256_7_0_0 : S8x1024x256.Slices ![7, 0, 0] S1x1024x256
  slices_S8x256_S1x256_7_0 : S8x256.Slices ![7, 0] S1x256
  slices_S8x256x10_S1x256x10_7_0_0 : S8x256x10.Slices ![7, 0, 0] S1x256x10
  slices_S8x10_S1x10_7_0 : S8x10.Slices ![7, 0] S1x10
  slices_S4096x8_S4096x1_0_7 : S4096x8.Slices ![0, 7] S4096x1
  dot_S4096x1024_S1024x2048_S4096x2048_1_0_0_1_n_n_wf : DotDims.WF S4096x1024 S1024x2048 S4096x2048 [1] [0] [0] [1] [] []
  dot_S4096x2048_S2048x10_S4096x10_1_0_0_1_n_n_wf : DotDims.WF S4096x2048 S2048x10 S4096x10 [1] [0] [0] [1] [] []
  dot_S4096x1024_S1024x256_S4096x256_1_0_0_1_n_n_wf : DotDims.WF S4096x1024 S1024x256 S4096x256 [1] [0] [0] [1] [] []
  dot_S4096x256_S256x10_S4096x10_1_0_0_1_n_n_wf : DotDims.WF S4096x256 S256x10 S4096x10 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x10_S4096x10_1_0_0_1_n_n : DotDims S4096x2048 S2048x10 S4096x10 where
  lhsContracting := [1]
  rhsContracting := [0]
  lhsNonContracting := [0]
  rhsNonContracting := [1]
  lhsBatch := []
  rhsBatch := []
  wf := dot_S4096x2048_S2048x10_S4096x10_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x10_S4096x10_1_0_0_1_n_n : DotDims S4096x256 S256x10 S4096x10 where
  lhsContracting := [1]
  rhsContracting := [0]
  lhsNonContracting := [0]
  rhsNonContracting := [1]
  lhsBatch := []
  rhsBatch := []
  wf := dot_S4096x256_S256x10_S4096x10_1_0_0_1_n_n_wf

class Facts : Prop extends Facts₀ where

variable [Facts]
-- ==== Proof.PreBits.lean ====
/-
  What the precondition says about the bitmap: every entry of the int32 bitmap is 0 or 1.

  The precondition is a conjunction of `all`-reductions joined by `and`; its last conjunct is
  `all ((bitmap == 0) | (bitmap == 1))`. The whole being 1, the last conjunct is 1; an `and`-reduction over every axis is 1
  only if every entry is 1; and an entry `(b == 0) | (b == 1)` is 1 exactly when `b = 0` or `b = 1`.
-/
import proofs.«168783_g10831907520693_week1_w3_86_18_alg».proof.Pre_finite_inputs
import Idealize.ShloMosaic.Lib.ReduceAll
import Idealize.ShloMosaic.Lib.Affine
import Idealize.ShloMosaic.Lib.ValueIdx

noncomputable section

namespace Cert.NetSum.Pre

open Cert.Pre_finite_inputs Idealize.ShloMosaic Idealize.ShloMosaic.ValueIdx

/-- The empty shape has one index. -/
private instance subsingleton_scalarIdx : Subsingleton S_.Idx := ⟨fun a b => funext fun d => d.elim0⟩

/-- Under the precondition, every entry of the bitmap is 0 or 1. -/
theorem bits_of_pre {F : FTy → Type} [FloatOps F] [Cert.Pre_finite_inputs.Facts]
    (a0 : FVec F S4096x1024 .f32) (a1 : IVec S4096x8 32) (a2 : FVec F S1024x2048 .f32) (a3 : FVec F S2048 .f32)
    (a4 : FVec F S2048x10 .f32) (a5 : FVec F S10 .f32) (a6 : FVec F S8x1024x256 .f32) (a7 : FVec F S8x256 .f32)
    (a8 : FVec F S8x256x10 .f32) (a9 : FVec F S8x10 .f32)
    (h : Cert.Pre_finite_inputs.fn (F := F) a0 a1 a2 a3 a4 a5 a6 a7 a8 a9 = fun _ => 1#1) (i : S4096x8.Idx) :
    a1 i = 0#32 ∨ a1 i = 1#32 := by
  have h0 := congrFun h ValueIdx.ix0
  dsimp only [Cert.Pre_finite_inputs.fn, Cert.Pre_finite_inputs.fn_part1, Cert.Pre_finite_inputs.fn_part2] at h0
  -- the outermost `and` being 1, its second operand, the `all` over the bitmap, is 1
  have h1 := (IntOp.andi_eq_one.1 h0).2
  -- an `and`-reduction over every axis that is 1 met a 1 at every entry
  have h2 := Host.reduce_andi_all _ _ _ _ _ h1 i
  -- the entry is `(b == 0) | (b == 1)`, and a scalar broadcast reads the scalar
  rcases IntOp.ori_eq_one.1 h2 with h3 | h3
  · exact Or.inl (IntOp.cmpi_eq.1 h3)
  · exact Or.inr (IntOp.cmpi_eq.1 h3)

end Cert.NetSum.Pre

end
-- ==== Proof.LibIdxSums.lean ====
/-
  Finite sums over the multi-indices of an array, as nested sums over the coordinates, in any additive commutative
  monoid (the extended reals among them: their addition is commutative and associative at the infinities too, so a
  sum may be regrouped freely there).

  * a rank-4 array with a unit second axis, [a, 1, c, d]: the sum over every index is the triple sum over the three
    long coordinates (`sum_idx4_unit1`); and the sum over the indices whose leading coordinate is a given `A` is the
    double sum over the last two (`sum_filter_lead4_unit1`) — what a sum "over every axis but the first" reads as;
  * a rank-3 array with two trailing unit axes, [a, 1, 1]: the sum over every index is the sum over the leading
    coordinate (`sum_idx3_unit12`);
  * a sum over `Fin (m * n)` cut into `m` consecutive runs of `n` (`sum_fin_mul`);
  * a sum over `2K` consecutive naturals taken two at a time (`sum_range_pairs`);
  * a running total that starts from `z + x 0` and adds `x (k+1)` at each later step is `z` plus the partial sum
    (`chain_eq_sum`).
-/
import Idealize.ShloMosaic.Lib.ValueIdx

namespace Idealize.ShloMosaic.LibIdxSums

open Idealize.ShloMosaic Idealize.ShloMosaic.ValueIdx

variable {M : Type*} [AddCommMonoid M]

/-- The indices of an [a, 1, c, d] array are the triples of its long coordinates. -/
def idxEquiv4Unit1 {a c d : Nat} : (⟨4, ![a, 1, c, d]⟩ : Shape).Idx ≃ Fin a × Fin c × Fin d where
  toFun j := (j 0, j 2, j 3)
  invFun p := ix4 p.1 (0 : Fin 1) p.2.1 p.2.2
  left_inv j := by
    funext x
    match x with
    | ⟨0, _⟩ => rfl
    | ⟨1, _⟩ => exact Fin.ext (by have := (j 1).isLt; show 0 = (j 1).val; simp at this; omega)
    | ⟨2, _⟩ => rfl
    | ⟨3, _⟩ => rfl
  right_inv p := rfl

/-- The sum over every index of an [a, 1, c, d] array is the triple sum over its three long coordinates. -/
theorem sum_idx4_unit1 {a c d : Nat} (f : (⟨4, ![a, 1, c, d]⟩ : Shape).Idx → M) :
    ∑ j, f j = ∑ A : Fin a, ∑ C : Fin c, ∑ D : Fin d, f (ix4 A (0 : Fin 1) C D) := by
  rw [← Equiv.sum_comp (idxEquiv4Unit1 (a := a) (c := c) (d := d)).symm f, Fintype.sum_prod_type]
  refine Finset.sum_congr rfl fun A _ => ?_
  rw [Fintype.sum_prod_type]
  rfl

/-- The sum over the indices of an [a, 1, c, d] array whose leading coordinate is `A`: the double sum over the last two
    coordinates. (`lead` is any function that reads the leading coordinate — a reduction's "drop the other axes".) -/
theorem sum_filter_lead4_unit1 {a c d : Nat} {ι : Type*} [DecidableEq ι] (lead : (⟨4, ![a, 1, c, d]⟩ : Shape).Idx → ι) (key : ι)
    (A : Fin a) (hlead : ∀ j, lead j = key ↔ j 0 = A) (f : (⟨4, ![a, 1, c, d]⟩ : Shape).Idx → M) :
    ∑ j ∈ Finset.univ.filter (fun j => lead j = key), f j = ∑ C : Fin c, ∑ D : Fin d, f (ix4 A (0 : Fin 1) C D) := by
  rw [Finset.sum_filter, sum_idx4_unit1]
  rw [Finset.sum_eq_single A]
  · refine Finset.sum_congr rfl fun C _ => Finset.sum_congr rfl fun D _ => ?_
    rw [if_pos ((hlead _).mpr rfl)]
  · intro A' _ hne
    refine Finset.sum_eq_zero fun C _ => Finset.sum_eq_zero fun D _ => ?_
    rw [if_neg (fun h => hne ((hlead _).mp h))]
  · intro h; exact absurd (Finset.mem_univ A) h

/-- The indices of an [a, 1, 1] array are its leading coordinates. -/
def idxEquiv3Unit12 {a : Nat} : (⟨3, ![a, 1, 1]⟩ : Shape).Idx ≃ Fin a where
  toFun j := j 0
  invFun p := ix3 p (0 : Fin 1) (0 : Fin 1)
  left_inv j := by
    funext x
    match x with
    | ⟨0, _⟩ => rfl
    | ⟨1, _⟩ => exact Fin.ext (by have := (j 1).isLt; show 0 = (j 1).val; simp at this; omega)
    | ⟨2, _⟩ => exact Fin.ext (by have := (j 2).isLt; show 0 = (j 2).val; simp at this; omega)
  right_inv p := rfl

/-- The sum over every index of an [a, 1, 1] array is the sum over its leading coordinate. -/
theorem sum_idx3_unit12 {a : Nat} (f : (⟨3, ![a, 1, 1]⟩ : Shape).Idx → M) :
    ∑ j, f j = ∑ A : Fin a, f (ix3 A (0 : Fin 1) (0 : Fin 1)) :=
  (Equiv.sum_comp (idxEquiv3Unit12 (a := a)).symm f).symm

/-- A sum over `Fin (m * n)` is the sum over `m` consecutive runs of `n`: position `n * i + j` is entry `j` of run `i`. -/
theorem sum_fin_mul (m n : Nat) (f : Fin (m * n) → M) :
    ∑ k, f k = ∑ i : Fin m, ∑ j : Fin n, f (finProdFinEquiv (i, j)) := by
  rw [← Equiv.sum_comp finProdFinEquiv f, Fintype.sum_prod_type]

/-- A sum over the first `2K` naturals, taken in consecutive pairs. -/
theorem sum_range_pairs (f : Nat → M) : ∀ K, ∑ k ∈ Finset.range K, (f (2 * k) + f (2 * k + 1)) = ∑ n ∈ Finset.range (2 * K), f n
  | 0 => by simp
  | K + 1 => by
    rw [Finset.sum_range_succ, sum_range_pairs f K, show 2 * (K + 1) = 2 * K + 1 + 1 by ring, Finset.sum_range_succ,
      Finset.sum_range_succ, add_assoc]

/-- A running total: from `z + x 0`, adding `x (k + 1)` at step `k + 1`, the total after step `n` is `z` plus the sum of
    `x 0 … x n`. -/
theorem chain_eq_sum (acc x : Nat → M) (z : M) (h0 : acc 0 = z + x 0) (hs : ∀ k, acc (k + 1) = acc k + x (k + 1)) :
    ∀ n, acc n = z + ∑ k ∈ Finset.range (n + 1), x k
  | 0 => by rw [h0, Finset.sum_range_one]
  | n + 1 => by rw [hs, chain_eq_sum acc x z h0 hs n, Finset.sum_range_succ _ (n + 1), add_assoc]

end Idealize.ShloMosaic.LibIdxSums
-- ==== Proof.Spec.lean ====
/-
  The network this kernel computes, as one function of the argument arrays, and the law that joins its two
  arrangements.

  A row `x` of 1024 features goes through a target net (2048 hidden units, ReLU, 10 classes) and through 8 patch
  nets (256 hidden units each, ReLU, 10 classes); patch net `e` contributes to the row's output only where the row's
  bit `e` is set:

      G n c = (∑ j, relu (x n · W1[:, j] + b1 j) · W2 j c + b2 c)
              + ∑ e, if bit n e ≠ 0 then (∑ k, relu (x n · Wp1[e][:, k] + bp1 e k) · Wp2 e k c + bp2 e c) else 0.

  The fused arrangement lays all 2048 + 8·256 = 4096 hidden units side by side, each patch unit already multiplied by
  its row's bit read as a number, contracts the 4096 against the stacked second-layer weights in ONE sum, and adds the
  bits times the patch biases:

      (∑ f : Fin 4096, h f · Wc f + b2) + ∑ e, bit e · bp2 e.

  The two agree when every bit is 0 or 1: the one sum over 4096 splits into the first 2048 units and 8 runs of 256
  (addition of extended reals is commutative and associative, infinities included, so regrouping is free); at a bit 1
  the factor 1 drops; at a bit 0 every product with 0 is 0 on the extended reals, whatever the other factor, so the
  run and its bias vanish together. No finiteness of the inputs is used.
-/
import Idealize.ShloMosaic.PureOps.Ideal
import proofs.«168783_g10831907520693_week1_w3_86_18_alg».proof.Proof.LibIdxSums

noncomputable section

namespace Cert.NetSum

open Idealize.ShloMosaic Idealize.ShloMosaic.LibIdxSums

/-- A target-net hidden unit of a row: ReLU of the row against column `j` of the first layer, plus its bias. -/
def hidden (x : Fin 1024 → EReal) (W1 : Fin 1024 → Fin 2048 → EReal) (b1 : Fin 2048 → EReal) (j : Fin 2048) : EReal :=
  max (∑ d : Fin 1024, x d * W1 d j + b1 j) 0

/-- Hidden unit `k` of patch net `e` of a row. -/
def phidden (x : Fin 1024 → EReal) (Wp1 : Fin 8 → Fin 1024 → Fin 256 → EReal) (bp1 : Fin 8 → Fin 256 → EReal)
    (e : Fin 8) (k : Fin 256) : EReal :=
  max (∑ d : Fin 1024, x d * Wp1 e d k + bp1 e k) 0

/-- The output at row `n`, class `c`: the target net, plus every patch net whose bit is set in the row. -/
def G (x : Fin 4096 → Fin 1024 → EReal) (B : Fin 4096 → Fin 8 → BitVec 32)
    (W1 : Fin 1024 → Fin 2048 → EReal) (b1 : Fin 2048 → EReal) (W2 : Fin 2048 → Fin 10 → EReal) (b2 : Fin 10 → EReal)
    (Wp1 : Fin 8 → Fin 1024 → Fin 256 → EReal) (bp1 : Fin 8 → Fin 256 → EReal)
    (Wp2 : Fin 8 → Fin 256 → Fin 10 → EReal) (bp2 : Fin 8 → Fin 10 → EReal) (n : Fin 4096) (c : Fin 10) : EReal :=
  (∑ j : Fin 2048, hidden (x n) W1 b1 j * W2 j c + b2 c)
    + ∑ e : Fin 8, if B n e ≠ 0#32 then (∑ k : Fin 256, phidden (x n) Wp1 bp1 e k * Wp2 e k c + bp2 e c) else 0

/-- Where target-net unit `j` sits among the 4096 side-by-side hidden units: at `j`. -/
def low (j : Fin 2048) : Fin 4096 := ⟨j.val, by have := j.isLt; omega⟩

/-- Where unit `k` of patch net `e` sits: after the 2048 target units, in run `e` of 256. -/
def slot (e : Fin 8) (k : Fin 256) : Fin 4096 := ⟨2048 + (256 * e.val + k.val), by have := e.isLt; have := k.isLt; omega⟩

/-- A sum over the 4096 side-by-side units is the sum over the 2048 target units plus, for each patch net, the sum
    over its 256 units. -/
theorem sum_hidden_split {M : Type*} [AddCommMonoid M] (T : Fin 4096 → M) :
    ∑ f, T f = ∑ j : Fin 2048, T (low j) + ∑ e : Fin 8, ∑ k : Fin 256, T (slot e k) := by
  have h := Fin.sum_univ_add (M := M) (a := 2048) (b := 2048) T
  refine h.trans ?_
  congr 1
  rw [sum_fin_mul 8 256 (fun g : Fin (8 * 256) => T (Fin.natAdd 2048 g))]
  refine Finset.sum_congr rfl fun e _ => Finset.sum_congr rfl fun k _ => ?_
  refine congrArg T (Fin.ext ?_)
  show 2048 + (finProdFinEquiv (e, k)).val = 2048 + (256 * e.val + k.val)
  rw [finProdFinEquiv_apply_val]
  show 2048 + (k.val + 256 * e.val) = 2048 + (256 * e.val + k.val)
  omega

/-- A bit that is 0 or 1, read as a number, is 0 when the bit is 0 and 1 otherwise. -/
theorem bit_cases (b : BitVec 32) (hb : b = 0#32 ∨ b = 1#32) :
    (b = 0#32 ∧ ((b.toInt : ℝ) : EReal) = 0) ∨ (b ≠ 0#32 ∧ ((b.toInt : ℝ) : EReal) = 1) := by
  rcases hb with rfl | rfl
  · left; refine ⟨rfl, ?_⟩; norm_num
  · right; refine ⟨by decide, ?_⟩; norm_num

/-- THE LAW. For one row and one class: the single contraction over the 4096 side-by-side units (patch units carrying
    their bit as a factor) plus the bits times the patch biases, is the target net plus the patch nets whose bit is
    set — when every bit is 0 or 1. -/
theorem fused_eq_routed
    (hb Wc : Fin 4096 → EReal) (hid W2 : Fin 2048 → EReal) (ph Wp2 : Fin 8 → Fin 256 → EReal)
    (B : Fin 8 → BitVec 32) (b2 : EReal) (bp2 : Fin 8 → EReal)
    (h1 : ∀ j, hb (low j) = hid j) (h1' : ∀ j, Wc (low j) = W2 j)
    (h2 : ∀ e k, hb (slot e k) = ph e k * (((B e).toInt : ℝ) : EReal)) (h2' : ∀ e k, Wc (slot e k) = Wp2 e k)
    (hB : ∀ e, B e = 0#32 ∨ B e = 1#32) :
    (∑ f, hb f * Wc f + b2) + ∑ e, (((B e).toInt : ℝ) : EReal) * bp2 e
      = (∑ j, hid j * W2 j + b2) + ∑ e, if B e ≠ 0#32 then (∑ k, ph e k * Wp2 e k + bp2 e) else 0 := by
  rw [sum_hidden_split (fun f => hb f * Wc f)]
  simp only [h1, h1', h2, h2']
  rw [add_right_comm (∑ j, hid j * W2 j) _ b2, add_assoc (∑ j, hid j * W2 j + b2), ← Finset.sum_add_distrib]
  congr 1
  refine Finset.sum_congr rfl fun e _ => ?_
  rcases bit_cases (B e) (hB e) with ⟨h0, hz⟩ | ⟨h0, ho⟩
  · rw [if_neg (not_not.mpr h0), hz]
    simp only [mul_zero, zero_mul, Finset.sum_const_zero, add_zero]
  · rw [if_pos h0, ho]
    simp only [mul_one, one_mul]

end Cert.NetSum

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.Tiles.lean ====
/-
  The kernel's arithmetic, tile by tile, read at an entry over the extended reals.

  One grid step holds 512 rows. It fills a [512, 4096] buffer of hidden units with sixteen [512, 256] tiles and then
  contracts the buffer once:

  * a TARGET tile: the rows against 256 columns of the first layer, plus the bias row, clamped at 0:
      tile[p, k] = max (Σ_d x[p, d] · W[d, k] + b[0, k]) 0;
  * a PATCH tile: the same against one patch net's first layer, then every row scaled by that row's bit (a [512, 1]
    column cut out of the [512, 8] bit block and spread over the 256 lanes):
      tile[p, k] = max (Σ_d x[p, d] · W[0, d, k] + b[0, k]) 0 · bits[p, e];
  * the contraction of the [512, 4096] buffer with the stacked [4096, 10] second layer;
  * the output: contraction + bias row + bits · patch biases.

  A change of float format is the identity here, a cast to the same shape is the identity, and a cast [a, 1] → [a] →
  [a, 1] (or [1, b] → [b] → [1, b]) there and back is the identity.
-/
import proofs.«168783_g10831907520693_week1_w3_86_18_alg».proof.Proof.Gen.KernelIdeal.Skeleton
import proofs.«168783_g10831907520693_week1_w3_86_18_alg».proof.Proof.LibMatmul2
import Idealize.ShloMosaic.Lib.Pipeline.Value
import Idealize.ShloMosaic.Lib.ValueIdx
import Idealize.ShloMosaic.Lib.ValueLayout
import Idealize.ShloMosaic.PureOps.Ideal.Laws

noncomputable section

namespace Cert.NetSum.Tile

open Cert.KernelIdeal Idealize.ShloMosaic Idealize.ShloMosaic.ValueIdx

/-- An [a, 1] column spread over b lanes reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The clamp's zero is the real 0. -/
theorem zero_word : (Scalar.ofBits (F := Ideal) .f32 0x00000000#32 : EReal) = 0 := Ideal.ofBits_zero_f32

/-- A TARGET tile at (row p, lane k). -/
theorem tgt_core (v0 : FVec Ideal S512x1024 .f32) (w : FVec Ideal S1024x256 .f32) (b : FVec Ideal S1x256 .f32)
    (h1 : S1x256.ShapeCasts S1x256) (h2 : S1x256.Broadcasts S512x256) (hb : FTy.bf16.bits < FTy.f32.bits)
    (h3 : S512x256.ShapeCasts S512x256) (p : Fin 512) (k : Fin 256) :
    shapeCast S512x256 (truncf .bf16 (maximumf (addf
        (FloatOps.matmul dot_S512x1024_S1024x256_S512x256_1_0_0_1_n_n none v0 w (constant S512x256 .f32 0x00000000#32))
        (broadcastTo S512x256 (shapeCast S1x256 b h1) h2))
      (broadcast S512x256 (Scalar.ofBits .f32 0x00000000#32))) hb) h3 (ix2 p k)
      = max (∑ d : Fin 1024, v0 (ix2 p d) * w (ix2 d k) + b (ix2 (0 : Fin 1) k)) 0 := by
  rw [shapeCast_self, shapeCast_self]
  show max (FloatOps.matmul dot_S512x1024_S1024x256_S512x256_1_0_0_1_n_n none v0 w (constant S512x256 .f32 0x00000000#32) (ix2 p k)
      + broadcastTo S512x256 b h2 (ix2 p k)) (Scalar.ofBits (F := Ideal) .f32 0x00000000#32) = _
  refine congrArg₂ max (congrArg₂ (· + ·) ?_ ?_) zero_word
  · exact LibMatmul2.matmul_nn_apply dot_S512x1024_S1024x256_S512x256_1_0_0_1_n_n.wf none v0 w p k
  · exact broadcastTo_1b_ab_apply b h2 p k

/-- A PATCH tile at (row p, lane k): the clamped unit times the row's bit `e`. -/
theorem exp_core (v0 : FVec Ideal S512x1024 .f32) (v2 : FVec Ideal S512x8 .f32) (w3 : FVec Ideal S1x1024x256 .f32)
    (b : FVec Ideal S1x256 .f32) (e : Fin 8) (off : Fin 2 → Nat) (hoff : off = ![0, e.val])
    (h1 : S1x1024x256.ShapeCasts S1024x256) (h2 : S1x256.ShapeCasts S256) (h3 : S256.ShapeCasts S1x256)
    (h4 : S1x256.Broadcasts S512x256) (hs : S512x8.Slices off S512x1) (h5 : S512x1.ShapeCasts S512)
    (h6 : S512.ShapeCasts S512x1) (h7 : S512x1.Broadcasts S512x256) (hb : FTy.bf16.bits < FTy.f32.bits)
    (h8 : S512x256.ShapeCasts S512x256) (p : Fin 512) (k : Fin 256) :
    shapeCast S512x256 (truncf .bf16 (mulf (maximumf (addf
        (FloatOps.matmul dot_S512x1024_S1024x256_S512x256_1_0_0_1_n_n none v0 (shapeCast S1024x256 w3 h1) (constant S512x256 .f32 0x00000000#32))
        (broadcastTo S512x256 (shapeCast S1x256 (shapeCast S256 b h2) h3) h4))
      (broadcast S512x256 (Scalar.ofBits .f32 0x00000000#32)))
      (broadcastTo S512x256 (shapeCast S512x1 (shapeCast S512 (extractStridedSlice S512x1 off v2 hs) h5) h6) h7)) hb) h8 (ix2 p k)
      = max (∑ d : Fin 1024, v0 (ix2 p d) * w3 (ix3 (0 : Fin 1) d k) + b (ix2 (0 : Fin 1) k)) 0 * v2 (ix2 p e) := by
  subst hoff
  rw [shapeCast_self, shapeCast_shapeCast, shapeCast_shapeCast]
  show max (FloatOps.matmul dot_S512x1024_S1024x256_S512x256_1_0_0_1_n_n none v0 (shapeCast S1024x256 w3 h1) (constant S512x256 .f32 0x00000000#32) (ix2 p k)
      + broadcastTo S512x256 b h4 (ix2 p k)) (Scalar.ofBits (F := Ideal) .f32 0x00000000#32)
      * broadcastTo S512x256 (extractStridedSlice S512x1 ![0, e.val] v2 hs) h7 (ix2 p k) = _
  refine congrArg₂ (· * ·) (congrArg₂ max (congrArg₂ (· + ·) ?_ ?_) zero_word) ?_
  · refine (LibMatmul2.matmul_nn_apply dot_S512x1024_S1024x256_S512x256_1_0_0_1_n_n.wf none v0 (shapeCast S1024x256 w3 h1) p k).trans ?_
    exact Finset.sum_congr rfl fun d _ => congrArg (v0 (ix2 p d) * ·) (shapeCast_1ab_ab_apply w3 h1 d k)
  · exact broadcastTo_1b_ab_apply b h4 p k
  · refine (broadcastTo_a1_ab_apply _ h7 p k).trans ?_
    exact extractStridedSlice_apply ![0, e.val] v2 hs (ix2 p (0 : Fin 1)) (ix2 p e) (fun a => match a with
      | ⟨0, _⟩ => by show p.val = 0 + p.val; omega
      | ⟨1, _⟩ => by show e.val = e.val + 0; omega)

/-- The contraction of the hidden buffer with the stacked second layer, at (row p, class c). -/
theorem contract_core (hbuf : FVec Ideal S512x4096 .bf16) (wc : FVec Ideal S4096x10 .bf16) (h : S4096x10.ShapeCasts S4096x10)
    (p : Fin 512) (c : Fin 10) :
    FloatOps.matmul dot_S512x4096_S4096x10_S512x10_1_0_0_1_n_n none hbuf (shapeCast S4096x10 wc h) (constant S512x10 .f32 0x00000000#32) (ix2 p c)
      = ∑ f : Fin 4096, hbuf (ix2 p f) * wc (ix2 f c) := by
  rw [shapeCast_self]
  exact LibMatmul2.matmul_nn_apply dot_S512x4096_S4096x10_S512x10_1_0_0_1_n_n.wf none hbuf wc p c

/-- The output tile at (row p, class c): contraction + bias row + bits times the patch biases. -/
theorem out_core (v2 : FVec Ideal S512x8 .f32) (acc : FVec Ideal S512x10 .f32) (b2 : FVec Ideal S1x10 .f32) (bp2 : FVec Ideal S8x10 .f32)
    (h1 : S1x10.ShapeCasts S1x10) (h2 : S1x10.Broadcasts S512x10) (p : Fin 512) (c : Fin 10) :
    addf (addf acc (broadcastTo S512x10 (shapeCast S1x10 b2 h1) h2))
        (FloatOps.matmul dot_S512x8_S8x10_S512x10_1_0_0_1_n_n none v2 bp2 (constant S512x10 .f32 0x00000000#32)) (ix2 p c)
      = (acc (ix2 p c) + b2 (ix2 (0 : Fin 1) c)) + ∑ e : Fin 8, v2 (ix2 p e) * bp2 (ix2 e c) := by
  rw [shapeCast_self]
  show (acc (ix2 p c) + broadcastTo S512x10 b2 h2 (ix2 p c))
      + FloatOps.matmul dot_S512x8_S8x10_S512x10_1_0_0_1_n_n none v2 bp2 (constant S512x10 .f32 0x00000000#32) (ix2 p c) = _
  refine congrArg₂ (· + ·) (congrArg (acc (ix2 p c) + ·) ?_) ?_
  · exact broadcastTo_1b_ab_apply b2 h2 p c
  · exact LibMatmul2.matmul_nn_apply dot_S512x8_S8x10_S512x10_1_0_0_1_n_n.wf none v2 bp2 p c

end Cert.NetSum.Tile

end
-- ==== Proof.Block.lean ====
/-
  What one grid step writes: the output block of 512 rows, read at an entry.

  A grid step loads its 512 rows of x and of the bits (as numbers), and the whole weights. It fills a [512, 4096] buffer
  sixteen [512, 256] tiles at a time — tile j < 8 the target net's hidden units 256·j … 256·j+255 (weights and bias
  loaded from those columns of the first layer), tile 8 + e patch net e's 256 hidden units times the row's bit e — and
  then loads the whole buffer back. Every tile's payload agrees, index by index, with ONE function `hbArr` of the buffer
  index, and the sixteen column ranges cover the buffer, so what is loaded back IS `hbArr`: no tile is ever looked up
  by its position in the list of stores. The output block is then the contraction of `hbArr` with the stacked second
  layer, plus the bias row, plus the bits times the patch biases (the tile lemmas of Tiles.lean).
-/
import proofs.«168783_g10831907520693_week1_w3_86_18_alg».proof.Proof.Gen.KernelIdeal.Frame
import proofs.«168783_g10831907520693_week1_w3_86_18_alg».proof.Proof.Tiles
import Idealize.ShloMosaic.Lib.Pipeline.Value
import Idealize.ShloMosaic.Lib.ValueIdx
import Idealize.ShloMosaic.Lib.Tactic

noncomputable section

namespace Cert.NetSum.Block

open Cert.KernelIdeal Cert.KernelIdeal.Gen Idealize.ShloMosaic Idealize.ShloMosaic.ValueIdx Idealize.ShloMosaic.TcCoe Idealize.SL.Sem
open Cert.NetSum

theorem hz2 : (![0, 0] : Fin 2 → Nat) = fun _ => 0 := funext fun a => by fin_cases a <;> rfl

/-- Which patch net a hidden unit past the first 2048 belongs to, and which of its 256 units it is. -/
def eOf (f : Fin 4096) : Fin 8 := ⟨(f.val - 2048) / 256, by have := f.isLt; omega⟩
def kOf (f : Fin 4096) : Fin 256 := ⟨(f.val - 2048) % 256, Nat.mod_lt _ (by norm_num)⟩

/-- Hidden unit `f` of row `p` of a grid step's block: a target-net unit for f < 2048, otherwise unit (f − 2048) mod 256
    of patch net (f − 2048) / 256 times the row's bit for that net. -/
def hbAt (x0 : FVec Ideal S512x1024 .f32) (x1 : FVec Ideal S512x8 .f32) (x2 : FVec Ideal S1024x2048 .f32) (x3 : FVec Ideal S1x2048 .f32) (x6 : FVec Ideal S8x1024x256 .f32) (x7 : FVec Ideal S8x256 .f32) (p : Fin 512) (f : Fin 4096) : EReal :=
  if h : f.val < 2048 then
    max (∑ d : Fin 1024, x0 (ix2 p d) * x2 (ix2 d (⟨f.val, h⟩ : Fin 2048)) + x3 (ix2 (0 : Fin 1) (⟨f.val, h⟩ : Fin 2048))) 0
  else
    max (∑ d : Fin 1024, x0 (ix2 p d) * x6 (ix3 (eOf f) d (kOf f)) + x7 (ix2 (eOf f) (kOf f))) 0 * x1 (ix2 p (eOf f))

/-- The same as a [512, 4096] array. -/
def hbArr (x0 : FVec Ideal S512x1024 .f32) (x1 : FVec Ideal S512x8 .f32) (x2 : FVec Ideal S1024x2048 .f32) (x3 : FVec Ideal S1x2048 .f32) (x6 : FVec Ideal S8x1024x256 .f32) (x7 : FVec Ideal S8x256 .f32) : S512x4096.Idx → EReal :=
  fun y => hbAt x0 x1 x2 x3 x6 x7 (y 0) (y 1)

theorem hbAt_low (x0 : FVec Ideal S512x1024 .f32) (x1 : FVec Ideal S512x8 .f32) (x2 : FVec Ideal S1024x2048 .f32) (x3 : FVec Ideal S1x2048 .f32) (x6 : FVec Ideal S8x1024x256 .f32) (x7 : FVec Ideal S8x256 .f32) (p : Fin 512) (f : Fin 4096) (j : Fin 2048) (hf : f.val = j.val) :
    hbAt x0 x1 x2 x3 x6 x7 p f = max (∑ d : Fin 1024, x0 (ix2 p d) * x2 (ix2 d j) + x3 (ix2 (0 : Fin 1) j)) 0 := by
  have hlt : f.val < 2048 := by have := j.isLt; omega
  have hj : (⟨f.val, hlt⟩ : Fin 2048) = j := Fin.ext hf
  unfold hbAt
  rw [dif_pos hlt, hj]

theorem hbAt_slot (x0 : FVec Ideal S512x1024 .f32) (x1 : FVec Ideal S512x8 .f32) (x2 : FVec Ideal S1024x2048 .f32) (x3 : FVec Ideal S1x2048 .f32) (x6 : FVec Ideal S8x1024x256 .f32) (x7 : FVec Ideal S8x256 .f32) (p : Fin 512) (f : Fin 4096) (e : Fin 8) (k : Fin 256) (hf : f.val = 2048 + (256 * e.val + k.val)) :
    hbAt x0 x1 x2 x3 x6 x7 p f = max (∑ d : Fin 1024, x0 (ix2 p d) * x6 (ix3 e d k) + x7 (ix2 e k)) 0 * x1 (ix2 p e) := by
  have hge : ¬ f.val < 2048 := by omega
  have he : eOf f = e := Fin.ext (by show (f.val - 2048) / 256 = e.val; have := k.isLt; omega)
  have hk : kOf f = k := Fin.ext (by show (f.val - 2048) % 256 = k.val; have := k.isLt; omega)
  unfold hbAt
  rw [dif_neg hge, he, hk]

/-- A target tile stored at columns o … o+255 of the buffer agrees with `hbArr` there: its weights and bias were loaded
    from the same columns of the first layer. -/
theorem tgt_tile_agree (x0 : FVec Ideal S512x1024 .f32) (x1 : FVec Ideal S512x8 .f32) (x2 : FVec Ideal S1024x2048 .f32) (x3 : FVec Ideal S1x2048 .f32) (x6 : FVec Ideal S8x1024x256 .f32) (x7 : FVec Ideal S8x256 .f32) (o : ℕ) (ho : o + 256 ≤ 2048)
    (inbS : ∀ a, (![0, o] : Fin S512x4096.rank → ℕ) a + S512x256.size a ≤ S512x4096.size a)
    (inb2 : ∀ a, (![0, o] : Fin S1024x2048.rank → ℕ) a + S1024x256.size a ≤ S1024x2048.size a)
    (inb3 : ∀ a, (![0, o] : Fin S1x2048.rank → ℕ) a + S1x256.size a ≤ S1x2048.size a)
    (T : FVec Ideal S512x256 .bf16)
    (hT : ∀ (p : Fin 512) (k : Fin 256), T (ix2 p k) = max (∑ d : Fin 1024, x0 (ix2 p d)
        * View.ld (Val := Elt Ideal) (e' := EltTy.f32) x2 (Rect.unit (s := S1024x2048) ![0, o] S1024x256.size inb2) (ix2 d k)
        + View.ld (Val := Elt Ideal) (e' := EltTy.f32) x3 (Rect.unit (s := S1x2048) ![0, o] S1x256.size inb3) (ix2 (0 : Fin 1) k)) 0)
    (x : (Rect.unit (s := S512x4096) ![0, o] S512x256.size inbS).shape.Idx) :
    T x = hbArr x0 x1 x2 x3 x6 x7 ((Rect.unit (s := S512x4096) ![0, o] S512x256.size inbS).emb x) := by
  obtain ⟨p, k, rfl⟩ : ∃ (p : Fin 512) (k : Fin 256), x = ix2 p k := ⟨x 0, x 1, eq_ix2 (n0 := 512) (n1 := 256) x⟩
  have hk := k.isLt
  have hemb : (Rect.unit (s := S512x4096) ![0, o] S512x256.size inbS).emb (ix2 p k) = ix2 p (⟨o + k.val, by omega⟩ : Fin 4096) :=
    funext fun a => Fin.ext (match a with
      | ⟨0, _⟩ => by show 0 + 1 * p.val = p.val; omega
      | ⟨1, _⟩ => by show o + 1 * k.val = o + k.val; omega)
  rw [hemb]
  show T (ix2 p k) = hbAt x0 x1 x2 x3 x6 x7 p ⟨o + k.val, _⟩
  rw [hT p k, hbAt_low x0 x1 x2 x3 x6 x7 p ⟨o + k.val, by omega⟩ ⟨o + k.val, by omega⟩ rfl]
  refine congrArg (max · 0) (congrArg₂ (· + ·) (Finset.sum_congr rfl fun d _ => congrArg (x0 (ix2 p d) * ·) ?_) ?_)
  · exact congrArg x2 (funext fun a => Fin.ext (match a with
      | ⟨0, _⟩ => by show 0 + 1 * d.val = d.val; omega
      | ⟨1, _⟩ => by show o + 1 * k.val = o + k.val; omega))
  · exact congrArg x3 (funext fun a => Fin.ext (match a with
      | ⟨0, _⟩ => by show 0 + 1 * 0 = 0; omega
      | ⟨1, _⟩ => by show o + 1 * k.val = o + k.val; omega))

/-- A patch tile of net e stored at columns 2048 + 256·e … agrees with `hbArr` there. -/
theorem exp_tile_agree (x0 : FVec Ideal S512x1024 .f32) (x1 : FVec Ideal S512x8 .f32) (x2 : FVec Ideal S1024x2048 .f32) (x3 : FVec Ideal S1x2048 .f32) (x6 : FVec Ideal S8x1024x256 .f32) (x7 : FVec Ideal S8x256 .f32) (e : Fin 8) (en : ℕ) (hen : en = e.val) (o : ℕ) (ho : o = 2048 + 256 * en)
    (inbS : ∀ a, (![0, o] : Fin S512x4096.rank → ℕ) a + S512x256.size a ≤ S512x4096.size a)
    (inb6 : ∀ a, (![en, 0, 0] : Fin S8x1024x256.rank → ℕ) a + S1x1024x256.size a ≤ S8x1024x256.size a)
    (inb7 : ∀ a, (![en, 0] : Fin S8x256.rank → ℕ) a + S1x256.size a ≤ S8x256.size a)
    (T : FVec Ideal S512x256 .bf16)
    (hT : ∀ (p : Fin 512) (k : Fin 256), T (ix2 p k) = max (∑ d : Fin 1024, x0 (ix2 p d)
        * View.ld (Val := Elt Ideal) (e' := EltTy.f32) x6 (Rect.unit (s := S8x1024x256) ![en, 0, 0] S1x1024x256.size inb6) (ix3 (0 : Fin 1) d k)
        + View.ld (Val := Elt Ideal) (e' := EltTy.f32) x7 (Rect.unit (s := S8x256) ![en, 0] S1x256.size inb7) (ix2 (0 : Fin 1) k)) 0 * x1 (ix2 p e))
    (x : (Rect.unit (s := S512x4096) ![0, o] S512x256.size inbS).shape.Idx) :
    T x = hbArr x0 x1 x2 x3 x6 x7 ((Rect.unit (s := S512x4096) ![0, o] S512x256.size inbS).emb x) := by
  obtain ⟨p, k, rfl⟩ : ∃ (p : Fin 512) (k : Fin 256), x = ix2 p k := ⟨x 0, x 1, eq_ix2 (n0 := 512) (n1 := 256) x⟩
  have hk := k.isLt
  have hel := e.isLt
  have hemb : (Rect.unit (s := S512x4096) ![0, o] S512x256.size inbS).emb (ix2 p k) = ix2 p (⟨o + k.val, by omega⟩ : Fin 4096) :=
    funext fun a => Fin.ext (match a with
      | ⟨0, _⟩ => by show 0 + 1 * p.val = p.val; omega
      | ⟨1, _⟩ => by show o + 1 * k.val = o + k.val; omega)
  rw [hemb]
  show T (ix2 p k) = hbAt x0 x1 x2 x3 x6 x7 p ⟨o + k.val, _⟩
  rw [hT p k, hbAt_slot x0 x1 x2 x3 x6 x7 p ⟨o + k.val, by omega⟩ e k (by show o + k.val = 2048 + (256 * e.val + k.val); omega)]
  refine congrArg (· * x1 (ix2 p e)) (congrArg (max · 0) (congrArg₂ (· + ·) (Finset.sum_congr rfl fun d _ => congrArg (x0 (ix2 p d) * ·) ?_) ?_))
  · exact congrArg x6 (funext fun a => Fin.ext (match a with
      | ⟨0, _⟩ => by show en + 1 * 0 = e.val; omega
      | ⟨1, _⟩ => by show 0 + 1 * d.val = d.val; omega
      | ⟨2, _⟩ => by show 0 + 1 * k.val = k.val; omega))
  · exact congrArg x7 (funext fun a => Fin.ext (match a with
      | ⟨0, _⟩ => by show en + 1 * 0 = e.val; omega
      | ⟨1, _⟩ => by show 0 + 1 * k.val = k.val; omega))

theorem pay2_eq (v1 : FVec Ideal S512x8 .f32) : k0_pay2 v1 = v1 := shapeCast_self _ _

/-- WHAT A GRID STEP LEAVES in the output block, at (row p, class cc): the contraction of the hidden buffer with the
    stacked second layer, plus the bias row, plus the bits times the patch biases. -/
theorem out_apply (c : Dev nD) (i : grid0.Coords) (arg1 : Memref sig .tc .vmem S512x1024 .f32) (harg1 : arg1.IsWhole) (arg2 : Memref sig .tc .vmem S512x8 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S4096x10 .bf16) (harg5 : arg5.IsWhole) (arg6 : Memref sig .tc .vmem S1x10 .f32) (harg6 : arg6.IsWhole) (arg7 : Memref sig .tc .vmem S8x1024x256 .f32) (harg7 : arg7.IsWhole) (arg8 : Memref sig .tc .vmem S8x256 .f32) (harg8 : arg8.IsWhole) (arg9 : Memref sig .tc .vmem S8x10 .f32) (harg9 : arg9.IsWhole) (arg10 : Memref sig .tc .vmem S512x10 .f32) (harg10 : arg10.IsWhole) (arg11 : Memref sig .tc .vmem S512x4096 .bf16) (harg11 : arg11.IsWhole) (x0 : Vec Ideal S512x1024 .f32) (x1 : Vec Ideal S512x8 .f32) (x2 : Vec Ideal S1024x2048 .f32) (x3 : Vec Ideal S1x2048 .f32) (x4 : Vec Ideal S4096x10 .bf16) (x5 : Vec Ideal S1x10 .f32) (x6 : Vec Ideal S8x1024x256 .f32) (x7 : Vec Ideal S8x256 .f32) (x8 : Vec Ideal S8x10 .f32) (p : Fin 512) (cc : Fin 10) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 p cc)
      = ((∑ f : Fin 4096, hbAt x0 x1 x2 x3 x6 x7 p f * x4 (ix2 f cc)) + x5 (ix2 (0 : Fin 1) cc)) + ∑ e : Fin 8, x1 (ix2 p e) * x8 (ix2 e cc) := by
  have key : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 = k0_pay1 x1 (k0_pay25 (hbArr x0 x1 x2 x3 x6 x7) x4) x5 x8 := by
    unfold out0_A_9
    rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
    unfold kernelRun0_A
    dsimp only
    sl_unfold_words
    rw [View.canon_unit_zero hz2]
    simp only [View.readAt_eq_ld, harg1.read_unread, harg2.read_unread, harg3.read_unread, harg4.read_unread, harg5.read_unread,
      harg6.read_unread, harg7.read_unread, harg8.read_unread, harg9.read_unread,
      View.ld_unit_zero (S := S512x1024) hz2, View.ld_unit_zero (S := S512x8) hz2, View.ld_unit_zero (S := S4096x10) hz2,
      View.ld_unit_zero (S := S1x10) hz2, View.ld_unit_zero (S := S8x10) hz2, pay2_eq]
    refine congrArg (fun H => k0_pay1 x1 (k0_pay25 H x4) x5 x8) ?_
    rw [View.readCov_eq_canon']
    funext j
    have hj1 := (j 1).isLt
    have hidx : (Rect.unit (s := S512x4096) ![0, 0] S512x4096.size inb_S512x4096_S512x4096_0_0).toLoadRect.idx j = j :=
      funext fun a => Fin.ext (match a with
        | ⟨0, _⟩ => by show 0 + 1 * (j 0).val = (j 0).val; omega
        | ⟨1, _⟩ => by show 0 + 1 * (j 1).val = (j 1).val; omega)
    rw [hidx]
    refine View.canon_apply_of_pieces (Val := Elt Ideal) (S := S512x4096) (e := EltTy.bf16) (hbArr x0 x1 x2 x3 x6 x7) _ ?agree j ?cover
    case agree =>
      intro pc hpc
      simp only [List.mem_cons, List.not_mem_nil, or_false] at hpc
      rcases hpc with rfl | rfl | rfl | rfl | rfl | rfl | rfl | rfl | rfl | rfl | rfl | rfl | rfl | rfl | rfl | rfl
      · exact exp_tile_agree x0 x1 x2 x3 x6 x7 (7 : Fin 8) 7 rfl 3840 (by decide) inb_S512x4096_S512x256_0_3840 inb_S8x1024x256_S1x1024x256_7_0_0 inb_S8x256_S1x256_7_0 _ (fun p k => by unfold k0_pay24; exact Tile.exp_core x0 x1 _ _ (7 : Fin 8) _ rfl _ _ _ _ _ _ _ _ _ _ p k)
      · exact exp_tile_agree x0 x1 x2 x3 x6 x7 (6 : Fin 8) 6 rfl 3584 (by decide) inb_S512x4096_S512x256_0_3584 inb_S8x1024x256_S1x1024x256_6_0_0 inb_S8x256_S1x256_6_0 _ (fun p k => by unfold k0_pay23 k0_pay22; exact Tile.exp_core x0 x1 _ _ (6 : Fin 8) _ rfl _ _ _ _ _ _ _ _ _ _ p k)
      · exact exp_tile_agree x0 x1 x2 x3 x6 x7 (5 : Fin 8) 5 rfl 3328 (by decide) inb_S512x4096_S512x256_0_3328 inb_S8x1024x256_S1x1024x256_5_0_0 inb_S8x256_S1x256_5_0 _ (fun p k => by unfold k0_pay21; exact Tile.exp_core x0 x1 _ _ (5 : Fin 8) _ rfl _ _ _ _ _ _ _ _ _ _ p k)
      · exact exp_tile_agree x0 x1 x2 x3 x6 x7 (4 : Fin 8) 4 rfl 3072 (by decide) inb_S512x4096_S512x256_0_3072 inb_S8x1024x256_S1x1024x256_4_0_0 inb_S8x256_S1x256_4_0 _ (fun p k => by unfold k0_pay20 k0_pay19; exact Tile.exp_core x0 x1 _ _ (4 : Fin 8) _ rfl _ _ _ _ _ _ _ _ _ _ p k)
      · exact exp_tile_agree x0 x1 x2 x3 x6 x7 (3 : Fin 8) 3 rfl 2816 (by decide) inb_S512x4096_S512x256_0_2816 inb_S8x1024x256_S1x1024x256_3_0_0 inb_S8x256_S1x256_3_0 _ (fun p k => by unfold k0_pay18; exact Tile.exp_core x0 x1 _ _ (3 : Fin 8) _ rfl _ _ _ _ _ _ _ _ _ _ p k)
      · exact exp_tile_agree x0 x1 x2 x3 x6 x7 (2 : Fin 8) 2 rfl 2560 (by decide) inb_S512x4096_S512x256_0_2560 inb_S8x1024x256_S1x1024x256_2_0_0 inb_S8x256_S1x256_2_0 _ (fun p k => by unfold k0_pay17 k0_pay16; exact Tile.exp_core x0 x1 _ _ (2 : Fin 8) _ rfl _ _ _ _ _ _ _ _ _ _ p k)
      · exact exp_tile_agree x0 x1 x2 x3 x6 x7 (1 : Fin 8) 1 rfl 2304 (by decide) inb_S512x4096_S512x256_0_2304 inb_S8x1024x256_S1x1024x256_1_0_0 inb_S8x256_S1x256_1_0 _ (fun p k => by unfold k0_pay15; exact Tile.exp_core x0 x1 _ _ (1 : Fin 8) _ rfl _ _ _ _ _ _ _ _ _ _ p k)
      · exact exp_tile_agree x0 x1 x2 x3 x6 x7 (0 : Fin 8) 0 rfl 2048 (by decide) inb_S512x4096_S512x256_0_2048 inb_S8x1024x256_S1x1024x256_0_0_0 inb_S8x256_S1x256_0_0 _ (fun p k => by unfold k0_pay14; exact Tile.exp_core x0 x1 _ _ (0 : Fin 8) _ rfl _ _ _ _ _ _ _ _ _ _ p k)
      · exact tgt_tile_agree x0 x1 x2 x3 x6 x7 1792 (by omega) inb_S512x4096_S512x256_0_1792 inb_S1024x2048_S1024x256_0_1792 inb_S1x2048_S1x256_0_1792 _ (fun p k => by unfold k0_pay13; exact Tile.tgt_core x0 _ _ _ _ _ _ p k)
      · exact tgt_tile_agree x0 x1 x2 x3 x6 x7 1536 (by omega) inb_S512x4096_S512x256_0_1536 inb_S1024x2048_S1024x256_0_1536 inb_S1x2048_S1x256_0_1536 _ (fun p k => by unfold k0_pay12; exact Tile.tgt_core x0 _ _ _ _ _ _ p k)
      · exact tgt_tile_agree x0 x1 x2 x3 x6 x7 1280 (by omega) inb_S512x4096_S512x256_0_1280 inb_S1024x2048_S1024x256_0_1280 inb_S1x2048_S1x256_0_1280 _ (fun p k => by unfold k0_pay11 k0_pay10; exact Tile.tgt_core x0 _ _ _ _ _ _ p k)
      · exact tgt_tile_agree x0 x1 x2 x3 x6 x7 1024 (by omega) inb_S512x4096_S512x256_0_1024 inb_S1024x2048_S1024x256_0_1024 inb_S1x2048_S1x256_0_1024 _ (fun p k => by unfold k0_pay9; exact Tile.tgt_core x0 _ _ _ _ _ _ p k)
      · exact tgt_tile_agree x0 x1 x2 x3 x6 x7 768 (by omega) inb_S512x4096_S512x256_0_768 inb_S1024x2048_S1024x256_0_768 inb_S1x2048_S1x256_0_768 _ (fun p k => by unfold k0_pay8; exact Tile.tgt_core x0 _ _ _ _ _ _ p k)
      · exact tgt_tile_agree x0 x1 x2 x3 x6 x7 512 (by omega) inb_S512x4096_S512x256_0_512 inb_S1024x2048_S1024x256_0_512 inb_S1x2048_S1x256_0_512 _ (fun p k => by unfold k0_pay7 k0_pay5 k0_pay6; exact Tile.tgt_core x0 _ _ _ _ _ _ p k)
      · exact tgt_tile_agree x0 x1 x2 x3 x6 x7 256 (by omega) inb_S512x4096_S512x256_0_256 inb_S1024x2048_S1024x256_0_256 inb_S1x2048_S1x256_0_256 _ (fun p k => by unfold k0_pay4; exact Tile.tgt_core x0 _ _ _ _ _ _ p k)
      · exact tgt_tile_agree x0 x1 x2 x3 x6 x7 0 (by omega) inb_S512x4096_S512x256_0_0 inb_S1024x2048_S1024x256_0_0 inb_S1x2048_S1x256_0_0 _ (fun p k => by unfold k0_pay3; exact Tile.tgt_core x0 _ _ _ _ _ _ p k)
    case cover =>
      have hq : (j 1).val / 256 < 16 := by have : (j 1).val < 4096 := hj1; omega
      obtain ⟨q, hqe⟩ : ∃ q, q = (j 1).val / 256 := ⟨_, rfl⟩
      rw [← hqe] at hq
      interval_cases q
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ?_⟩
        refine (Rect.mem_set_unit (inb := inb_S512x4096_S512x256_0_0)).mpr fun a => ?_
        match a with
        | ⟨0, _⟩ => show (0 : ℕ) ≤ (j 0).val ∧ (j 0).val < 0 + 512; have h0 : (j 0).val < 512 := (j 0).isLt; omega
        | ⟨1, _⟩ => show (0 : ℕ) ≤ (j 1).val ∧ (j 1).val < 0 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ?_⟩
        refine (Rect.mem_set_unit (inb := inb_S512x4096_S512x256_0_256)).mpr fun a => ?_
        match a with
        | ⟨0, _⟩ => show (0 : ℕ) ≤ (j 0).val ∧ (j 0).val < 0 + 512; have h0 : (j 0).val < 512 := (j 0).isLt; omega
        | ⟨1, _⟩ => show (256 : ℕ) ≤ (j 1).val ∧ (j 1).val < 256 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ?_⟩
        refine (Rect.mem_set_unit (inb := inb_S512x4096_S512x256_0_512)).mpr fun a => ?_
        match a with
        | ⟨0, _⟩ => show (0 : ℕ) ≤ (j 0).val ∧ (j 0).val < 0 + 512; have h0 : (j 0).val < 512 := (j 0).isLt; omega
        | ⟨1, _⟩ => show (512 : ℕ) ≤ (j 1).val ∧ (j 1).val < 512 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ?_⟩
        refine (Rect.mem_set_unit (inb := inb_S512x4096_S512x256_0_768)).mpr fun a => ?_
        match a with
        | ⟨0, _⟩ => show (0 : ℕ) ≤ (j 0).val ∧ (j 0).val < 0 + 512; have h0 : (j 0).val < 512 := (j 0).isLt; omega
        | ⟨1, _⟩ => show (768 : ℕ) ≤ (j 1).val ∧ (j 1).val < 768 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩
        refine (Rect.mem_set_unit (inb := inb_S512x4096_S512x256_0_1024)).mpr fun a => ?_
        match a with
        | ⟨0, _⟩ => show (0 : ℕ) ≤ (j 0).val ∧ (j 0).val < 0 + 512; have h0 : (j 0).val < 512 := (j 0).isLt; omega
        | ⟨1, _⟩ => show (1024 : ℕ) ≤ (j 1).val ∧ (j 1).val < 1024 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩
        refine (Rect.mem_set_unit (inb := inb_S512x4096_S512x256_0_1280)).mpr fun a => ?_
        match a with
        | ⟨0, _⟩ => show (0 : ℕ) ≤ (j 0).val ∧ (j 0).val < 0 + 512; have h0 : (j 0).val < 512 := (j 0).isLt; omega
        | ⟨1, _⟩ => show (1280 : ℕ) ≤ (j 1).val ∧ (j 1).val < 1280 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
        refine (Rect.mem_set_unit (inb := inb_S512x4096_S512x256_0_1536)).mpr fun a => ?_
        match a with
        | ⟨0, _⟩ => show (0 : ℕ) ≤ (j 0).val ∧ (j 0).val < 0 + 512; have h0 : (j 0).val < 512 := (j 0).isLt; omega
        | ⟨1, _⟩ => show (1536 : ℕ) ≤ (j 1).val ∧ (j 1).val < 1536 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
        refine (Rect.mem_set_unit (inb := inb_S512x4096_S512x256_0_1792)).mpr fun a => ?_
        match a with
        | ⟨0, _⟩ => show (0 : ℕ) ≤ (j 0).val ∧ (j 0).val < 0 + 512; have h0 : (j 0).val < 512 := (j 0).isLt; omega
        | ⟨1, _⟩ => show (1792 : ℕ) ≤ (j 1).val ∧ (j 1).val < 1792 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        refine (Rect.mem_set_unit (inb := inb_S512x4096_S512x256_0_2048)).mpr fun a => ?_
        match a with
        | ⟨0, _⟩ => show (0 : ℕ) ≤ (j 0).val ∧ (j 0).val < 0 + 512; have h0 : (j 0).val < 512 := (j 0).isLt; omega
        | ⟨1, _⟩ => show (2048 : ℕ) ≤ (j 1).val ∧ (j 1).val < 2048 + 256; omega
      · refine ⟨_, List.mem_cons_of_mem _ (List.mem_cons_of_mem _ (List.mem_cons_of_mem _ (List.mem_cons_of_mem _ (List.mem_cons_of_mem _ (List.mem_cons_of_mem _ (List.mem_cons_self)))))), ?_⟩
        refine (Rect.mem_set_unit (inb := inb_S512x4096_S512x256_0_2304)).mpr fun a => ?_
        match a with
        | ⟨0, _⟩ => show (0 : ℕ) ≤ (j 0).val ∧ (j 0).val < 0 + 512; have h0 : (j 0).val < 512 := (j 0).isLt; omega
        | ⟨1, _⟩ => show (2304 : ℕ) ≤ (j 1).val ∧ (j 1).val < 2304 + 256; omega
      · refine ⟨_, List.mem_cons_of_mem _ (List.mem_cons_of_mem _ (List.mem_cons_of_mem _ (List.mem_cons_of_mem _ (List.mem_cons_of_mem _ (List.mem_cons_self))))), ?_⟩
        refine (Rect.mem_set_unit (inb := inb_S512x4096_S512x256_0_2560)).mpr fun a => ?_
        match a with
        | ⟨0, _⟩ => show (0 : ℕ) ≤ (j 0).val ∧ (j 0).val < 0 + 512; have h0 : (j 0).val < 512 := (j 0).isLt; omega
        | ⟨1, _⟩ => show (2560 : ℕ) ≤ (j 1).val ∧ (j 1).val < 2560 + 256; omega
      · refine ⟨_, List.mem_cons_of_mem _ (List.mem_cons_of_mem _ (List.mem_cons_of_mem _ (List.mem_cons_of_mem _ (List.mem_cons_self)))), ?_⟩
        refine (Rect.mem_set_unit (inb := inb_S512x4096_S512x256_0_2816)).mpr fun a => ?_
        match a with
        | ⟨0, _⟩ => show (0 : ℕ) ≤ (j 0).val ∧ (j 0).val < 0 + 512; have h0 : (j 0).val < 512 := (j 0).isLt; omega
        | ⟨1, _⟩ => show (2816 : ℕ) ≤ (j 1).val ∧ (j 1).val < 2816 + 256; omega
      · refine ⟨_, List.mem_cons_of_mem _ (List.mem_cons_of_mem _ (List.mem_cons_of_mem _ (List.mem_cons_self))), ?_⟩
        refine (Rect.mem_set_unit (inb := inb_S512x4096_S512x256_0_3072)).mpr fun a => ?_
        match a with
        | ⟨0, _⟩ => show (0 : ℕ) ≤ (j 0).val ∧ (j 0).val < 0 + 512; have h0 : (j 0).val < 512 := (j 0).isLt; omega
        | ⟨1, _⟩ => show (3072 : ℕ) ≤ (j 1).val ∧ (j 1).val < 3072 + 256; omega
      · refine ⟨_, List.mem_cons_of_mem _ (List.mem_cons_of_mem _ (List.mem_cons_self)), ?_⟩
        refine (Rect.mem_set_unit (inb := inb_S512x4096_S512x256_0_3328)).mpr fun a => ?_
        match a with
        | ⟨0, _⟩ => show (0 : ℕ) ≤ (j 0).val ∧ (j 0).val < 0 + 512; have h0 : (j 0).val < 512 := (j 0).isLt; omega
        | ⟨1, _⟩ => show (3328 : ℕ) ≤ (j 1).val ∧ (j 1).val < 3328 + 256; omega
      · refine ⟨_, List.mem_cons_of_mem _ (List.mem_cons_self), ?_⟩
        refine (Rect.mem_set_unit (inb := inb_S512x4096_S512x256_0_3584)).mpr fun a => ?_
        match a with
        | ⟨0, _⟩ => show (0 : ℕ) ≤ (j 0).val ∧ (j 0).val < 0 + 512; have h0 : (j 0).val < 512 := (j 0).isLt; omega
        | ⟨1, _⟩ => show (3584 : ℕ) ≤ (j 1).val ∧ (j 1).val < 3584 + 256; omega
      · refine ⟨_, List.mem_cons_self, ?_⟩
        refine (Rect.mem_set_unit (inb := inb_S512x4096_S512x256_0_3840)).mpr fun a => ?_
        match a with
        | ⟨0, _⟩ => show (0 : ℕ) ≤ (j 0).val ∧ (j 0).val < 0 + 512; have h0 : (j 0).val < 512 := (j 0).isLt; omega
        | ⟨1, _⟩ => show (3840 : ℕ) ≤ (j 1).val ∧ (j 1).val < 3840 + 256; omega
  rw [key]
  unfold k0_pay1
  refine (Tile.out_core x1 _ x5 x8 _ _ p cc).trans ?_
  refine congrArg (· + ∑ e : Fin 8, x1 (ix2 p e) * x8 (ix2 e cc)) (congrArg (· + x5 (ix2 (0 : Fin 1) cc)) ?_)
  unfold k0_pay25
  exact Tile.contract_core (hbArr x0 x1 x2 x3 x6 x7) x4 _ p cc

end Cert.NetSum.Block

end
-- ==== Proof.HostWindows.lean ====
/-
  The arrays the region finds in the windows that host operations wrote before it, read at an index.

  Before the launch the host converts the int32 bitmap to floats (each entry the integer it holds, exactly), stacks
  the target net's second-layer weights [2048, 10] on top of the 8 patch nets' [256, 10] weights viewed as one
  [2048, 10] array — so row f of the stacked [4096, 10] array is row f of the target's weights for f < 2048, and row k
  of patch net e for f = 2048 + 256·e + k —, changes its float format (the identity on extended reals), and views the
  two bias vectors as one-row matrices.
-/
import proofs.«168783_g10831907520693_week1_w3_86_18_alg».proof.Proof.Gen.KernelIdeal.Frame
import proofs.«168783_g10831907520693_week1_w3_86_18_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.NetSum.Host

open Cert.KernelIdeal Cert.KernelIdeal.Gen Idealize.ShloMosaic Idealize.ShloMosaic.TcCoe Idealize.SL.Sem Idealize.ShloMosaic.ValueIdx
open Cert.NetSum (low slot)

variable (m : (ℓ : Loc nD τ sig) → Buf (Elt Ideal) ℓ)

/-- The bitmap window's array: each int32 entry read as the number it holds. -/
theorem V_bitmap (c : Dev nD) (n : Fin 4096) (e : Fin 8) :
    (V m c main_v0 : S4096x8.Idx → EReal) (ix2 n e)
      = ((((m ((c : Thread nD τ).loc main_arg1) : S4096x8.Idx → BitVec 32) (ix2 n e)).toInt : ℝ) : EReal) := by
  have hV : (V m c main_v0 : S4096x8.Idx → EReal)
      = sitofp (F := Ideal) .f32 (m ((c : Thread nD τ).loc main_arg1) : S4096x8.Idx → BitVec 32) := by
    dsimp only [Gen.V, Gen.hostOps0]; after_results
  -- the conversion acts entry by entry, and on extended reals it is the integer itself
  exact (congrFun hV _).trans rfl

/-- The stacked weights' window, as an array: the target net's [2048, 10] weights on top of the patch nets'
    [8, 256, 10] weights viewed as [2048, 10] (the change of float format is the identity on extended reals). -/
theorem V_stack (c : Dev nD) :
    (V m c main_v3 : S4096x10.Idx → EReal)
      = concatenate S4096x10 0
          [⟨S2048x10, (m ((c : Thread nD τ).loc main_arg4) : S2048x10.Idx → EReal)⟩,
           ⟨S2048x10, shapeCast S2048x10 (m ((c : Thread nD τ).loc main_arg8) : S8x256x10.Idx → EReal)
              shapeCasts_S8x256x10_S2048x10⟩]
          concatenates_S2048x10_S2048x10_S4096x10_d0 := by
  dsimp only [Gen.V, Gen.hostOps0]; after_results; rfl

/-- The stacked second-layer weights at a target-net row. -/
theorem V_stack_low (c : Dev nD) (j : Fin 2048) (cc : Fin 10) :
    (V m c main_v3 : S4096x10.Idx → EReal) (ix2 (low j) cc)
      = (m ((c : Thread nD τ).loc main_arg4) : S2048x10.Idx → EReal) (ix2 j cc) := by
  refine (congrFun (V_stack m c) _).trans ?_
  -- row `low j` is below the first piece's 2048 rows: the first piece at the same coordinates
  refine concatenate_pair_apply_left (t := S4096x10) (s₁ := S2048x10) (s₂ := S2048x10) _ _ _ _ _
    (show S2048x10.rank = S4096x10.rank from rfl) (ix2 j cc) ?_
  intro b
  match b with
  | ⟨0, _⟩ => rfl
  | ⟨1, _⟩ => rfl

/-- The stacked second-layer weights at row k of patch net e. -/
theorem V_stack_slot (c : Dev nD) (e : Fin 8) (k : Fin 256) (cc : Fin 10) :
    (V m c main_v3 : S4096x10.Idx → EReal) (ix2 (slot e k) cc)
      = (m ((c : Thread nD τ).loc main_arg8) : S8x256x10.Idx → EReal) (ix3 e k cc) := by
  have hr : 256 * e.val + k.val < 2048 := by have := e.isLt; have := k.isLt; omega
  refine (congrFun (V_stack m c) _).trans ?_
  -- row `slot e k` is past the first piece's 2048 rows: the second piece at row 256·e + k …
  refine (concatenate_pair_apply_right (t := S4096x10) (s₁ := S2048x10) (s₂ := S2048x10) _ _ _ _ _
    (show S2048x10.rank = S4096x10.rank from rfl) (show S2048x10.rank = S4096x10.rank from rfl)
    (ix2 (⟨256 * e.val + k.val, hr⟩ : Fin 2048) cc) ?_ ?_).trans ?_
  · intro b hb
    match b, hb with
    | ⟨0, _⟩, hb => exact absurd (Fin.ext rfl) hb
    | ⟨1, _⟩, _ => rfl
  · show 256 * e.val + k.val + 2048 = 2048 + (256 * e.val + k.val)
    omega
  -- … and (256·e + k, cc) of the [2048, 10] view has the row-major position of (e, k, cc) in [8, 256, 10]
  · exact shapeCast_apply _ _ _ (ix3 e k cc) (by
      rw [Shape.rowMajor_val_three, Shape.rowMajor_val_two]
      show (e.val * 256 + k.val) * 10 + cc.val = (256 * e.val + k.val) * 10 + cc.val
      omega)

/-- The target net's first-layer bias as a one-row matrix. -/
theorem V_bias1 (c : Dev nD) (j : Fin 2048) :
    (V m c main_v4 : S1x2048.Idx → EReal) (ix2 (0 : Fin 1) j)
      = (m ((c : Thread nD τ).loc main_arg3) : S2048.Idx → EReal) (ix1 j) := by
  have hV : (V m c main_v4 : S1x2048.Idx → EReal)
      = shapeCast S1x2048 (m ((c : Thread nD τ).loc main_arg3) : S2048.Idx → EReal) shapeCasts_S2048_S1x2048 := by
    dsimp only [Gen.V, Gen.hostOps0]; after_results; rfl
  exact (congrFun hV _).trans (shapeCast_a_1a_apply _ _ (0 : Fin 1) j)

/-- The target net's second-layer bias as a one-row matrix. -/
theorem V_bias2 (c : Dev nD) (cc : Fin 10) :
    (V m c main_v5 : S1x10.Idx → EReal) (ix2 (0 : Fin 1) cc)
      = (m ((c : Thread nD τ).loc main_arg5) : S10.Idx → EReal) (ix1 cc) := by
  have hV : (V m c main_v5 : S1x10.Idx → EReal)
      = shapeCast S1x10 (m ((c : Thread nD τ).loc main_arg5) : S10.Idx → EReal) shapeCasts_S10_S1x10 := by
    dsimp only [Gen.V, Gen.hostOps0]; after_results; rfl
  exact (congrFun hV _).trans (shapeCast_a_1a_apply _ _ (0 : Fin 1) cc)

end Cert.NetSum.Host

end
-- ==== Proof.KernelArray.lean ====
/-
  From blocks to the array: after the run the kernel's result array is `GA` of the arrays as launched.

  Point t of the 8-point grid works on rows 512·t … 512·t+511: it reads those rows of x and of the bits (converted to
  numbers by the host before the launch), every weight array whole (the second layer as the host stacked it: the
  target's 2048 rows over the 8 × 256 patch rows), and writes back those rows of the result. By the block's value
  (Block.lean) and the law joining the fused and the routed arrangement (Spec.lean, which needs every bit 0 or 1),
  what point t writes back is block t of the ONE array `GA`; the 8 blocks cover the result array (row r is in block
  r / 512), so the array is `GA`.
-/
import proofs.«168783_g10831907520693_week1_w3_86_18_alg».proof.Proof.Gen.KernelIdeal.Value
import proofs.«168783_g10831907520693_week1_w3_86_18_alg».proof.Proof.Spec
import proofs.«168783_g10831907520693_week1_w3_86_18_alg».proof.Proof.Block
import proofs.«168783_g10831907520693_week1_w3_86_18_alg».proof.Proof.HostWindows
import Idealize.ShloMosaic.Lib.Pipeline.Value
import Idealize.ShloMosaic.Lib.ValueIdx

noncomputable section

namespace Cert.NetSum.Kernel

open Cert.KernelIdeal Cert.KernelIdeal.Gen Idealize.ShloMosaic Idealize.ShloMosaic.ValueIdx Idealize.ShloMosaic.TcCoe Idealize.SL.Sem
open Idealize.ShloMosaic.Pipeline (Dat)
open Cert.NetSum

/-- The network as a function of arrays read by shape indices: `G` with every array read at its coordinates. -/
def GA (X : S4096x1024.Idx → EReal) (Bm : S4096x8.Idx → BitVec 32) (W1 : S1024x2048.Idx → EReal) (b1 : S2048.Idx → EReal)
    (W2 : S2048x10.Idx → EReal) (b2 : S10.Idx → EReal) (Wp1 : S8x1024x256.Idx → EReal) (bp1 : S8x256.Idx → EReal)
    (Wp2 : S8x256x10.Idx → EReal) (bp2 : S8x10.Idx → EReal) : S4096x10.Idx → EReal :=
  fun i => G (fun n d => X (ix2 n d)) (fun n e => Bm (ix2 n e)) (fun d j => W1 (ix2 d j)) (fun j => b1 (ix1 j))
    (fun j c => W2 (ix2 j c)) (fun c => b2 (ix1 c)) (fun e d k => Wp1 (ix3 e d k)) (fun e k => bp1 (ix2 e k))
    (fun e k c => Wp2 (ix3 e k c)) (fun e c => bp2 (ix2 e c)) (i 0) (i 1)

/-- THE BLOCK IS A BLOCK OF `GA`. If a block's operands read the whole arrays as stated — row p of the block is row n of
    x and of the bits, the weights are the weights, the stacked second layer is the target's rows then the patch nets'
    — and the row's bits are 0 or 1, then the block's value at (p, cc) is the network at (n, cc). -/
theorem block_eq_G
    (X : S4096x1024.Idx → EReal) (Bm : S4096x8.Idx → BitVec 32) (W1 : S1024x2048.Idx → EReal) (b1 : S2048.Idx → EReal)
    (W2 : S2048x10.Idx → EReal) (b2 : S10.Idx → EReal) (Wp1 : S8x1024x256.Idx → EReal) (bp1 : S8x256.Idx → EReal)
    (Wp2 : S8x256x10.Idx → EReal) (bp2 : S8x10.Idx → EReal)
    (x0 : FVec Ideal S512x1024 .f32) (x1 : FVec Ideal S512x8 .f32) (x2 : FVec Ideal S1024x2048 .f32) (x3 : FVec Ideal S1x2048 .f32)
    (x4 : FVec Ideal S4096x10 .bf16) (x5 : FVec Ideal S1x10 .f32) (x6 : FVec Ideal S8x1024x256 .f32) (x7 : FVec Ideal S8x256 .f32)
    (x8 : FVec Ideal S8x10 .f32) (n : Fin 4096) (p : Fin 512)
    (h0 : ∀ d, x0 (ix2 p d) = X (ix2 n d))
    (h1 : ∀ e, x1 (ix2 p e) = ((((Bm (ix2 n e)).toInt : ℝ)) : EReal))
    (h2 : ∀ d j, x2 (ix2 d j) = W1 (ix2 d j))
    (h3 : ∀ j, x3 (ix2 (0 : Fin 1) j) = b1 (ix1 j))
    (h4l : ∀ j cc, x4 (ix2 (low j) cc) = W2 (ix2 j cc))
    (h4s : ∀ e k cc, x4 (ix2 (slot e k) cc) = Wp2 (ix3 e k cc))
    (h5 : ∀ cc, x5 (ix2 (0 : Fin 1) cc) = b2 (ix1 cc))
    (h6 : ∀ e d k, x6 (ix3 e d k) = Wp1 (ix3 e d k))
    (h7 : ∀ e k, x7 (ix2 e k) = bp1 (ix2 e k))
    (h8 : ∀ e cc, x8 (ix2 e cc) = bp2 (ix2 e cc))
    (hB : ∀ e, Bm (ix2 n e) = 0#32 ∨ Bm (ix2 n e) = 1#32) (cc : Fin 10) :
    ((∑ f : Fin 4096, Block.hbAt x0 x1 x2 x3 x6 x7 p f * x4 (ix2 f cc)) + x5 (ix2 (0 : Fin 1) cc)) + ∑ e : Fin 8, x1 (ix2 p e) * x8 (ix2 e cc)
      = GA X Bm W1 b1 W2 b2 Wp1 bp1 Wp2 bp2 (ix2 n cc) := by
  show _ = G (fun n d => X (ix2 n d)) (fun n e => Bm (ix2 n e)) (fun d j => W1 (ix2 d j)) (fun j => b1 (ix1 j))
    (fun j c => W2 (ix2 j c)) (fun c => b2 (ix1 c)) (fun e d k => Wp1 (ix3 e d k)) (fun e k => bp1 (ix2 e k))
    (fun e k c => Wp2 (ix3 e k c)) (fun e c => bp2 (ix2 e c)) n cc
  unfold G
  rw [h5 cc]
  simp only [h1, h8]
  refine fused_eq_routed (fun f => Block.hbAt x0 x1 x2 x3 x6 x7 p f) (fun f => x4 (ix2 f cc))
    (fun j => hidden (fun d => X (ix2 n d)) (fun d j => W1 (ix2 d j)) (fun j => b1 (ix1 j)) j) (fun j => W2 (ix2 j cc))
    (fun e k => phidden (fun d => X (ix2 n d)) (fun e d k => Wp1 (ix3 e d k)) (fun e k => bp1 (ix2 e k)) e k) (fun e k => Wp2 (ix3 e k cc))
    (fun e => Bm (ix2 n e)) (b2 (ix1 cc)) (fun e => bp2 (ix2 e cc)) ?_ (fun j => h4l j cc) ?_ (fun e k => h4s e k cc) hB
  · intro j
    rw [Block.hbAt_low x0 x1 x2 x3 x6 x7 p (low j) j rfl]
    unfold hidden
    simp only [h0, h2, h3]
  · intro e k
    rw [Block.hbAt_slot x0 x1 x2 x3 x6 x7 p (slot e k) e k rfl]
    unfold phidden
    simp only [h0, h6, h7, h1]

variable (m : (ℓ : Loc nD τ sig) → Buf (Elt Ideal) ℓ)

/-- The printed index maps, decided once over the 8 grid points: the rows of x, of the bits and of the result move with
    the point; every other window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The grid has 8 points. -/
theorem t_lt (t : Fin cfg0.N) : t.val < 8 := by have h := t.isLt; have e : cfg0.N = 8 := N_0; omega

/-- Row p of point t's block is row 512·t + p of the array. -/
def rowOf (t : Fin cfg0.N) (p : Fin 512) : Fin 4096 := ⟨512 * t.val + p.val, by have := t_lt t; have := p.isLt; omega⟩

/-- Window 0's block at point t, read at an entry: the array the region finds there, at the block's place. -/
theorem iblk0 (c : Dev nD) (t : Fin cfg0.N) (p : Fin 512) (d : Fin 1024) :
    (iblk m c 0 t : FVec Ideal S512x1024 .f32) (ix2 p d)
      = (V m c main_arg0 : S4096x1024.Idx → EReal) (ix2 (rowOf t p) d) := by
  obtain ⟨f00, f01, f10, f11, f20, f21, f30, f31, f40, f41, f50, f51, f60, f61, f62, f70, f71, f80, f81, f90, f91⟩ := idx_facts t
  have ht : t.val < 8 := t_lt t
  show (V m c main_arg0 : S4096x1024.Idx → EReal) (((cfg0.win 0).blk t).view.emb (ix2 p d)) = _
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * d.val = d.val; omega

/-- Window 1's block at point t, read at an entry: the array the region finds there, at the block's place. -/
theorem iblk1 (c : Dev nD) (t : Fin cfg0.N) (p : Fin 512) (e : Fin 8) :
    (iblk m c 1 t : FVec Ideal S512x8 .f32) (ix2 p e)
      = (V m c main_v0 : S4096x8.Idx → EReal) (ix2 (rowOf t p) e) := by
  obtain ⟨f00, f01, f10, f11, f20, f21, f30, f31, f40, f41, f50, f51, f60, f61, f62, f70, f71, f80, f81, f90, f91⟩ := idx_facts t
  have ht : t.val < 8 := t_lt t
  show (V m c main_v0 : S4096x8.Idx → EReal) (((cfg0.win 1).blk t).view.emb (ix2 p e)) = _
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 8 + 1 * e.val = e.val; omega

/-- Window 2's block at point t, read at an entry: the array the region finds there, at the block's place. -/
theorem iblk2 (c : Dev nD) (t : Fin cfg0.N) (d : Fin 1024) (j : Fin 2048) :
    (iblk m c 2 t : FVec Ideal S1024x2048 .f32) (ix2 d j)
      = (V m c main_arg2 : S1024x2048.Idx → EReal) (ix2 d j) := by
  obtain ⟨f00, f01, f10, f11, f20, f21, f30, f31, f40, f41, f50, f51, f60, f61, f62, f70, f71, f80, f81, f90, f91⟩ := idx_facts t
  have ht : t.val < 8 := t_lt t
  show (V m c main_arg2 : S1024x2048.Idx → EReal) (((cfg0.win 2).blk t).view.emb (ix2 d j)) = _
  refine congrArg _ (funext fun a => Fin.ext ?_)
  match a with
  | ⟨0, _⟩ => show win0_2.index t (0 : Fin 2) * 1024 + 1 * d.val = d.val; omega
  | ⟨1, _⟩ => show win0_2.index t (1 : Fin 2) * 2048 + 1 * j.val = j.val; omega

/-- Window 3's block at point t, read at an entry: the array the region finds there, at the block's place. -/
theorem iblk3 (c : Dev nD) (t : Fin cfg0.N) (j : Fin 2048) :
    (iblk m c 3 t : FVec Ideal S1x2048 .f32) (ix2 (0 : Fin 1) j)
      = (V m c main_v4 : S1x2048.Idx → EReal) (ix2 (0 : Fin 1) j) := by
  obtain ⟨f00, f01, f10, f11, f20, f21, f30, f31, f40, f41, f50, f51, f60, f61, f62, f70, f71, f80, f81, f90, f91⟩ := idx_facts t
  have ht : t.val < 8 := t_lt t
  show (V m c main_v4 : S1x2048.Idx → EReal) (((cfg0.win 3).blk t).view.emb (ix2 (0 : Fin 1) j)) = _
  refine congrArg _ (funext fun a => Fin.ext ?_)
  match a with
  | ⟨0, _⟩ => show win0_3.index t (0 : Fin 2) * 1 + 1 * 0 = 0; omega
  | ⟨1, _⟩ => show win0_3.index t (1 : Fin 2) * 2048 + 1 * j.val = j.val; omega

/-- Window 4's block at point t, read at an entry: the array the region finds there, at the block's place. -/
theorem iblk4 (c : Dev nD) (t : Fin cfg0.N) (f : Fin 4096) (cc : Fin 10) :
    (iblk m c 4 t : FVec Ideal S4096x10 .bf16) (ix2 f cc)
      = (V m c main_v3 : S4096x10.Idx → EReal) (ix2 f cc) := by
  obtain ⟨f00, f01, f10, f11, f20, f21, f30, f31, f40, f41, f50, f51, f60, f61, f62, f70, f71, f80, f81, f90, f91⟩ := idx_facts t
  have ht : t.val < 8 := t_lt t
  show (V m c main_v3 : S4096x10.Idx → EReal) (((cfg0.win 4).blk t).view.emb (ix2 f cc)) = _
  refine congrArg _ (funext fun a => Fin.ext ?_)
  match a with
  | ⟨0, _⟩ => show win0_4.index t (0 : Fin 2) * 4096 + 1 * f.val = f.val; omega
  | ⟨1, _⟩ => show win0_4.index t (1 : Fin 2) * 10 + 1 * cc.val = cc.val; omega

/-- Window 5's block at point t, read at an entry: the array the region finds there, at the block's place. -/
theorem iblk5 (c : Dev nD) (t : Fin cfg0.N) (cc : Fin 10) :
    (iblk m c 5 t : FVec Ideal S1x10 .f32) (ix2 (0 : Fin 1) cc)
      = (V m c main_v5 : S1x10.Idx → EReal) (ix2 (0 : Fin 1) cc) := by
  obtain ⟨f00, f01, f10, f11, f20, f21, f30, f31, f40, f41, f50, f51, f60, f61, f62, f70, f71, f80, f81, f90, f91⟩ := idx_facts t
  have ht : t.val < 8 := t_lt t
  show (V m c main_v5 : S1x10.Idx → EReal) (((cfg0.win 5).blk t).view.emb (ix2 (0 : Fin 1) cc)) = _
  refine congrArg _ (funext fun a => Fin.ext ?_)
  match a with
  | ⟨0, _⟩ => show win0_5.index t (0 : Fin 2) * 1 + 1 * 0 = 0; omega
  | ⟨1, _⟩ => show win0_5.index t (1 : Fin 2) * 10 + 1 * cc.val = cc.val; omega

/-- Window 6's block at point t, read at an entry: the array the region finds there, at the block's place. -/
theorem iblk6 (c : Dev nD) (t : Fin cfg0.N) (e : Fin 8) (d : Fin 1024) (k : Fin 256) :
    (iblk m c 6 t : FVec Ideal S8x1024x256 .f32) (ix3 e d k)
      = (V m c main_arg6 : S8x1024x256.Idx → EReal) (ix3 e d k) := by
  obtain ⟨f00, f01, f10, f11, f20, f21, f30, f31, f40, f41, f50, f51, f60, f61, f62, f70, f71, f80, f81, f90, f91⟩ := idx_facts t
  have ht : t.val < 8 := t_lt t
  show (V m c main_arg6 : S8x1024x256.Idx → EReal) (((cfg0.win 6).blk t).view.emb (ix3 e d k)) = _
  refine congrArg _ (funext fun a => Fin.ext ?_)
  match a with
  | ⟨0, _⟩ => show win0_6.index t (0 : Fin 3) * 8 + 1 * e.val = e.val; omega
  | ⟨1, _⟩ => show win0_6.index t (1 : Fin 3) * 1024 + 1 * d.val = d.val; omega
  | ⟨2, _⟩ => show win0_6.index t (2 : Fin 3) * 256 + 1 * k.val = k.val; omega

/-- Window 7's block at point t, read at an entry: the array the region finds there, at the block's place. -/
theorem iblk7 (c : Dev nD) (t : Fin cfg0.N) (e : Fin 8) (k : Fin 256) :
    (iblk m c 7 t : FVec Ideal S8x256 .f32) (ix2 e k)
      = (V m c main_arg7 : S8x256.Idx → EReal) (ix2 e k) := by
  obtain ⟨f00, f01, f10, f11, f20, f21, f30, f31, f40, f41, f50, f51, f60, f61, f62, f70, f71, f80, f81, f90, f91⟩ := idx_facts t
  have ht : t.val < 8 := t_lt t
  show (V m c main_arg7 : S8x256.Idx → EReal) (((cfg0.win 7).blk t).view.emb (ix2 e k)) = _
  refine congrArg _ (funext fun a => Fin.ext ?_)
  match a with
  | ⟨0, _⟩ => show win0_7.index t (0 : Fin 2) * 8 + 1 * e.val = e.val; omega
  | ⟨1, _⟩ => show win0_7.index t (1 : Fin 2) * 256 + 1 * k.val = k.val; omega

/-- Window 8's block at point t, read at an entry: the array the region finds there, at the block's place. -/
theorem iblk8 (c : Dev nD) (t : Fin cfg0.N) (e : Fin 8) (cc : Fin 10) :
    (iblk m c 8 t : FVec Ideal S8x10 .f32) (ix2 e cc)
      = (V m c main_arg9 : S8x10.Idx → EReal) (ix2 e cc) := by
  obtain ⟨f00, f01, f10, f11, f20, f21, f30, f31, f40, f41, f50, f51, f60, f61, f62, f70, f71, f80, f81, f90, f91⟩ := idx_facts t
  have ht : t.val < 8 := t_lt t
  show (V m c main_arg9 : S8x10.Idx → EReal) (((cfg0.win 8).blk t).view.emb (ix2 e cc)) = _
  refine congrArg _ (funext fun a => Fin.ext ?_)
  match a with
  | ⟨0, _⟩ => show win0_8.index t (0 : Fin 2) * 8 + 1 * e.val = e.val; omega
  | ⟨1, _⟩ => show win0_8.index t (1 : Fin 2) * 10 + 1 * cc.val = cc.val; omega

/-- The result array: `GA` of the arrays as launched. -/
def result (c : Dev nD) : S4096x10.Idx → EReal :=
  GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- WHAT POINT t WRITES BACK is block t of `result`. -/
theorem flushed_eq (hB : ∀ (c : Dev nD) (i : S4096x8.Idx), ((m ((c : Thread nD τ).loc main_arg1)) : S4096x8.Idx → BitVec 32) i = 0#32 ∨ ((m ((c : Thread nD τ).loc main_arg1)) : S4096x8.Idx → BitVec 32) i = 1#32)
    (c : Dev nD) (t : Fin cfg0.N) :
    (dats m 0 c).flushed 9 t = ((cfg0.win 9).blk t).view.read (Elt Ideal) (result m c) := by
  rw [Cert.KernelIdeal.Value.flushed9_A]
  obtain ⟨f00, f01, f10, f11, f20, f21, f30, f31, f40, f41, f50, f51, f60, f61, f62, f70, f71, f80, f81, f90, f91⟩ := idx_facts t
  have ht : t.val < 8 := t_lt t
  funext y
  obtain ⟨p, cc, rfl⟩ : ∃ (p : Fin 512) (cc : Fin 10), y = ix2 p cc := ⟨y 0, y 1, eq_ix2 (n0 := 512) (n1 := 10) y⟩
  have hp := p.isLt
  show out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix2 p cc)
      = result m c (((cfg0.win 9).blk t).view.emb (ix2 p cc))
  rw [Block.out_apply]
  have hemb : ((cfg0.win 9).blk t).view.emb (ix2 p cc) = ix2 (rowOf t p) cc :=
    funext fun a => Fin.ext (match a with
      | ⟨0, _⟩ => by show win0_9.index t (0 : Fin 2) * 512 + 1 * p.val = 512 * t.val + p.val; omega
      | ⟨1, _⟩ => by show win0_9.index t (1 : Fin 2) * 10 + 1 * cc.val = cc.val; omega)
  rw [hemb]
  refine block_eq_G _ _ _ _ _ _ _ _ _ _ _ _ _ _ _ _ _ _ _ (rowOf t p) p
    (fun d => (iblk0 m c t p d).trans (congrFun (V_main_arg0 m c) _))
    (fun e => (iblk1 m c t p e).trans (Host.V_bitmap m c _ e))
    (fun d j => (iblk2 m c t d j).trans (congrFun (V_main_arg2 m c) _))
    (fun j => (iblk3 m c t j).trans (Host.V_bias1 m c j))
    (fun j cc => (iblk4 m c t (low j) cc).trans (Host.V_stack_low m c j cc))
    (fun e k cc => (iblk4 m c t (slot e k) cc).trans (Host.V_stack_slot m c e k cc))
    (fun cc => (iblk5 m c t cc).trans (Host.V_bias2 m c cc))
    (fun e d k => (iblk6 m c t e d k).trans (congrFun (V_main_arg6 m c) _))
    (fun e k => (iblk7 m c t e k).trans (congrFun (V_main_arg7 m c) _))
    (fun e cc => (iblk8 m c t e cc).trans (congrFun (V_main_arg9 m c) _))
    (fun e => hB c _) cc

/-- An index of the result array is in point t's block iff each coordinate is in the block's range. -/
theorem mem_blk9 (t : Fin cfg0.N) (i : S4096x10.Idx) :
    i ∈ ((cfg0.win 9).blk t).view.set ↔ ∀ a : Fin 2, win0_9.index t a * S512x10.size a ≤ (i a).val ∧ (i a).val < win0_9.index t a * S512x10.size a + S512x10.size a := by
  show i ∈ ((View.whole main_v6).slice (win0_9.rect t)).set ↔ _
  rw [View.set_slice_whole, Rect.mem_set_unit]
  exact Iff.rfl

/-- THE ARRAY after the run is `result`: row r is written by point r / 512. -/
theorem final (hB : ∀ (c : Dev nD) (i : S4096x8.Idx), ((m ((c : Thread nD τ).loc main_arg1)) : S4096x8.Idx → BitVec 32) i = 0#32 ∨ ((m ((c : Thread nD τ).loc main_arg1)) : S4096x8.Idx → BitVec 32) i = 1#32)
    (c : Dev nD) : (dats m 0 c).arrAt 9 cfg0.N = result m c :=
  (dats m 0 c).arrAt_eq_of_cover 9 (result m c) (fun t _ => flushed_eq m hB c t) fun i => by
    have h0 : (i 0).val < 4096 := (i 0).isLt
    have h1 : (i 1).val < 10 := (i 1).isLt
    let t : Fin cfg0.N := ⟨(i 0).val / 512, by show _ < grid0.N; rw [N_0]; omega⟩
    obtain ⟨f00, f01, f10, f11, f20, f21, f30, f31, f40, f41, f50, f51, f60, f61, f62, f70, f71, f80, f81, f90, f91⟩ := idx_facts t
    refine ⟨t, flush0_9 t, (mem_blk9 t i).mpr fun a => ?_⟩
    match a with
    | ⟨0, _⟩ => show win0_9.index t (0 : Fin 2) * 512 ≤ (i 0).val ∧ (i 0).val < win0_9.index t (0 : Fin 2) * 512 + 512
                rw [f90]; show (i 0).val / 512 * 512 ≤ (i 0).val ∧ (i 0).val < (i 0).val / 512 * 512 + 512; omega
    | ⟨1, _⟩ => show win0_9.index t (1 : Fin 2) * 10 ≤ (i 1).val ∧ (i 1).val < win0_9.index t (1 : Fin 2) * 10 + 10
                rw [f91]; omega

end Cert.NetSum.Kernel

end
-- ==== Proof.RefOps.lean ====
/-
  The reference program's operations, in program order, as five lists: the five stretches the program is printed in.
  Each entry is one host operation: which buffers it reads, which it writes, and the function it applies. Their
  concatenation is the whole program (RefMain.lean).
-/
import proofs.«168783_g10831907520693_week1_w3_86_18_alg».proof.Proof.Gen.ReferenceIdeal
import Idealize.ShloMosaic.Lib.StableHlo.Run

noncomputable section

namespace Cert.NetSum.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0: operations 0 … 60. -/
abbrev opsP0 : List (HloOp τ sig (Elt F)) :=
  [ binary main_arg0 main_arg2 main_v0 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    unary main_arg3 main_v1 (broadcastInDim S1x2048 ![1] bcast_S2048_S1x2048_1 : (⟨S2048, .f32⟩ : BufTy).Contents (Elt F) → (⟨S1x2048, .f32⟩ : BufTy).Contents (Elt F)),
    unary main_v1 main_v2 (broadcastInDim S4096x2048 ![0, 1] bcast_S1x2048_S4096x2048_0_1 : (⟨S1x2048, .f32⟩ : BufTy).Contents (Elt F) → (⟨S4096x2048, .f32⟩ : BufTy).Contents (Elt F)),
    binary main_v0 main_v2 main_v3 (addf : (⟨S4096x2048, .f32⟩ : BufTy).Contents (Elt F) → (⟨S4096x2048, .f32⟩ : BufTy).Contents (Elt F) → (⟨S4096x2048, .f32⟩ : BufTy).Contents (Elt F)),
    nullary main_cst (constant S_ .f32 0x00000000#32),
    unary main_cst main_v4 (broadcastInDim S4096x2048 ![] bcast_S_S4096x2048 : (⟨S_, .f32⟩ : BufTy).Contents (Elt F) → (⟨S4096x2048, .f32⟩ : BufTy).Contents (Elt F)),
    binary main_v3 main_v4 main_v5 (maximumf : (⟨S4096x2048, .f32⟩ : BufTy).Contents (Elt F) → (⟨S4096x2048, .f32⟩ : BufTy).Contents (Elt F) → (⟨S4096x2048, .f32⟩ : BufTy).Contents (Elt F)),
    binary main_v5 main_arg4 main_v6 ((fun l r => Host.dotGeneral dot_S4096x2048_S2048x10_S4096x10_1_0_0_1_n_n none l r) : (⟨S4096x2048, .f32⟩ : BufTy).Contents (Elt F) → (⟨S2048x10, .f32⟩ : BufTy).Contents (Elt F) → (⟨S4096x10, .f32⟩ : BufTy).Contents (Elt F)),
    unary main_arg5 main_v7 (broadcastInDim S1x10 ![1] bcast_S10_S1x10_1 : (⟨S10, .f32⟩ : BufTy).Contents (Elt F) → (⟨S1x10, .f32⟩ : BufTy).Contents (Elt F)),
    unary main_v7 main_v8 (broadcastInDim S4096x10 ![0, 1] bcast_S1x10_S4096x10_0_1 : (⟨S1x10, .f32⟩ : BufTy).Contents (Elt F) → (⟨S4096x10, .f32⟩ : BufTy).Contents (Elt F)),
    binary main_v6 main_v8 main_v9 (addf : (⟨S4096x10, .f32⟩ : BufTy).Contents (Elt F) → (⟨S4096x10, .f32⟩ : BufTy).Contents (Elt F) → (⟨S4096x10, .f32⟩ : BufTy).Contents (Elt F)),
    unary main_arg6 main_v10 ((extractStridedSlice S1x1024x256 ![0, 0, 0] · slices_S8x1024x256_S1x1024x256_0_0_0) : (⟨S8x1024x256, .f32⟩ : BufTy).Contents (Elt F) → (⟨S1x1024x256, .f32⟩ : BufTy).Contents (Elt F)),
    reshape main_v10 main_v11 rfl shapeCasts_S1x1024x256_S1024x256,
    binary main_arg0 main_v11 main_v12 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v13 ((extractStridedSlice S1x256 ![0, 0] · slices_S8x256_S1x256_0_0) : (⟨S8x256, .f32⟩ : BufTy).Contents (Elt F) → (⟨S1x256, .f32⟩ : BufTy).Contents (Elt F)),
    reshape main_v13 main_v14 rfl shapeCasts_S1x256_S256,
    unary main_v14 main_v15 (broadcastInDim S1x256 ![1] bcast_S256_S1x256_1 : (⟨S256, .f32⟩ : BufTy).Contents (Elt F) → (⟨S1x256, .f32⟩ : BufTy).Contents (Elt F)),
    unary main_v15 main_v16 (broadcastInDim S4096x256 ![0, 1] bcast_S1x256_S4096x256_0_1 : (⟨S1x256, .f32⟩ : BufTy).Contents (Elt F) → (⟨S4096x256, .f32⟩ : BufTy).Contents (Elt F)),
    binary main_v12 main_v16 main_v17 (addf : (⟨S4096x256, .f32⟩ : BufTy).Contents (Elt F) → (⟨S4096x256, .f32⟩ : BufTy).Contents (Elt F) → (⟨S4096x256, .f32⟩ : BufTy).Contents (Elt F)),
    nullary main_cst_0 (constant S_ .f32 0x00000000#32),
    unary main_cst_0 main_v18 (broadcastInDim S4096x256 ![] bcast_S_S4096x256 : (⟨S_, .f32⟩ : BufTy).Contents (Elt F) → (⟨S4096x256, .f32⟩ : BufTy).Contents (Elt F)),
    binary main_v17 main_v18 main_v19 (maximumf : (⟨S4096x256, .f32⟩ : BufTy).Contents (Elt F) → (⟨S4096x256, .f32⟩ : BufTy).Contents (Elt F) → (⟨S4096x256, .f32⟩ : BufTy).Contents (Elt F)),
    unary main_arg8 main_v20 ((extractStridedSlice S1x256x10 ![0, 0, 0] · slices_S8x256x10_S1x256x10_0_0_0) : (⟨S8x256x10, .f32⟩ : BufTy).Contents (Elt F) → (⟨S1x256x10, .f32⟩ : BufTy).Contents (Elt F)),
    reshape main_v20 main_v21 rfl shapeCasts_S1x256x10_S256x10,
    binary main_v19 main_v21 main_v22 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v23 ((extractStridedSlice S1x10 ![0, 0] · slices_S8x10_S1x10_0_0) : (⟨S8x10, .f32⟩ : BufTy).Contents (Elt F) → (⟨S1x10, .f32⟩ : BufTy).Contents (Elt F)),
    reshape main_v23 main_v24 rfl shapeCasts_S1x10_S10,
    unary main_v24 main_v25 (broadcastInDim S1x10 ![1] bcast_S10_S1x10_1 : (⟨S10, .f32⟩ : BufTy).Contents (Elt F) → (⟨S1x10, .f32⟩ : BufTy).Contents (Elt F)),
    unary main_v25 main_v26 (broadcastInDim S4096x10 ![0, 1] bcast_S1x10_S4096x10_0_1 : (⟨S1x10, .f32⟩ : BufTy).Contents (Elt F) → (⟨S4096x10, .f32⟩ : BufTy).Contents (Elt F)),
    binary main_v22 main_v26 main_v27 (addf : (⟨S4096x10, .f32⟩ : BufTy).Contents (Elt F) → (⟨S4096x10, .f32⟩ : BufTy).Contents (Elt F) → (⟨S4096x10, .f32⟩ : BufTy).Contents (Elt F)),
    unary main_arg1 main_v28 ((extractStridedSlice S4096x1 ![0, 0] · slices_S4096x8_S4096x1_0_0) : (⟨S4096x8, .i32⟩ : BufTy).Contents (Elt F) → (⟨S4096x1, .i32⟩ : BufTy).Contents (Elt F)),
    reshape main_v28 main_v29 rfl shapeCasts_S4096x1_S4096,
    nullary main_c (constantI S_ 32 0#32),
    unary main_c main_v30 (broadcastInDim S4096 ![] bcast_S_S4096 : (⟨S_, .i32⟩ : BufTy).Contents (Elt F) → (⟨S4096, .i32⟩ : BufTy).Contents (Elt F)),
    binary main_v29 main_v30 main_v31 (cmpi .ne : (⟨S4096, .i32⟩ : BufTy).Contents (Elt F) → (⟨S4096, .i32⟩ : BufTy).Contents (Elt F) → (⟨S4096, .i1⟩ : BufTy).Contents (Elt F)),
    unary main_v31 main_v32 (broadcastInDim S4096x1 ![0] bcast_S4096_S4096x1_0 : (⟨S4096, .i1⟩ : BufTy).Contents (Elt F) → (⟨S4096x1, .i1⟩ : BufTy).Contents (Elt F)),
    nullary main_cst_1 (constant S_ .f32 0x00000000#32),
    unary main_cst_1 main_v33 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v32) (TRef.of (T := ⟨S4096x10, .i1⟩) main_call0_v0) (broadcastInDim S4096x10 ![0, 1] bcast_S4096x1_S4096x10_0_1),
    TRef.ternary (TRef.of (T := ⟨S4096x10, .i1⟩) main_call0_v0) (TRef.of (T := ⟨S4096x10, .f32⟩) main_v27) (TRef.of (T := ⟨S4096x10, .f32⟩) main_v33) (TRef.of (T := ⟨S4096x10, .f32⟩) main_v34) select,
    binary main_v9 main_v34 main_v35 (addf : (⟨S4096x10, .f32⟩ : BufTy).Contents (Elt F) → (⟨S4096x10, .f32⟩ : BufTy).Contents (Elt F) → (⟨S4096x10, .f32⟩ : BufTy).Contents (Elt F)),
    unary main_arg6 main_v36 ((extractStridedSlice S1x1024x256 ![1, 0, 0] · slices_S8x1024x256_S1x1024x256_1_0_0) : (⟨S8x1024x256, .f32⟩ : BufTy).Contents (Elt F) → (⟨S1x1024x256, .f32⟩ : BufTy).Contents (Elt F)),
    reshape main_v36 main_v37 rfl shapeCasts_S1x1024x256_S1024x256,
    binary main_arg0 main_v37 main_v38 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v39 ((extractStridedSlice S1x256 ![1, 0] · slices_S8x256_S1x256_1_0) : (⟨S8x256, .f32⟩ : BufTy).Contents (Elt F) → (⟨S1x256, .f32⟩ : BufTy).Contents (Elt F)),
    reshape main_v39 main_v40 rfl shapeCasts_S1x256_S256,
    unary main_v40 main_v41 (broadcastInDim S1x256 ![1] bcast_S256_S1x256_1 : (⟨S256, .f32⟩ : BufTy).Contents (Elt F) → (⟨S1x256, .f32⟩ : BufTy).Contents (Elt F)),
    unary main_v41 main_v42 (broadcastInDim S4096x256 ![0, 1] bcast_S1x256_S4096x256_0_1 : (⟨S1x256, .f32⟩ : BufTy).Contents (Elt F) → (⟨S4096x256, .f32⟩ : BufTy).Contents (Elt F)),
    binary main_v38 main_v42 main_v43 (addf : (⟨S4096x256, .f32⟩ : BufTy).Contents (Elt F) → (⟨S4096x256, .f32⟩ : BufTy).Contents (Elt F) → (⟨S4096x256, .f32⟩ : BufTy).Contents (Elt F)),
    nullary main_cst_2 (constant S_ .f32 0x00000000#32),
    unary main_cst_2 main_v44 (broadcastInDim S4096x256 ![] bcast_S_S4096x256 : (⟨S_, .f32⟩ : BufTy).Contents (Elt F) → (⟨S4096x256, .f32⟩ : BufTy).Contents (Elt F)),
    binary main_v43 main_v44 main_v45 (maximumf : (⟨S4096x256, .f32⟩ : BufTy).Contents (Elt F) → (⟨S4096x256, .f32⟩ : BufTy).Contents (Elt F) → (⟨S4096x256, .f32⟩ : BufTy).Contents (Elt F)),
    unary main_arg8 main_v46 ((extractStridedSlice S1x256x10 ![1, 0, 0] · slices_S8x256x10_S1x256x10_1_0_0) : (⟨S8x256x10, .f32⟩ : BufTy).Contents (Elt F) → (⟨S1x256x10, .f32⟩ : BufTy).Contents (Elt F)),
    reshape main_v46 main_v47 rfl shapeCasts_S1x256x10_S256x10,
    binary main_v45 main_v47 main_v48 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v49 ((extractStridedSlice S1x10 ![1, 0] · slices_S8x10_S1x10_1_0) : (⟨S8x10, .f32⟩ : BufTy).Contents (Elt F) → (⟨S1x10, .f32⟩ : BufTy).Contents (Elt F)),
    reshape main_v49 main_v50 rfl shapeCasts_S1x10_S10,
    unary main_v50 main_v51 (broadcastInDim S1x10 ![1] bcast_S10_S1x10_1 : (⟨S10, .f32⟩ : BufTy).Contents (Elt F) → (⟨S1x10, .f32⟩ : BufTy).Contents (Elt F)),
    unary main_v51 main_v52 (broadcastInDim S4096x10 ![0, 1] bcast_S1x10_S4096x10_0_1 : (⟨S1x10, .f32⟩ : BufTy).Contents (Elt F) → (⟨S4096x10, .f32⟩ : BufTy).Contents (Elt F)),
    binary main_v48 main_v52 main_v53 (addf : (⟨S4096x10, .f32⟩ : BufTy).Contents (Elt F) → (⟨S4096x10, .f32⟩ : BufTy).Contents (Elt F) → (⟨S4096x10, .f32⟩ : BufTy).Contents (Elt F)),
    unary main_arg1 main_v54 ((extractStridedSlice S4096x1 ![0, 1] · slices_S4096x8_S4096x1_0_1) : (⟨S4096x8, .i32⟩ : BufTy).Contents (Elt F) → (⟨S4096x1, .i32⟩ : BufTy).Contents (Elt F)) ]

/-- Stretch 1: operations 61 … 122. -/
abbrev opsP1 : List (HloOp τ sig (Elt F)) :=
  [ reshape main_v54 main_v55 rfl shapeCasts_S4096x1_S4096,
    nullary main_c_3 (constantI S_ 32 0#32),
    unary main_c_3 main_v56 (broadcastInDim S4096 ![] bcast_S_S4096 : (⟨S_, .i32⟩ : BufTy).Contents (Elt F) → (⟨S4096, .i32⟩ : BufTy).Contents (Elt F)),
    binary main_v55 main_v56 main_v57 (cmpi .ne : (⟨S4096, .i32⟩ : BufTy).Contents (Elt F) → (⟨S4096, .i32⟩ : BufTy).Contents (Elt F) → (⟨S4096, .i1⟩ : BufTy).Contents (Elt F)),
    unary main_v57 main_v58 (broadcastInDim S4096x1 ![0] bcast_S4096_S4096x1_0 : (⟨S4096, .i1⟩ : BufTy).Contents (Elt F) → (⟨S4096x1, .i1⟩ : BufTy).Contents (Elt F)),
    nullary main_cst_4 (constant S_ .f32 0x00000000#32),
    unary main_cst_4 main_v59 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v58) (TRef.of (T := ⟨S4096x10, .i1⟩) main_call1_v0) (broadcastInDim S4096x10 ![0, 1] bcast_S4096x1_S4096x10_0_1),
    TRef.ternary (TRef.of (T := ⟨S4096x10, .i1⟩) main_call1_v0) (TRef.of (T := ⟨S4096x10, .f32⟩) main_v53) (TRef.of (T := ⟨S4096x10, .f32⟩) main_v59) (TRef.of (T := ⟨S4096x10, .f32⟩) main_v60) select,
    binary main_v35 main_v60 main_v61 (addf : (⟨S4096x10, .f32⟩ : BufTy).Contents (Elt F) → (⟨S4096x10, .f32⟩ : BufTy).Contents (Elt F) → (⟨S4096x10, .f32⟩ : BufTy).Contents (Elt F)),
    unary main_arg6 main_v62 ((extractStridedSlice S1x1024x256 ![2, 0, 0] · slices_S8x1024x256_S1x1024x256_2_0_0) : (⟨S8x1024x256, .f32⟩ : BufTy).Contents (Elt F) → (⟨S1x1024x256, .f32⟩ : BufTy).Contents (Elt F)),
    reshape main_v62 main_v63 rfl shapeCasts_S1x1024x256_S1024x256,
    binary main_arg0 main_v63 main_v64 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v65 ((extractStridedSlice S1x256 ![2, 0] · slices_S8x256_S1x256_2_0) : (⟨S8x256, .f32⟩ : BufTy).Contents (Elt F) → (⟨S1x256, .f32⟩ : BufTy).Contents (Elt F)),
    reshape main_v65 main_v66 rfl shapeCasts_S1x256_S256,
    unary main_v66 main_v67 (broadcastInDim S1x256 ![1] bcast_S256_S1x256_1 : (⟨S256, .f32⟩ : BufTy).Contents (Elt F) → (⟨S1x256, .f32⟩ : BufTy).Contents (Elt F)),
    unary main_v67 main_v68 (broadcastInDim S4096x256 ![0, 1] bcast_S1x256_S4096x256_0_1 : (⟨S1x256, .f32⟩ : BufTy).Contents (Elt F) → (⟨S4096x256, .f32⟩ : BufTy).Contents (Elt F)),
    binary main_v64 main_v68 main_v69 (addf : (⟨S4096x256, .f32⟩ : BufTy).Contents (Elt F) → (⟨S4096x256, .f32⟩ : BufTy).Contents (Elt F) → (⟨S4096x256, .f32⟩ : BufTy).Contents (Elt F)),
    nullary main_cst_5 (constant S_ .f32 0x00000000#32),
    unary main_cst_5 main_v70 (broadcastInDim S4096x256 ![] bcast_S_S4096x256 : (⟨S_, .f32⟩ : BufTy).Contents (Elt F) → (⟨S4096x256, .f32⟩ : BufTy).Contents (Elt F)),
    binary main_v69 main_v70 main_v71 (maximumf : (⟨S4096x256, .f32⟩ : BufTy).Contents (Elt F) → (⟨S4096x256, .f32⟩ : BufTy).Contents (Elt F) → (⟨S4096x256, .f32⟩ : BufTy).Contents (Elt F)),
    unary main_arg8 main_v72 ((extractStridedSlice S1x256x10 ![2, 0, 0] · slices_S8x256x10_S1x256x10_2_0_0) : (⟨S8x256x10, .f32⟩ : BufTy).Contents (Elt F) → (⟨S1x256x10, .f32⟩ : BufTy).Contents (Elt F)),
    reshape main_v72 main_v73 rfl shapeCasts_S1x256x10_S256x10,
    binary main_v71 main_v73 main_v74 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v75 ((extractStridedSlice S1x10 ![2, 0] · slices_S8x10_S1x10_2_0) : (⟨S8x10, .f32⟩ : BufTy).Contents (Elt F) → (⟨S1x10, .f32⟩ : BufTy).Contents (Elt F)),
    reshape main_v75 main_v76 rfl shapeCasts_S1x10_S10,
    unary main_v76 main_v77 (broadcastInDim S1x10 ![1] bcast_S10_S1x10_1 : (⟨S10, .f32⟩ : BufTy).Contents (Elt F) → (⟨S1x10, .f32⟩ : BufTy).Contents (Elt F)),
    unary main_v77 main_v78 (broadcastInDim S4096x10 ![0, 1] bcast_S1x10_S4096x10_0_1 : (⟨S1x10, .f32⟩ : BufTy).Contents (Elt F) → (⟨S4096x10, .f32⟩ : BufTy).Contents (Elt F)),
    binary main_v74 main_v78 main_v79 (addf : (⟨S4096x10, .f32⟩ : BufTy).Contents (Elt F) → (⟨S4096x10, .f32⟩ : BufTy).Contents (Elt F) → (⟨S4096x10, .f32⟩ : BufTy).Contents (Elt F)),
    unary main_arg1 main_v80 ((extractStridedSlice S4096x1 ![0, 2] · slices_S4096x8_S4096x1_0_2) : (⟨S4096x8, .i32⟩ : BufTy).Contents (Elt F) → (⟨S4096x1, .i32⟩ : BufTy).Contents (Elt F)),
    reshape main_v80 main_v81 rfl shapeCasts_S4096x1_S4096,
    nullary main_c_6 (constantI S_ 32 0#32),
    unary main_c_6 main_v82 (broadcastInDim S4096 ![] bcast_S_S4096 : (⟨S_, .i32⟩ : BufTy).Contents (Elt F) → (⟨S4096, .i32⟩ : BufTy).Contents (Elt F)),
    binary main_v81 main_v82 main_v83 (cmpi .ne : (⟨S4096, .i32⟩ : BufTy).Contents (Elt F) → (⟨S4096, .i32⟩ : BufTy).Contents (Elt F) → (⟨S4096, .i1⟩ : BufTy).Contents (Elt F)),
    unary main_v83 main_v84 (broadcastInDim S4096x1 ![0] bcast_S4096_S4096x1_0 : (⟨S4096, .i1⟩ : BufTy).Contents (Elt F) → (⟨S4096x1, .i1⟩ : BufTy).Contents (Elt F)),
    nullary main_cst_7 (constant S_ .f32 0x00000000#32),
    unary main_cst_7 main_v85 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v84) (TRef.of (T := ⟨S4096x10, .i1⟩) main_call2_v0) (broadcastInDim S4096x10 ![0, 1] bcast_S4096x1_S4096x10_0_1),
    TRef.ternary (TRef.of (T := ⟨S4096x10, .i1⟩) main_call2_v0) (TRef.of (T := ⟨S4096x10, .f32⟩) main_v79) (TRef.of (T := ⟨S4096x10, .f32⟩) main_v85) (TRef.of (T := ⟨S4096x10, .f32⟩) main_v86) select,
    binary main_v61 main_v86 main_v87 (addf : (⟨S4096x10, .f32⟩ : BufTy).Contents (Elt F) → (⟨S4096x10, .f32⟩ : BufTy).Contents (Elt F) → (⟨S4096x10, .f32⟩ : BufTy).Contents (Elt F)),
    unary main_arg6 main_v88 ((extractStridedSlice S1x1024x256 ![3, 0, 0] · slices_S8x1024x256_S1x1024x256_3_0_0) : (⟨S8x1024x256, .f32⟩ : BufTy).Contents (Elt F) → (⟨S1x1024x256, .f32⟩ : BufTy).Contents (Elt F)),
    reshape main_v88 main_v89 rfl shapeCasts_S1x1024x256_S1024x256,
    binary main_arg0 main_v89 main_v90 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v91 ((extractStridedSlice S1x256 ![3, 0] · slices_S8x256_S1x256_3_0) : (⟨S8x256, .f32⟩ : BufTy).Contents (Elt F) → (⟨S1x256, .f32⟩ : BufTy).Contents (Elt F)),
    reshape main_v91 main_v92 rfl shapeCasts_S1x256_S256,
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S4096x256 ![0, 1] bcast_S1x256_S4096x256_0_1 : (⟨S1x256, .f32⟩ : BufTy).Contents (Elt F) → (⟨S4096x256, .f32⟩ : BufTy).Contents (Elt F)),
    binary main_v90 main_v94 main_v95 (addf : (⟨S4096x256, .f32⟩ : BufTy).Contents (Elt F) → (⟨S4096x256, .f32⟩ : BufTy).Contents (Elt F) → (⟨S4096x256, .f32⟩ : BufTy).Contents (Elt F)),
    nullary main_cst_8 (constant S_ .f32 0x00000000#32),
    unary main_cst_8 main_v96 (broadcastInDim S4096x256 ![] bcast_S_S4096x256 : (⟨S_, .f32⟩ : BufTy).Contents (Elt F) → (⟨S4096x256, .f32⟩ : BufTy).Contents (Elt F)),
    binary main_v95 main_v96 main_v97 (maximumf : (⟨S4096x256, .f32⟩ : BufTy).Contents (Elt F) → (⟨S4096x256, .f32⟩ : BufTy).Contents (Elt F) → (⟨S4096x256, .f32⟩ : BufTy).Contents (Elt F)),
    unary main_arg8 main_v98 ((extractStridedSlice S1x256x10 ![3, 0, 0] · slices_S8x256x10_S1x256x10_3_0_0) : (⟨S8x256x10, .f32⟩ : BufTy).Contents (Elt F) → (⟨S1x256x10, .f32⟩ : BufTy).Contents (Elt F)),
    reshape main_v98 main_v99 rfl shapeCasts_S1x256x10_S256x10,
    binary main_v97 main_v99 main_v100 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v101 ((extractStridedSlice S1x10 ![3, 0] · slices_S8x10_S1x10_3_0) : (⟨S8x10, .f32⟩ : BufTy).Contents (Elt F) → (⟨S1x10, .f32⟩ : BufTy).Contents (Elt F)),
    reshape main_v101 main_v102 rfl shapeCasts_S1x10_S10,
    unary main_v102 main_v103 (broadcastInDim S1x10 ![1] bcast_S10_S1x10_1 : (⟨S10, .f32⟩ : BufTy).Contents (Elt F) → (⟨S1x10, .f32⟩ : BufTy).Contents (Elt F)),
    unary main_v103 main_v104 (broadcastInDim S4096x10 ![0, 1] bcast_S1x10_S4096x10_0_1 : (⟨S1x10, .f32⟩ : BufTy).Contents (Elt F) → (⟨S4096x10, .f32⟩ : BufTy).Contents (Elt F)),
    binary main_v100 main_v104 main_v105 (addf : (⟨S4096x10, .f32⟩ : BufTy).Contents (Elt F) → (⟨S4096x10, .f32⟩ : BufTy).Contents (Elt F) → (⟨S4096x10, .f32⟩ : BufTy).Contents (Elt F)),
    unary main_arg1 main_v106 ((extractStridedSlice S4096x1 ![0, 3] · slices_S4096x8_S4096x1_0_3) : (⟨S4096x8, .i32⟩ : BufTy).Contents (Elt F) → (⟨S4096x1, .i32⟩ : BufTy).Contents (Elt F)),
    reshape main_v106 main_v107 rfl shapeCasts_S4096x1_S4096,
    nullary main_c_9 (constantI S_ 32 0#32) ]

/-- Stretch 2: operations 123 … 184. -/
abbrev opsP2 : List (HloOp τ sig (Elt F)) :=
  [ unary main_c_9 main_v108 (broadcastInDim S4096 ![] bcast_S_S4096 : (⟨S_, .i32⟩ : BufTy).Contents (Elt F) → (⟨S4096, .i32⟩ : BufTy).Contents (Elt F)),
    binary main_v107 main_v108 main_v109 (cmpi .ne : (⟨S4096, .i32⟩ : BufTy).Contents (Elt F) → (⟨S4096, .i32⟩ : BufTy).Contents (Elt F) → (⟨S4096, .i1⟩ : BufTy).Contents (Elt F)),
    unary main_v109 main_v110 (broadcastInDim S4096x1 ![0] bcast_S4096_S4096x1_0 : (⟨S4096, .i1⟩ : BufTy).Contents (Elt F) → (⟨S4096x1, .i1⟩ : BufTy).Contents (Elt F)),
    nullary main_cst_10 (constant S_ .f32 0x00000000#32),
    unary main_cst_10 main_v111 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v110) (TRef.of (T := ⟨S4096x10, .i1⟩) main_call3_v0) (broadcastInDim S4096x10 ![0, 1] bcast_S4096x1_S4096x10_0_1),
    TRef.ternary (TRef.of (T := ⟨S4096x10, .i1⟩) main_call3_v0) (TRef.of (T := ⟨S4096x10, .f32⟩) main_v105) (TRef.of (T := ⟨S4096x10, .f32⟩) main_v111) (TRef.of (T := ⟨S4096x10, .f32⟩) main_v112) select,
    binary main_v87 main_v112 main_v113 (addf : (⟨S4096x10, .f32⟩ : BufTy).Contents (Elt F) → (⟨S4096x10, .f32⟩ : BufTy).Contents (Elt F) → (⟨S4096x10, .f32⟩ : BufTy).Contents (Elt F)),
    unary main_arg6 main_v114 ((extractStridedSlice S1x1024x256 ![4, 0, 0] · slices_S8x1024x256_S1x1024x256_4_0_0) : (⟨S8x1024x256, .f32⟩ : BufTy).Contents (Elt F) → (⟨S1x1024x256, .f32⟩ : BufTy).Contents (Elt F)),
    reshape main_v114 main_v115 rfl shapeCasts_S1x1024x256_S1024x256,
    binary main_arg0 main_v115 main_v116 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v117 ((extractStridedSlice S1x256 ![4, 0] · slices_S8x256_S1x256_4_0) : (⟨S8x256, .f32⟩ : BufTy).Contents (Elt F) → (⟨S1x256, .f32⟩ : BufTy).Contents (Elt F)),
    reshape main_v117 main_v118 rfl shapeCasts_S1x256_S256,
    unary main_v118 main_v119 (broadcastInDim S1x256 ![1] bcast_S256_S1x256_1 : (⟨S256, .f32⟩ : BufTy).Contents (Elt F) → (⟨S1x256, .f32⟩ : BufTy).Contents (Elt F)),
    unary main_v119 main_v120 (broadcastInDim S4096x256 ![0, 1] bcast_S1x256_S4096x256_0_1 : (⟨S1x256, .f32⟩ : BufTy).Contents (Elt F) → (⟨S4096x256, .f32⟩ : BufTy).Contents (Elt F)),
    binary main_v116 main_v120 main_v121 (addf : (⟨S4096x256, .f32⟩ : BufTy).Contents (Elt F) → (⟨S4096x256, .f32⟩ : BufTy).Contents (Elt F) → (⟨S4096x256, .f32⟩ : BufTy).Contents (Elt F)),
    nullary main_cst_11 (constant S_ .f32 0x00000000#32),
    unary main_cst_11 main_v122 (broadcastInDim S4096x256 ![] bcast_S_S4096x256 : (⟨S_, .f32⟩ : BufTy).Contents (Elt F) → (⟨S4096x256, .f32⟩ : BufTy).Contents (Elt F)),
    binary main_v121 main_v122 main_v123 (maximumf : (⟨S4096x256, .f32⟩ : BufTy).Contents (Elt F) → (⟨S4096x256, .f32⟩ : BufTy).Contents (Elt F) → (⟨S4096x256, .f32⟩ : BufTy).Contents (Elt F)),
    unary main_arg8 main_v124 ((extractStridedSlice S1x256x10 ![4, 0, 0] · slices_S8x256x10_S1x256x10_4_0_0) : (⟨S8x256x10, .f32⟩ : BufTy).Contents (Elt F) → (⟨S1x256x10, .f32⟩ : BufTy).Contents (Elt F)),
    reshape main_v124 main_v125 rfl shapeCasts_S1x256x10_S256x10,
    binary main_v123 main_v125 main_v126 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v127 ((extractStridedSlice S1x10 ![4, 0] · slices_S8x10_S1x10_4_0) : (⟨S8x10, .f32⟩ : BufTy).Contents (Elt F) → (⟨S1x10, .f32⟩ : BufTy).Contents (Elt F)),
    reshape main_v127 main_v128 rfl shapeCasts_S1x10_S10,
    unary main_v128 main_v129 (broadcastInDim S1x10 ![1] bcast_S10_S1x10_1 : (⟨S10, .f32⟩ : BufTy).Contents (Elt F) → (⟨S1x10, .f32⟩ : BufTy).Contents (Elt F)),
    unary main_v129 main_v130 (broadcastInDim S4096x10 ![0, 1] bcast_S1x10_S4096x10_0_1 : (⟨S1x10, .f32⟩ : BufTy).Contents (Elt F) → (⟨S4096x10, .f32⟩ : BufTy).Contents (Elt F)),
    binary main_v126 main_v130 main_v131 (addf : (⟨S4096x10, .f32⟩ : BufTy).Contents (Elt F) → (⟨S4096x10, .f32⟩ : BufTy).Contents (Elt F) → (⟨S4096x10, .f32⟩ : BufTy).Contents (Elt F)),
    unary main_arg1 main_v132 ((extractStridedSlice S4096x1 ![0, 4] · slices_S4096x8_S4096x1_0_4) : (⟨S4096x8, .i32⟩ : BufTy).Contents (Elt F) → (⟨S4096x1, .i32⟩ : BufTy).Contents (Elt F)),
    reshape main_v132 main_v133 rfl shapeCasts_S4096x1_S4096,
    nullary main_c_12 (constantI S_ 32 0#32),
    unary main_c_12 main_v134 (broadcastInDim S4096 ![] bcast_S_S4096 : (⟨S_, .i32⟩ : BufTy).Contents (Elt F) → (⟨S4096, .i32⟩ : BufTy).Contents (Elt F)),
    binary main_v133 main_v134 main_v135 (cmpi .ne : (⟨S4096, .i32⟩ : BufTy).Contents (Elt F) → (⟨S4096, .i32⟩ : BufTy).Contents (Elt F) → (⟨S4096, .i1⟩ : BufTy).Contents (Elt F)),
    unary main_v135 main_v136 (broadcastInDim S4096x1 ![0] bcast_S4096_S4096x1_0 : (⟨S4096, .i1⟩ : BufTy).Contents (Elt F) → (⟨S4096x1, .i1⟩ : BufTy).Contents (Elt F)),
    nullary main_cst_13 (constant S_ .f32 0x00000000#32),
    unary main_cst_13 main_v137 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v136) (TRef.of (T := ⟨S4096x10, .i1⟩) main_call4_v0) (broadcastInDim S4096x10 ![0, 1] bcast_S4096x1_S4096x10_0_1),
    TRef.ternary (TRef.of (T := ⟨S4096x10, .i1⟩) main_call4_v0) (TRef.of (T := ⟨S4096x10, .f32⟩) main_v131) (TRef.of (T := ⟨S4096x10, .f32⟩) main_v137) (TRef.of (T := ⟨S4096x10, .f32⟩) main_v138) select,
    binary main_v113 main_v138 main_v139 (addf : (⟨S4096x10, .f32⟩ : BufTy).Contents (Elt F) → (⟨S4096x10, .f32⟩ : BufTy).Contents (Elt F) → (⟨S4096x10, .f32⟩ : BufTy).Contents (Elt F)),
    unary main_arg6 main_v140 ((extractStridedSlice S1x1024x256 ![5, 0, 0] · slices_S8x1024x256_S1x1024x256_5_0_0) : (⟨S8x1024x256, .f32⟩ : BufTy).Contents (Elt F) → (⟨S1x1024x256, .f32⟩ : BufTy).Contents (Elt F)),
    reshape main_v140 main_v141 rfl shapeCasts_S1x1024x256_S1024x256,
    binary main_arg0 main_v141 main_v142 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v143 ((extractStridedSlice S1x256 ![5, 0] · slices_S8x256_S1x256_5_0) : (⟨S8x256, .f32⟩ : BufTy).Contents (Elt F) → (⟨S1x256, .f32⟩ : BufTy).Contents (Elt F)),
    reshape main_v143 main_v144 rfl shapeCasts_S1x256_S256,
    unary main_v144 main_v145 (broadcastInDim S1x256 ![1] bcast_S256_S1x256_1 : (⟨S256, .f32⟩ : BufTy).Contents (Elt F) → (⟨S1x256, .f32⟩ : BufTy).Contents (Elt F)),
    unary main_v145 main_v146 (broadcastInDim S4096x256 ![0, 1] bcast_S1x256_S4096x256_0_1 : (⟨S1x256, .f32⟩ : BufTy).Contents (Elt F) → (⟨S4096x256, .f32⟩ : BufTy).Contents (Elt F)),
    binary main_v142 main_v146 main_v147 (addf : (⟨S4096x256, .f32⟩ : BufTy).Contents (Elt F) → (⟨S4096x256, .f32⟩ : BufTy).Contents (Elt F) → (⟨S4096x256, .f32⟩ : BufTy).Contents (Elt F)),
    nullary main_cst_14 (constant S_ .f32 0x00000000#32),
    unary main_cst_14 main_v148 (broadcastInDim S4096x256 ![] bcast_S_S4096x256 : (⟨S_, .f32⟩ : BufTy).Contents (Elt F) → (⟨S4096x256, .f32⟩ : BufTy).Contents (Elt F)),
    binary main_v147 main_v148 main_v149 (maximumf : (⟨S4096x256, .f32⟩ : BufTy).Contents (Elt F) → (⟨S4096x256, .f32⟩ : BufTy).Contents (Elt F) → (⟨S4096x256, .f32⟩ : BufTy).Contents (Elt F)),
    unary main_arg8 main_v150 ((extractStridedSlice S1x256x10 ![5, 0, 0] · slices_S8x256x10_S1x256x10_5_0_0) : (⟨S8x256x10, .f32⟩ : BufTy).Contents (Elt F) → (⟨S1x256x10, .f32⟩ : BufTy).Contents (Elt F)),
    reshape main_v150 main_v151 rfl shapeCasts_S1x256x10_S256x10,
    binary main_v149 main_v151 main_v152 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v153 ((extractStridedSlice S1x10 ![5, 0] · slices_S8x10_S1x10_5_0) : (⟨S8x10, .f32⟩ : BufTy).Contents (Elt F) → (⟨S1x10, .f32⟩ : BufTy).Contents (Elt F)),
    reshape main_v153 main_v154 rfl shapeCasts_S1x10_S10,
    unary main_v154 main_v155 (broadcastInDim S1x10 ![1] bcast_S10_S1x10_1 : (⟨S10, .f32⟩ : BufTy).Contents (Elt F) → (⟨S1x10, .f32⟩ : BufTy).Contents (Elt F)),
    unary main_v155 main_v156 (broadcastInDim S4096x10 ![0, 1] bcast_S1x10_S4096x10_0_1 : (⟨S1x10, .f32⟩ : BufTy).Contents (Elt F) → (⟨S4096x10, .f32⟩ : BufTy).Contents (Elt F)),
    binary main_v152 main_v156 main_v157 (addf : (⟨S4096x10, .f32⟩ : BufTy).Contents (Elt F) → (⟨S4096x10, .f32⟩ : BufTy).Contents (Elt F) → (⟨S4096x10, .f32⟩ : BufTy).Contents (Elt F)),
    unary main_arg1 main_v158 ((extractStridedSlice S4096x1 ![0, 5] · slices_S4096x8_S4096x1_0_5) : (⟨S4096x8, .i32⟩ : BufTy).Contents (Elt F) → (⟨S4096x1, .i32⟩ : BufTy).Contents (Elt F)),
    reshape main_v158 main_v159 rfl shapeCasts_S4096x1_S4096,
    nullary main_c_15 (constantI S_ 32 0#32),
    unary main_c_15 main_v160 (broadcastInDim S4096 ![] bcast_S_S4096 : (⟨S_, .i32⟩ : BufTy).Contents (Elt F) → (⟨S4096, .i32⟩ : BufTy).Contents (Elt F)),
    binary main_v159 main_v160 main_v161 (cmpi .ne : (⟨S4096, .i32⟩ : BufTy).Contents (Elt F) → (⟨S4096, .i32⟩ : BufTy).Contents (Elt F) → (⟨S4096, .i1⟩ : BufTy).Contents (Elt F)) ]

/-- Stretch 3: operations 185 … 246. -/
abbrev opsP3 : List (HloOp τ sig (Elt F)) :=
  [ unary main_v161 main_v162 (broadcastInDim S4096x1 ![0] bcast_S4096_S4096x1_0 : (⟨S4096, .i1⟩ : BufTy).Contents (Elt F) → (⟨S4096x1, .i1⟩ : BufTy).Contents (Elt F)),
    nullary main_cst_16 (constant S_ .f32 0x00000000#32),
    unary main_cst_16 main_v163 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v162) (TRef.of (T := ⟨S4096x10, .i1⟩) main_call5_v0) (broadcastInDim S4096x10 ![0, 1] bcast_S4096x1_S4096x10_0_1),
    TRef.ternary (TRef.of (T := ⟨S4096x10, .i1⟩) main_call5_v0) (TRef.of (T := ⟨S4096x10, .f32⟩) main_v157) (TRef.of (T := ⟨S4096x10, .f32⟩) main_v163) (TRef.of (T := ⟨S4096x10, .f32⟩) main_v164) select,
    binary main_v139 main_v164 main_v165 (addf : (⟨S4096x10, .f32⟩ : BufTy).Contents (Elt F) → (⟨S4096x10, .f32⟩ : BufTy).Contents (Elt F) → (⟨S4096x10, .f32⟩ : BufTy).Contents (Elt F)),
    unary main_arg6 main_v166 ((extractStridedSlice S1x1024x256 ![6, 0, 0] · slices_S8x1024x256_S1x1024x256_6_0_0) : (⟨S8x1024x256, .f32⟩ : BufTy).Contents (Elt F) → (⟨S1x1024x256, .f32⟩ : BufTy).Contents (Elt F)),
    reshape main_v166 main_v167 rfl shapeCasts_S1x1024x256_S1024x256,
    binary main_arg0 main_v167 main_v168 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v169 ((extractStridedSlice S1x256 ![6, 0] · slices_S8x256_S1x256_6_0) : (⟨S8x256, .f32⟩ : BufTy).Contents (Elt F) → (⟨S1x256, .f32⟩ : BufTy).Contents (Elt F)),
    reshape main_v169 main_v170 rfl shapeCasts_S1x256_S256,
    unary main_v170 main_v171 (broadcastInDim S1x256 ![1] bcast_S256_S1x256_1 : (⟨S256, .f32⟩ : BufTy).Contents (Elt F) → (⟨S1x256, .f32⟩ : BufTy).Contents (Elt F)),
    unary main_v171 main_v172 (broadcastInDim S4096x256 ![0, 1] bcast_S1x256_S4096x256_0_1 : (⟨S1x256, .f32⟩ : BufTy).Contents (Elt F) → (⟨S4096x256, .f32⟩ : BufTy).Contents (Elt F)),
    binary main_v168 main_v172 main_v173 (addf : (⟨S4096x256, .f32⟩ : BufTy).Contents (Elt F) → (⟨S4096x256, .f32⟩ : BufTy).Contents (Elt F) → (⟨S4096x256, .f32⟩ : BufTy).Contents (Elt F)),
    nullary main_cst_17 (constant S_ .f32 0x00000000#32),
    unary main_cst_17 main_v174 (broadcastInDim S4096x256 ![] bcast_S_S4096x256 : (⟨S_, .f32⟩ : BufTy).Contents (Elt F) → (⟨S4096x256, .f32⟩ : BufTy).Contents (Elt F)),
    binary main_v173 main_v174 main_v175 (maximumf : (⟨S4096x256, .f32⟩ : BufTy).Contents (Elt F) → (⟨S4096x256, .f32⟩ : BufTy).Contents (Elt F) → (⟨S4096x256, .f32⟩ : BufTy).Contents (Elt F)),
    unary main_arg8 main_v176 ((extractStridedSlice S1x256x10 ![6, 0, 0] · slices_S8x256x10_S1x256x10_6_0_0) : (⟨S8x256x10, .f32⟩ : BufTy).Contents (Elt F) → (⟨S1x256x10, .f32⟩ : BufTy).Contents (Elt F)),
    reshape main_v176 main_v177 rfl shapeCasts_S1x256x10_S256x10,
    binary main_v175 main_v177 main_v178 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v179 ((extractStridedSlice S1x10 ![6, 0] · slices_S8x10_S1x10_6_0) : (⟨S8x10, .f32⟩ : BufTy).Contents (Elt F) → (⟨S1x10, .f32⟩ : BufTy).Contents (Elt F)),
    reshape main_v179 main_v180 rfl shapeCasts_S1x10_S10,
    unary main_v180 main_v181 (broadcastInDim S1x10 ![1] bcast_S10_S1x10_1 : (⟨S10, .f32⟩ : BufTy).Contents (Elt F) → (⟨S1x10, .f32⟩ : BufTy).Contents (Elt F)),
    unary main_v181 main_v182 (broadcastInDim S4096x10 ![0, 1] bcast_S1x10_S4096x10_0_1 : (⟨S1x10, .f32⟩ : BufTy).Contents (Elt F) → (⟨S4096x10, .f32⟩ : BufTy).Contents (Elt F)),
    binary main_v178 main_v182 main_v183 (addf : (⟨S4096x10, .f32⟩ : BufTy).Contents (Elt F) → (⟨S4096x10, .f32⟩ : BufTy).Contents (Elt F) → (⟨S4096x10, .f32⟩ : BufTy).Contents (Elt F)),
    unary main_arg1 main_v184 ((extractStridedSlice S4096x1 ![0, 6] · slices_S4096x8_S4096x1_0_6) : (⟨S4096x8, .i32⟩ : BufTy).Contents (Elt F) → (⟨S4096x1, .i32⟩ : BufTy).Contents (Elt F)),
    reshape main_v184 main_v185 rfl shapeCasts_S4096x1_S4096,
    nullary main_c_18 (constantI S_ 32 0#32),
    unary main_c_18 main_v186 (broadcastInDim S4096 ![] bcast_S_S4096 : (⟨S_, .i32⟩ : BufTy).Contents (Elt F) → (⟨S4096, .i32⟩ : BufTy).Contents (Elt F)),
    binary main_v185 main_v186 main_v187 (cmpi .ne : (⟨S4096, .i32⟩ : BufTy).Contents (Elt F) → (⟨S4096, .i32⟩ : BufTy).Contents (Elt F) → (⟨S4096, .i1⟩ : BufTy).Contents (Elt F)),
    unary main_v187 main_v188 (broadcastInDim S4096x1 ![0] bcast_S4096_S4096x1_0 : (⟨S4096, .i1⟩ : BufTy).Contents (Elt F) → (⟨S4096x1, .i1⟩ : BufTy).Contents (Elt F)),
    nullary main_cst_19 (constant S_ .f32 0x00000000#32),
    unary main_cst_19 main_v189 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v188) (TRef.of (T := ⟨S4096x10, .i1⟩) main_call6_v0) (broadcastInDim S4096x10 ![0, 1] bcast_S4096x1_S4096x10_0_1),
    TRef.ternary (TRef.of (T := ⟨S4096x10, .i1⟩) main_call6_v0) (TRef.of (T := ⟨S4096x10, .f32⟩) main_v183) (TRef.of (T := ⟨S4096x10, .f32⟩) main_v189) (TRef.of (T := ⟨S4096x10, .f32⟩) main_v190) select,
    binary main_v165 main_v190 main_v191 (addf : (⟨S4096x10, .f32⟩ : BufTy).Contents (Elt F) → (⟨S4096x10, .f32⟩ : BufTy).Contents (Elt F) → (⟨S4096x10, .f32⟩ : BufTy).Contents (Elt F)),
    unary main_arg6 main_v192 ((extractStridedSlice S1x1024x256 ![7, 0, 0] · slices_S8x1024x256_S1x1024x256_7_0_0) : (⟨S8x1024x256, .f32⟩ : BufTy).Contents (Elt F) → (⟨S1x1024x256, .f32⟩ : BufTy).Contents (Elt F)),
    reshape main_v192 main_v193 rfl shapeCasts_S1x1024x256_S1024x256,
    binary main_arg0 main_v193 main_v194 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v195 ((extractStridedSlice S1x256 ![7, 0] · slices_S8x256_S1x256_7_0) : (⟨S8x256, .f32⟩ : BufTy).Contents (Elt F) → (⟨S1x256, .f32⟩ : BufTy).Contents (Elt F)),
    reshape main_v195 main_v196 rfl shapeCasts_S1x256_S256,
    unary main_v196 main_v197 (broadcastInDim S1x256 ![1] bcast_S256_S1x256_1 : (⟨S256, .f32⟩ : BufTy).Contents (Elt F) → (⟨S1x256, .f32⟩ : BufTy).Contents (Elt F)),
    unary main_v197 main_v198 (broadcastInDim S4096x256 ![0, 1] bcast_S1x256_S4096x256_0_1 : (⟨S1x256, .f32⟩ : BufTy).Contents (Elt F) → (⟨S4096x256, .f32⟩ : BufTy).Contents (Elt F)),
    binary main_v194 main_v198 main_v199 (addf : (⟨S4096x256, .f32⟩ : BufTy).Contents (Elt F) → (⟨S4096x256, .f32⟩ : BufTy).Contents (Elt F) → (⟨S4096x256, .f32⟩ : BufTy).Contents (Elt F)),
    nullary main_cst_20 (constant S_ .f32 0x00000000#32),
    unary main_cst_20 main_v200 (broadcastInDim S4096x256 ![] bcast_S_S4096x256 : (⟨S_, .f32⟩ : BufTy).Contents (Elt F) → (⟨S4096x256, .f32⟩ : BufTy).Contents (Elt F)),
    binary main_v199 main_v200 main_v201 (maximumf : (⟨S4096x256, .f32⟩ : BufTy).Contents (Elt F) → (⟨S4096x256, .f32⟩ : BufTy).Contents (Elt F) → (⟨S4096x256, .f32⟩ : BufTy).Contents (Elt F)),
    unary main_arg8 main_v202 ((extractStridedSlice S1x256x10 ![7, 0, 0] · slices_S8x256x10_S1x256x10_7_0_0) : (⟨S8x256x10, .f32⟩ : BufTy).Contents (Elt F) → (⟨S1x256x10, .f32⟩ : BufTy).Contents (Elt F)),
    reshape main_v202 main_v203 rfl shapeCasts_S1x256x10_S256x10,
    binary main_v201 main_v203 main_v204 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v205 ((extractStridedSlice S1x10 ![7, 0] · slices_S8x10_S1x10_7_0) : (⟨S8x10, .f32⟩ : BufTy).Contents (Elt F) → (⟨S1x10, .f32⟩ : BufTy).Contents (Elt F)),
    reshape main_v205 main_v206 rfl shapeCasts_S1x10_S10,
    unary main_v206 main_v207 (broadcastInDim S1x10 ![1] bcast_S10_S1x10_1 : (⟨S10, .f32⟩ : BufTy).Contents (Elt F) → (⟨S1x10, .f32⟩ : BufTy).Contents (Elt F)),
    unary main_v207 main_v208 (broadcastInDim S4096x10 ![0, 1] bcast_S1x10_S4096x10_0_1 : (⟨S1x10, .f32⟩ : BufTy).Contents (Elt F) → (⟨S4096x10, .f32⟩ : BufTy).Contents (Elt F)),
    binary main_v204 main_v208 main_v209 (addf : (⟨S4096x10, .f32⟩ : BufTy).Contents (Elt F) → (⟨S4096x10, .f32⟩ : BufTy).Contents (Elt F) → (⟨S4096x10, .f32⟩ : BufTy).Contents (Elt F)),
    unary main_arg1 main_v210 ((extractStridedSlice S4096x1 ![0, 7] · slices_S4096x8_S4096x1_0_7) : (⟨S4096x8, .i32⟩ : BufTy).Contents (Elt F) → (⟨S4096x1, .i32⟩ : BufTy).Contents (Elt F)),
    reshape main_v210 main_v211 rfl shapeCasts_S4096x1_S4096,
    nullary main_c_21 (constantI S_ 32 0#32),
    unary main_c_21 main_v212 (broadcastInDim S4096 ![] bcast_S_S4096 : (⟨S_, .i32⟩ : BufTy).Contents (Elt F) → (⟨S4096, .i32⟩ : BufTy).Contents (Elt F)),
    binary main_v211 main_v212 main_v213 (cmpi .ne : (⟨S4096, .i32⟩ : BufTy).Contents (Elt F) → (⟨S4096, .i32⟩ : BufTy).Contents (Elt F) → (⟨S4096, .i1⟩ : BufTy).Contents (Elt F)),
    unary main_v213 main_v214 (broadcastInDim S4096x1 ![0] bcast_S4096_S4096x1_0 : (⟨S4096, .i1⟩ : BufTy).Contents (Elt F) → (⟨S4096x1, .i1⟩ : BufTy).Contents (Elt F)),
    nullary main_cst_22 (constant S_ .f32 0x00000000#32) ]

/-- Stretch 4: operations 247 … 250. -/
abbrev opsP4 : List (HloOp τ sig (Elt F)) :=
  [ unary main_cst_22 main_v215 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v214) (TRef.of (T := ⟨S4096x10, .i1⟩) main_call7_v0) (broadcastInDim S4096x10 ![0, 1] bcast_S4096x1_S4096x10_0_1),
    TRef.ternary (TRef.of (T := ⟨S4096x10, .i1⟩) main_call7_v0) (TRef.of (T := ⟨S4096x10, .f32⟩) main_v209) (TRef.of (T := ⟨S4096x10, .f32⟩) main_v215) (TRef.of (T := ⟨S4096x10, .f32⟩) main_v216) select,
    binary main_v191 main_v216 main_v217 (addf : (⟨S4096x10, .f32⟩ : BufTy).Contents (Elt F) → (⟨S4096x10, .f32⟩ : BufTy).Contents (Elt F) → (⟨S4096x10, .f32⟩ : BufTy).Contents (Elt F)) ]

end Cert.NetSum.RefRun

end
-- ==== Proof.RefMain.lean ====
/-
  The reference program IS the straight line of its operations.

  The program is printed in five stretches; each stretch unfolds, by computation, to the line of its operations, and
  lines run one after the other are their concatenation run as one. Proving the five stretches separately and joining
  them keeps every step small: unfolding all 251 operations at once is the same fact but far heavier to check.
  With it come the side conditions of running a straight line: every operation touches TensorCore references only and
  allocates nothing.
-/
import proofs.«168783_g10831907520693_week1_w3_86_18_alg».proof.Proof.RefOps

noncomputable section

namespace Cert.NetSum.RefRun

open Cert.ReferenceIdeal Cert.ReferenceIdeal.Gen Idealize.ShloMosaic Idealize.ShloMosaic.TcCoe Idealize.SL.Sem Idealize.ShloMosaic.StableHlo

variable {F : FTy → Type} [FloatOps F]

/-- The whole program's operations: the five stretches in order. -/
abbrev ops : List (HloOp τ sig (Elt F)) := opsP0 ++ (opsP1 ++ (opsP2 ++ (opsP3 ++ opsP4)))

set_option maxRecDepth 8192 in
theorem part0_eq (d : Dev nD) : main_part0 (F := F) d = seq opsP0 := rfl
set_option maxRecDepth 8192 in
theorem part1_eq (d : Dev nD) : main_part1 (F := F) d = seq opsP1 := rfl
set_option maxRecDepth 8192 in
theorem part2_eq (d : Dev nD) : main_part2 (F := F) d = seq opsP2 := rfl
set_option maxRecDepth 8192 in
theorem part3_eq (d : Dev nD) : main_part3 (F := F) d = seq opsP3 := rfl
set_option maxRecDepth 8192 in
theorem part4_eq (d : Dev nD) : main_part4 (F := F) d = seq opsP4 := rfl

theorem main_eq (d : Dev nD) : main (F := F) d = seq ops := by
  show (main_part0 (F := F) d >>= fun _ => main_part1 d >>= fun _ => main_part2 d >>= fun _ => main_part3 d >>= fun _ => main_part4 d) = _
  rw [part0_eq, part1_eq, part2_eq, part3_eq, part4_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem subP0 : (opsP0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
theorem freshP0 : ∀ op ∈ (opsP0 : List (HloOp τ sig (Elt F))), op.fresh = ∅ := by
  intro op h; (repeat (cases h with | head => rfl | tail _ h => ?_)); exact nomatch h
set_option maxRecDepth 8192 in
theorem subP1 : (opsP1 : List (HloOp τ sig (Elt F))).Forall fun op => op.bufs ⊆ tcRefs τ sig :=
  ⟨reshape_bufs_sub .., nullary_bufs_sub .., unary_bufs_sub .., binary_bufs_sub .., unary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub ..⟩
theorem freshP1 : ∀ op ∈ (opsP1 : List (HloOp τ sig (Elt F))), op.fresh = ∅ := by
  intro op h; (repeat (cases h with | head => rfl | tail _ h => ?_)); exact nomatch h
set_option maxRecDepth 8192 in
theorem subP2 : (opsP2 : List (HloOp τ sig (Elt F))).Forall fun op => op.bufs ⊆ tcRefs τ sig :=
  ⟨unary_bufs_sub .., binary_bufs_sub .., unary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub ..⟩
theorem freshP2 : ∀ op ∈ (opsP2 : List (HloOp τ sig (Elt F))), op.fresh = ∅ := by
  intro op h; (repeat (cases h with | head => rfl | tail _ h => ?_)); exact nomatch h
set_option maxRecDepth 8192 in
theorem subP3 : (opsP3 : List (HloOp τ sig (Elt F))).Forall fun op => op.bufs ⊆ tcRefs τ sig :=
  ⟨unary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., nullary_bufs_sub ..⟩
theorem freshP3 : ∀ op ∈ (opsP3 : List (HloOp τ sig (Elt F))), op.fresh = ∅ := by
  intro op h; (repeat (cases h with | head => rfl | tail _ h => ?_)); exact nomatch h
set_option maxRecDepth 8192 in
theorem subP4 : (opsP4 : List (HloOp τ sig (Elt F))).Forall fun op => op.bufs ⊆ tcRefs τ sig :=
  ⟨unary_bufs_sub .., unary_bufs_sub .., ternary_bufs_sub .., binary_bufs_sub ..⟩
theorem freshP4 : ∀ op ∈ (opsP4 : List (HloOp τ sig (Elt F))), op.fresh = ∅ := by
  intro op h; (repeat (cases h with | head => rfl | tail _ h => ?_)); exact nomatch h

theorem ops_sub : (ops : List (HloOp τ sig (Elt F))).Forall fun op => op.bufs ⊆ tcRefs τ sig :=
  List.forall_iff_forall_mem.mpr fun op hop => by
    simp only [ops, List.mem_append] at hop
    rcases hop with h | h | h | h | h
    · exact List.forall_iff_forall_mem.mp subP0 op h
    · exact List.forall_iff_forall_mem.mp subP1 op h
    · exact List.forall_iff_forall_mem.mp subP2 op h
    · exact List.forall_iff_forall_mem.mp subP3 op h
    · exact List.forall_iff_forall_mem.mp subP4 op h

theorem ops_fresh : ∀ op ∈ (ops : List (HloOp τ sig (Elt F))), op.fresh = ∅ := fun op hop => by
  simp only [ops, List.mem_append] at hop
  rcases hop with h | h | h | h | h
  · exact freshP0 op h
  · exact freshP1 op h
  · exact freshP2 op h
  · exact freshP3 op h
  · exact freshP4 op h

end Cert.NetSum.RefRun

end
-- ==== Proof.RefStages.lean ====
/-
  The reference program as a function of its argument arrays, stage by stage.

  `target` is the target net, relu(x·W1 + b1)·W2 + b2. `sel e` is what patch round e adds: the patch net's output
  relu(x·Wp1[e] + bp1[e])·Wp2[e] + bp2[e] where the row's bit e is not 0, and 0 elsewhere. `refOut` is the running total
  the program ends with: the target net's output, then the eight rounds added one after the other.

  These are the program's own operations (the printed reference), composed in program order; they are definitions,
  spelt as the program spells them, so that the run can end at `refOut` by unfolding.
-/
import proofs.«168783_g10831907520693_week1_w3_86_18_alg».proof.Proof.Gen.ReferenceIdeal

noncomputable section

namespace Cert.NetSum.Ref

open Cert.ReferenceIdeal Cert.ReferenceIdeal.Gen Idealize.ShloMosaic Idealize.ShloMosaic.TcCoe Idealize.SL.Sem Idealize.ShloMosaic.StableHlo

variable {F : FTy → Type} [FloatOps F]

/-- The target net. -/
def target (x0 : (⟨S4096x1024, .f32⟩ : BufTy).Contents (Elt F)) (x2 : (⟨S1024x2048, .f32⟩ : BufTy).Contents (Elt F)) (x3 : (⟨S2048, .f32⟩ : BufTy).Contents (Elt F)) (x4 : (⟨S2048x10, .f32⟩ : BufTy).Contents (Elt F)) (x5 : (⟨S10, .f32⟩ : BufTy).Contents (Elt F)) : (⟨S4096x10, .f32⟩ : BufTy).Contents (Elt F) :=
  addf (Host.dotGeneral dot_S4096x2048_S2048x10_S4096x10_1_0_0_1_n_n none (maximumf (addf (Host.dotGeneral dot_S4096x1024_S1024x2048_S4096x2048_1_0_0_1_n_n none x0 x2) (broadcastInDim S4096x2048 ![0, 1] bcast_S1x2048_S4096x2048_0_1 (broadcastInDim S1x2048 ![1] bcast_S2048_S1x2048_1 x3))) (broadcastInDim S4096x2048 ![] bcast_S_S4096x2048 (constant S_ .f32 0x00000000#32))) x4) (broadcastInDim S4096x10 ![0, 1] bcast_S1x10_S4096x10_0_1 (broadcastInDim S1x10 ![1] bcast_S10_S1x10_1 x5))

/-- What patch round 0 adds. -/
def sel0 (x0 : (⟨S4096x1024, .f32⟩ : BufTy).Contents (Elt F)) (x1 : (⟨S4096x8, .i32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  select (broadcastInDim S4096x10 ![0, 1] bcast_S4096x1_S4096x10_0_1 (broadcastInDim S4096x1 ![0] bcast_S4096_S4096x1_0 (cmpi .ne (shapeCast _ (extractStridedSlice S4096x1 ![0, 0] x1 slices_S4096x8_S4096x1_0_0) shapeCasts_S4096x1_S4096) (broadcastInDim S4096 ![] bcast_S_S4096 (constantI S_ 32 0#32))))) (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 ![0, 0, 0] x6 slices_S8x1024x256_S1x1024x256_0_0_0) shapeCasts_S1x1024x256_S1024x256)) (broadcastInDim S4096x256 ![0, 1] bcast_S1x256_S4096x256_0_1 (broadcastInDim S1x256 ![1] bcast_S256_S1x256_1 (shapeCast _ (extractStridedSlice S1x256 ![0, 0] x7 slices_S8x256_S1x256_0_0) shapeCasts_S1x256_S256)))) (broadcastInDim S4096x256 ![] bcast_S_S4096x256 (constant S_ .f32 0x00000000#32))) (shapeCast _ (extractStridedSlice S1x256x10 ![0, 0, 0] x8 slices_S8x256x10_S1x256x10_0_0_0) shapeCasts_S1x256x10_S256x10)) (broadcastInDim S4096x10 ![0, 1] bcast_S1x10_S4096x10_0_1 (broadcastInDim S1x10 ![1] bcast_S10_S1x10_1 (shapeCast _ (extractStridedSlice S1x10 ![0, 0] x9 slices_S8x10_S1x10_0_0) shapeCasts_S1x10_S10)))) (broadcastInDim S4096x10 ![] bcast_S_S4096x10 (constant S_ .f32 0x00000000#32))

/-- What patch round 1 adds. -/
def sel1 (x0 : (⟨S4096x1024, .f32⟩ : BufTy).Contents (Elt F)) (x1 : (⟨S4096x8, .i32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  select (broadcastInDim S4096x10 ![0, 1] bcast_S4096x1_S4096x10_0_1 (broadcastInDim S4096x1 ![0] bcast_S4096_S4096x1_0 (cmpi .ne (shapeCast _ (extractStridedSlice S4096x1 ![0, 1] x1 slices_S4096x8_S4096x1_0_1) shapeCasts_S4096x1_S4096) (broadcastInDim S4096 ![] bcast_S_S4096 (constantI S_ 32 0#32))))) (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 ![1, 0, 0] x6 slices_S8x1024x256_S1x1024x256_1_0_0) shapeCasts_S1x1024x256_S1024x256)) (broadcastInDim S4096x256 ![0, 1] bcast_S1x256_S4096x256_0_1 (broadcastInDim S1x256 ![1] bcast_S256_S1x256_1 (shapeCast _ (extractStridedSlice S1x256 ![1, 0] x7 slices_S8x256_S1x256_1_0) shapeCasts_S1x256_S256)))) (broadcastInDim S4096x256 ![] bcast_S_S4096x256 (constant S_ .f32 0x00000000#32))) (shapeCast _ (extractStridedSlice S1x256x10 ![1, 0, 0] x8 slices_S8x256x10_S1x256x10_1_0_0) shapeCasts_S1x256x10_S256x10)) (broadcastInDim S4096x10 ![0, 1] bcast_S1x10_S4096x10_0_1 (broadcastInDim S1x10 ![1] bcast_S10_S1x10_1 (shapeCast _ (extractStridedSlice S1x10 ![1, 0] x9 slices_S8x10_S1x10_1_0) shapeCasts_S1x10_S10)))) (broadcastInDim S4096x10 ![] bcast_S_S4096x10 (constant S_ .f32 0x00000000#32))

/-- What patch round 2 adds. -/
def sel2 (x0 : (⟨S4096x1024, .f32⟩ : BufTy).Contents (Elt F)) (x1 : (⟨S4096x8, .i32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  select (broadcastInDim S4096x10 ![0, 1] bcast_S4096x1_S4096x10_0_1 (broadcastInDim S4096x1 ![0] bcast_S4096_S4096x1_0 (cmpi .ne (shapeCast _ (extractStridedSlice S4096x1 ![0, 2] x1 slices_S4096x8_S4096x1_0_2) shapeCasts_S4096x1_S4096) (broadcastInDim S4096 ![] bcast_S_S4096 (constantI S_ 32 0#32))))) (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 ![2, 0, 0] x6 slices_S8x1024x256_S1x1024x256_2_0_0) shapeCasts_S1x1024x256_S1024x256)) (broadcastInDim S4096x256 ![0, 1] bcast_S1x256_S4096x256_0_1 (broadcastInDim S1x256 ![1] bcast_S256_S1x256_1 (shapeCast _ (extractStridedSlice S1x256 ![2, 0] x7 slices_S8x256_S1x256_2_0) shapeCasts_S1x256_S256)))) (broadcastInDim S4096x256 ![] bcast_S_S4096x256 (constant S_ .f32 0x00000000#32))) (shapeCast _ (extractStridedSlice S1x256x10 ![2, 0, 0] x8 slices_S8x256x10_S1x256x10_2_0_0) shapeCasts_S1x256x10_S256x10)) (broadcastInDim S4096x10 ![0, 1] bcast_S1x10_S4096x10_0_1 (broadcastInDim S1x10 ![1] bcast_S10_S1x10_1 (shapeCast _ (extractStridedSlice S1x10 ![2, 0] x9 slices_S8x10_S1x10_2_0) shapeCasts_S1x10_S10)))) (broadcastInDim S4096x10 ![] bcast_S_S4096x10 (constant S_ .f32 0x00000000#32))

/-- What patch round 3 adds. -/
def sel3 (x0 : (⟨S4096x1024, .f32⟩ : BufTy).Contents (Elt F)) (x1 : (⟨S4096x8, .i32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  select (broadcastInDim S4096x10 ![0, 1] bcast_S4096x1_S4096x10_0_1 (broadcastInDim S4096x1 ![0] bcast_S4096_S4096x1_0 (cmpi .ne (shapeCast _ (extractStridedSlice S4096x1 ![0, 3] x1 slices_S4096x8_S4096x1_0_3) shapeCasts_S4096x1_S4096) (broadcastInDim S4096 ![] bcast_S_S4096 (constantI S_ 32 0#32))))) (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 ![3, 0, 0] x6 slices_S8x1024x256_S1x1024x256_3_0_0) shapeCasts_S1x1024x256_S1024x256)) (broadcastInDim S4096x256 ![0, 1] bcast_S1x256_S4096x256_0_1 (broadcastInDim S1x256 ![1] bcast_S256_S1x256_1 (shapeCast _ (extractStridedSlice S1x256 ![3, 0] x7 slices_S8x256_S1x256_3_0) shapeCasts_S1x256_S256)))) (broadcastInDim S4096x256 ![] bcast_S_S4096x256 (constant S_ .f32 0x00000000#32))) (shapeCast _ (extractStridedSlice S1x256x10 ![3, 0, 0] x8 slices_S8x256x10_S1x256x10_3_0_0) shapeCasts_S1x256x10_S256x10)) (broadcastInDim S4096x10 ![0, 1] bcast_S1x10_S4096x10_0_1 (broadcastInDim S1x10 ![1] bcast_S10_S1x10_1 (shapeCast _ (extractStridedSlice S1x10 ![3, 0] x9 slices_S8x10_S1x10_3_0) shapeCasts_S1x10_S10)))) (broadcastInDim S4096x10 ![] bcast_S_S4096x10 (constant S_ .f32 0x00000000#32))

/-- What patch round 4 adds. -/
def sel4 (x0 : (⟨S4096x1024, .f32⟩ : BufTy).Contents (Elt F)) (x1 : (⟨S4096x8, .i32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  select (broadcastInDim S4096x10 ![0, 1] bcast_S4096x1_S4096x10_0_1 (broadcastInDim S4096x1 ![0] bcast_S4096_S4096x1_0 (cmpi .ne (shapeCast _ (extractStridedSlice S4096x1 ![0, 4] x1 slices_S4096x8_S4096x1_0_4) shapeCasts_S4096x1_S4096) (broadcastInDim S4096 ![] bcast_S_S4096 (constantI S_ 32 0#32))))) (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 ![4, 0, 0] x6 slices_S8x1024x256_S1x1024x256_4_0_0) shapeCasts_S1x1024x256_S1024x256)) (broadcastInDim S4096x256 ![0, 1] bcast_S1x256_S4096x256_0_1 (broadcastInDim S1x256 ![1] bcast_S256_S1x256_1 (shapeCast _ (extractStridedSlice S1x256 ![4, 0] x7 slices_S8x256_S1x256_4_0) shapeCasts_S1x256_S256)))) (broadcastInDim S4096x256 ![] bcast_S_S4096x256 (constant S_ .f32 0x00000000#32))) (shapeCast _ (extractStridedSlice S1x256x10 ![4, 0, 0] x8 slices_S8x256x10_S1x256x10_4_0_0) shapeCasts_S1x256x10_S256x10)) (broadcastInDim S4096x10 ![0, 1] bcast_S1x10_S4096x10_0_1 (broadcastInDim S1x10 ![1] bcast_S10_S1x10_1 (shapeCast _ (extractStridedSlice S1x10 ![4, 0] x9 slices_S8x10_S1x10_4_0) shapeCasts_S1x10_S10)))) (broadcastInDim S4096x10 ![] bcast_S_S4096x10 (constant S_ .f32 0x00000000#32))

/-- What patch round 5 adds. -/
def sel5 (x0 : (⟨S4096x1024, .f32⟩ : BufTy).Contents (Elt F)) (x1 : (⟨S4096x8, .i32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  select (broadcastInDim S4096x10 ![0, 1] bcast_S4096x1_S4096x10_0_1 (broadcastInDim S4096x1 ![0] bcast_S4096_S4096x1_0 (cmpi .ne (shapeCast _ (extractStridedSlice S4096x1 ![0, 5] x1 slices_S4096x8_S4096x1_0_5) shapeCasts_S4096x1_S4096) (broadcastInDim S4096 ![] bcast_S_S4096 (constantI S_ 32 0#32))))) (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 ![5, 0, 0] x6 slices_S8x1024x256_S1x1024x256_5_0_0) shapeCasts_S1x1024x256_S1024x256)) (broadcastInDim S4096x256 ![0, 1] bcast_S1x256_S4096x256_0_1 (broadcastInDim S1x256 ![1] bcast_S256_S1x256_1 (shapeCast _ (extractStridedSlice S1x256 ![5, 0] x7 slices_S8x256_S1x256_5_0) shapeCasts_S1x256_S256)))) (broadcastInDim S4096x256 ![] bcast_S_S4096x256 (constant S_ .f32 0x00000000#32))) (shapeCast _ (extractStridedSlice S1x256x10 ![5, 0, 0] x8 slices_S8x256x10_S1x256x10_5_0_0) shapeCasts_S1x256x10_S256x10)) (broadcastInDim S4096x10 ![0, 1] bcast_S1x10_S4096x10_0_1 (broadcastInDim S1x10 ![1] bcast_S10_S1x10_1 (shapeCast _ (extractStridedSlice S1x10 ![5, 0] x9 slices_S8x10_S1x10_5_0) shapeCasts_S1x10_S10)))) (broadcastInDim S4096x10 ![] bcast_S_S4096x10 (constant S_ .f32 0x00000000#32))

/-- What patch round 6 adds. -/
def sel6 (x0 : (⟨S4096x1024, .f32⟩ : BufTy).Contents (Elt F)) (x1 : (⟨S4096x8, .i32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  select (broadcastInDim S4096x10 ![0, 1] bcast_S4096x1_S4096x10_0_1 (broadcastInDim S4096x1 ![0] bcast_S4096_S4096x1_0 (cmpi .ne (shapeCast _ (extractStridedSlice S4096x1 ![0, 6] x1 slices_S4096x8_S4096x1_0_6) shapeCasts_S4096x1_S4096) (broadcastInDim S4096 ![] bcast_S_S4096 (constantI S_ 32 0#32))))) (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 ![6, 0, 0] x6 slices_S8x1024x256_S1x1024x256_6_0_0) shapeCasts_S1x1024x256_S1024x256)) (broadcastInDim S4096x256 ![0, 1] bcast_S1x256_S4096x256_0_1 (broadcastInDim S1x256 ![1] bcast_S256_S1x256_1 (shapeCast _ (extractStridedSlice S1x256 ![6, 0] x7 slices_S8x256_S1x256_6_0) shapeCasts_S1x256_S256)))) (broadcastInDim S4096x256 ![] bcast_S_S4096x256 (constant S_ .f32 0x00000000#32))) (shapeCast _ (extractStridedSlice S1x256x10 ![6, 0, 0] x8 slices_S8x256x10_S1x256x10_6_0_0) shapeCasts_S1x256x10_S256x10)) (broadcastInDim S4096x10 ![0, 1] bcast_S1x10_S4096x10_0_1 (broadcastInDim S1x10 ![1] bcast_S10_S1x10_1 (shapeCast _ (extractStridedSlice S1x10 ![6, 0] x9 slices_S8x10_S1x10_6_0) shapeCasts_S1x10_S10)))) (broadcastInDim S4096x10 ![] bcast_S_S4096x10 (constant S_ .f32 0x00000000#32))

/-- What patch round 7 adds. -/
def sel7 (x0 : (⟨S4096x1024, .f32⟩ : BufTy).Contents (Elt F)) (x1 : (⟨S4096x8, .i32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  select (broadcastInDim S4096x10 ![0, 1] bcast_S4096x1_S4096x10_0_1 (broadcastInDim S4096x1 ![0] bcast_S4096_S4096x1_0 (cmpi .ne (shapeCast _ (extractStridedSlice S4096x1 ![0, 7] x1 slices_S4096x8_S4096x1_0_7) shapeCasts_S4096x1_S4096) (broadcastInDim S4096 ![] bcast_S_S4096 (constantI S_ 32 0#32))))) (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 ![7, 0, 0] x6 slices_S8x1024x256_S1x1024x256_7_0_0) shapeCasts_S1x1024x256_S1024x256)) (broadcastInDim S4096x256 ![0, 1] bcast_S1x256_S4096x256_0_1 (broadcastInDim S1x256 ![1] bcast_S256_S1x256_1 (shapeCast _ (extractStridedSlice S1x256 ![7, 0] x7 slices_S8x256_S1x256_7_0) shapeCasts_S1x256_S256)))) (broadcastInDim S4096x256 ![] bcast_S_S4096x256 (constant S_ .f32 0x00000000#32))) (shapeCast _ (extractStridedSlice S1x256x10 ![7, 0, 0] x8 slices_S8x256x10_S1x256x10_7_0_0) shapeCasts_S1x256x10_S256x10)) (broadcastInDim S4096x10 ![0, 1] bcast_S1x10_S4096x10_0_1 (broadcastInDim S1x10 ![1] bcast_S10_S1x10_1 (shapeCast _ (extractStridedSlice S1x10 ![7, 0] x9 slices_S8x10_S1x10_7_0) shapeCasts_S1x10_S10)))) (broadcastInDim S4096x10 ![] bcast_S_S4096x10 (constant S_ .f32 0x00000000#32))

/-- The program's result: the target net's output and the eight rounds, added in program order. -/
def refOut (x0 : (⟨S4096x1024, .f32⟩ : BufTy).Contents (Elt F)) (x1 : (⟨S4096x8, .i32⟩ : BufTy).Contents (Elt F)) (x2 : (⟨S1024x2048, .f32⟩ : BufTy).Contents (Elt F)) (x3 : (⟨S2048, .f32⟩ : BufTy).Contents (Elt F)) (x4 : (⟨S2048x10, .f32⟩ : BufTy).Contents (Elt F)) (x5 : (⟨S10, .f32⟩ : BufTy).Contents (Elt F)) (x6 : (⟨S8x1024x256, .f32⟩ : BufTy).Contents (Elt F)) (x7 : (⟨S8x256, .f32⟩ : BufTy).Contents (Elt F)) (x8 : (⟨S8x256x10, .f32⟩ : BufTy).Contents (Elt F)) (x9 : (⟨S8x10, .f32⟩ : BufTy).Contents (Elt F)) : (⟨S4096x10, .f32⟩ : BufTy).Contents (Elt F) :=
  addf (addf (addf (addf (addf (addf (addf (addf (target x0 x2 x3 x4 x5) (sel0 x0 x1 x6 x7 x8 x9)) (sel1 x0 x1 x6 x7 x8 x9)) (sel2 x0 x1 x6 x7 x8 x9)) (sel3 x0 x1 x6 x7 x8 x9)) (sel4 x0 x1 x6 x7 x8 x9)) (sel5 x0 x1 x6 x7 x8 x9)) (sel6 x0 x1 x6 x7 x8 x9)) (sel7 x0 x1 x6 x7 x8 x9)

end Cert.NetSum.Ref

end
-- ==== Proof.RefRounds.lean ====
/-
  The reference program, chunk by chunk: the target net's 11 operations, then eight rounds of 30 operations, one per
  patch net. From ANY contents of the buffers, a chunk leaves in its result buffer its function of what it found: the
  target chunk the target net of the arguments; round e the running total it found plus what patch round e adds.
  No chunk writes an argument. Each chunk is short, so reading its result back through its own operations is cheap,
  and the chunks compose because each is stated for arbitrary starting contents.
-/
import proofs.«168783_g10831907520693_week1_w3_86_18_alg».proof.Proof.RefStages
import Idealize.ShloMosaic.Lib.StableHlo.Run

noncomputable section

namespace Cert.NetSum.RefRun

open Cert.ReferenceIdeal Cert.ReferenceIdeal.Gen Idealize.ShloMosaic Idealize.ShloMosaic.TcCoe Idealize.SL.Sem Idealize.ShloMosaic.StableHlo

variable {F : FTy → Type} [FloatOps F]

/-- The argument buffers. -/
abbrev argRefs : List (Ref sig .tc) := [main_arg0, main_arg1, main_arg2, main_arg3, main_arg4, main_arg5, main_arg6, main_arg7, main_arg8, main_arg9]

/-- Two contents agree on the arguments. -/
def ArgsEq (X Y : Valuation τ sig (Elt F)) : Prop := ∀ r ∈ argRefs, X (Proc.devRef .tc r) = Y (Proc.devRef .tc r)

theorem ArgsEq.refl (X : Valuation τ sig (Elt F)) : ArgsEq X X := fun _ _ => rfl

/-- Chunk T: operations 0 … 10. -/
abbrev opsT : List (HloOp τ sig (Elt F)) :=
  [ binary main_arg0 main_arg2 main_v0 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    unary main_arg3 main_v1 (broadcastInDim S1x2048 ![1] bcast_S2048_S1x2048_1 : (⟨S2048, .f32⟩ : BufTy).Contents (Elt F) → (⟨S1x2048, .f32⟩ : BufTy).Contents (Elt F)),
    unary main_v1 main_v2 (broadcastInDim S4096x2048 ![0, 1] bcast_S1x2048_S4096x2048_0_1 : (⟨S1x2048, .f32⟩ : BufTy).Contents (Elt F) → (⟨S4096x2048, .f32⟩ : BufTy).Contents (Elt F)),
    binary main_v0 main_v2 main_v3 (addf : (⟨S4096x2048, .f32⟩ : BufTy).Contents (Elt F) → (⟨S4096x2048, .f32⟩ : BufTy).Contents (Elt F) → (⟨S4096x2048, .f32⟩ : BufTy).Contents (Elt F)),
    nullary main_cst (constant S_ .f32 0x00000000#32),
    unary main_cst main_v4 (broadcastInDim S4096x2048 ![] bcast_S_S4096x2048 : (⟨S_, .f32⟩ : BufTy).Contents (Elt F) → (⟨S4096x2048, .f32⟩ : BufTy).Contents (Elt F)),
    binary main_v3 main_v4 main_v5 (maximumf : (⟨S4096x2048, .f32⟩ : BufTy).Contents (Elt F) → (⟨S4096x2048, .f32⟩ : BufTy).Contents (Elt F) → (⟨S4096x2048, .f32⟩ : BufTy).Contents (Elt F)),
    binary main_v5 main_arg4 main_v6 ((fun l r => Host.dotGeneral dot_S4096x2048_S2048x10_S4096x10_1_0_0_1_n_n none l r) : (⟨S4096x2048, .f32⟩ : BufTy).Contents (Elt F) → (⟨S2048x10, .f32⟩ : BufTy).Contents (Elt F) → (⟨S4096x10, .f32⟩ : BufTy).Contents (Elt F)),
    unary main_arg5 main_v7 (broadcastInDim S1x10 ![1] bcast_S10_S1x10_1 : (⟨S10, .f32⟩ : BufTy).Contents (Elt F) → (⟨S1x10, .f32⟩ : BufTy).Contents (Elt F)),
    unary main_v7 main_v8 (broadcastInDim S4096x10 ![0, 1] bcast_S1x10_S4096x10_0_1 : (⟨S1x10, .f32⟩ : BufTy).Contents (Elt F) → (⟨S4096x10, .f32⟩ : BufTy).Contents (Elt F)),
    binary main_v6 main_v8 main_v9 (addf : (⟨S4096x10, .f32⟩ : BufTy).Contents (Elt F) → (⟨S4096x10, .f32⟩ : BufTy).Contents (Elt F) → (⟨S4096x10, .f32⟩ : BufTy).Contents (Elt F)) ]
/-- The references chunk T writes. -/
abbrev opsT_W : List (Ref sig .tc) := [main_v0, main_v1, main_v2, main_v3, main_cst, main_v4, main_v5, main_v6, main_v7, main_v8, main_v9]
theorem opsT_writes : (opsT : List (HloOp τ sig (Elt F))).Forall fun op => op.writes ⊆ (opsT_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk T writes no argument: contents that agree with Y on the arguments still do after it. -/
theorem argsEq_T {X Y : Valuation τ sig (Elt F)} (h : ArgsEq X Y) : ArgsEq (after opsT X) Y :=
  fun r hr => (after_of_writes_sub opsT X opsT_writes ((by decide : ∀ r ∈ argRefs, r ∉ opsT_W) r hr)).trans (h r hr)

/-- Chunk R0: operations 11 … 40. -/
abbrev opsR0 : List (HloOp τ sig (Elt F)) :=
  [ unary main_arg6 main_v10 ((extractStridedSlice S1x1024x256 ![0, 0, 0] · slices_S8x1024x256_S1x1024x256_0_0_0) : (⟨S8x1024x256, .f32⟩ : BufTy).Contents (Elt F) → (⟨S1x1024x256, .f32⟩ : BufTy).Contents (Elt F)),
    reshape main_v10 main_v11 rfl shapeCasts_S1x1024x256_S1024x256,
    binary main_arg0 main_v11 main_v12 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v13 ((extractStridedSlice S1x256 ![0, 0] · slices_S8x256_S1x256_0_0) : (⟨S8x256, .f32⟩ : BufTy).Contents (Elt F) → (⟨S1x256, .f32⟩ : BufTy).Contents (Elt F)),
    reshape main_v13 main_v14 rfl shapeCasts_S1x256_S256,
    unary main_v14 main_v15 (broadcastInDim S1x256 ![1] bcast_S256_S1x256_1 : (⟨S256, .f32⟩ : BufTy).Contents (Elt F) → (⟨S1x256, .f32⟩ : BufTy).Contents (Elt F)),
    unary main_v15 main_v16 (broadcastInDim S4096x256 ![0, 1] bcast_S1x256_S4096x256_0_1 : (⟨S1x256, .f32⟩ : BufTy).Contents (Elt F) → (⟨S4096x256, .f32⟩ : BufTy).Contents (Elt F)),
    binary main_v12 main_v16 main_v17 (addf : (⟨S4096x256, .f32⟩ : BufTy).Contents (Elt F) → (⟨S4096x256, .f32⟩ : BufTy).Contents (Elt F) → (⟨S4096x256, .f32⟩ : BufTy).Contents (Elt F)),
    nullary main_cst_0 (constant S_ .f32 0x00000000#32),
    unary main_cst_0 main_v18 (broadcastInDim S4096x256 ![] bcast_S_S4096x256 : (⟨S_, .f32⟩ : BufTy).Contents (Elt F) → (⟨S4096x256, .f32⟩ : BufTy).Contents (Elt F)),
    binary main_v17 main_v18 main_v19 (maximumf : (⟨S4096x256, .f32⟩ : BufTy).Contents (Elt F) → (⟨S4096x256, .f32⟩ : BufTy).Contents (Elt F) → (⟨S4096x256, .f32⟩ : BufTy).Contents (Elt F)),
    unary main_arg8 main_v20 ((extractStridedSlice S1x256x10 ![0, 0, 0] · slices_S8x256x10_S1x256x10_0_0_0) : (⟨S8x256x10, .f32⟩ : BufTy).Contents (Elt F) → (⟨S1x256x10, .f32⟩ : BufTy).Contents (Elt F)),
    reshape main_v20 main_v21 rfl shapeCasts_S1x256x10_S256x10,
    binary main_v19 main_v21 main_v22 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v23 ((extractStridedSlice S1x10 ![0, 0] · slices_S8x10_S1x10_0_0) : (⟨S8x10, .f32⟩ : BufTy).Contents (Elt F) → (⟨S1x10, .f32⟩ : BufTy).Contents (Elt F)),
    reshape main_v23 main_v24 rfl shapeCasts_S1x10_S10,
    unary main_v24 main_v25 (broadcastInDim S1x10 ![1] bcast_S10_S1x10_1 : (⟨S10, .f32⟩ : BufTy).Contents (Elt F) → (⟨S1x10, .f32⟩ : BufTy).Contents (Elt F)),
    unary main_v25 main_v26 (broadcastInDim S4096x10 ![0, 1] bcast_S1x10_S4096x10_0_1 : (⟨S1x10, .f32⟩ : BufTy).Contents (Elt F) → (⟨S4096x10, .f32⟩ : BufTy).Contents (Elt F)),
    binary main_v22 main_v26 main_v27 (addf : (⟨S4096x10, .f32⟩ : BufTy).Contents (Elt F) → (⟨S4096x10, .f32⟩ : BufTy).Contents (Elt F) → (⟨S4096x10, .f32⟩ : BufTy).Contents (Elt F)),
    unary main_arg1 main_v28 ((extractStridedSlice S4096x1 ![0, 0] · slices_S4096x8_S4096x1_0_0) : (⟨S4096x8, .i32⟩ : BufTy).Contents (Elt F) → (⟨S4096x1, .i32⟩ : BufTy).Contents (Elt F)),
    reshape main_v28 main_v29 rfl shapeCasts_S4096x1_S4096,
    nullary main_c (constantI S_ 32 0#32),
    unary main_c main_v30 (broadcastInDim S4096 ![] bcast_S_S4096 : (⟨S_, .i32⟩ : BufTy).Contents (Elt F) → (⟨S4096, .i32⟩ : BufTy).Contents (Elt F)),
    binary main_v29 main_v30 main_v31 (cmpi .ne : (⟨S4096, .i32⟩ : BufTy).Contents (Elt F) → (⟨S4096, .i32⟩ : BufTy).Contents (Elt F) → (⟨S4096, .i1⟩ : BufTy).Contents (Elt F)),
    unary main_v31 main_v32 (broadcastInDim S4096x1 ![0] bcast_S4096_S4096x1_0 : (⟨S4096, .i1⟩ : BufTy).Contents (Elt F) → (⟨S4096x1, .i1⟩ : BufTy).Contents (Elt F)),
    nullary main_cst_1 (constant S_ .f32 0x00000000#32),
    unary main_cst_1 main_v33 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v32) (TRef.of (T := ⟨S4096x10, .i1⟩) main_call0_v0) (broadcastInDim S4096x10 ![0, 1] bcast_S4096x1_S4096x10_0_1),
    TRef.ternary (TRef.of (T := ⟨S4096x10, .i1⟩) main_call0_v0) (TRef.of (T := ⟨S4096x10, .f32⟩) main_v27) (TRef.of (T := ⟨S4096x10, .f32⟩) main_v33) (TRef.of (T := ⟨S4096x10, .f32⟩) main_v34) select,
    binary main_v9 main_v34 main_v35 (addf : (⟨S4096x10, .f32⟩ : BufTy).Contents (Elt F) → (⟨S4096x10, .f32⟩ : BufTy).Contents (Elt F) → (⟨S4096x10, .f32⟩ : BufTy).Contents (Elt F)) ]
/-- The references chunk R0 writes. -/
abbrev opsR0_W : List (Ref sig .tc) := [main_v10, main_v11, main_v12, main_v13, main_v14, main_v15, main_v16, main_v17, main_cst_0, main_v18, main_v19, main_v20, main_v21, main_v22, main_v23, main_v24, main_v25, main_v26, main_v27, main_v28, main_v29, main_c, main_v30, main_v31, main_v32, main_cst_1, main_v33, main_call0_v0, main_v34, main_v35]
theorem opsR0_writes : (opsR0 : List (HloOp τ sig (Elt F))).Forall fun op => op.writes ⊆ (opsR0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk R0 writes no argument: contents that agree with Y on the arguments still do after it. -/
theorem argsEq_R0 {X Y : Valuation τ sig (Elt F)} (h : ArgsEq X Y) : ArgsEq (after opsR0 X) Y :=
  fun r hr => (after_of_writes_sub opsR0 X opsR0_writes ((by decide : ∀ r ∈ argRefs, r ∉ opsR0_W) r hr)).trans (h r hr)

/-- Chunk R1: operations 41 … 70. -/
abbrev opsR1 : List (HloOp τ sig (Elt F)) :=
  [ unary main_arg6 main_v36 ((extractStridedSlice S1x1024x256 ![1, 0, 0] · slices_S8x1024x256_S1x1024x256_1_0_0) : (⟨S8x1024x256, .f32⟩ : BufTy).Contents (Elt F) → (⟨S1x1024x256, .f32⟩ : BufTy).Contents (Elt F)),
    reshape main_v36 main_v37 rfl shapeCasts_S1x1024x256_S1024x256,
    binary main_arg0 main_v37 main_v38 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v39 ((extractStridedSlice S1x256 ![1, 0] · slices_S8x256_S1x256_1_0) : (⟨S8x256, .f32⟩ : BufTy).Contents (Elt F) → (⟨S1x256, .f32⟩ : BufTy).Contents (Elt F)),
    reshape main_v39 main_v40 rfl shapeCasts_S1x256_S256,
    unary main_v40 main_v41 (broadcastInDim S1x256 ![1] bcast_S256_S1x256_1 : (⟨S256, .f32⟩ : BufTy).Contents (Elt F) → (⟨S1x256, .f32⟩ : BufTy).Contents (Elt F)),
    unary main_v41 main_v42 (broadcastInDim S4096x256 ![0, 1] bcast_S1x256_S4096x256_0_1 : (⟨S1x256, .f32⟩ : BufTy).Contents (Elt F) → (⟨S4096x256, .f32⟩ : BufTy).Contents (Elt F)),
    binary main_v38 main_v42 main_v43 (addf : (⟨S4096x256, .f32⟩ : BufTy).Contents (Elt F) → (⟨S4096x256, .f32⟩ : BufTy).Contents (Elt F) → (⟨S4096x256, .f32⟩ : BufTy).Contents (Elt F)),
    nullary main_cst_2 (constant S_ .f32 0x00000000#32),
    unary main_cst_2 main_v44 (broadcastInDim S4096x256 ![] bcast_S_S4096x256 : (⟨S_, .f32⟩ : BufTy).Contents (Elt F) → (⟨S4096x256, .f32⟩ : BufTy).Contents (Elt F)),
    binary main_v43 main_v44 main_v45 (maximumf : (⟨S4096x256, .f32⟩ : BufTy).Contents (Elt F) → (⟨S4096x256, .f32⟩ : BufTy).Contents (Elt F) → (⟨S4096x256, .f32⟩ : BufTy).Contents (Elt F)),
    unary main_arg8 main_v46 ((extractStridedSlice S1x256x10 ![1, 0, 0] · slices_S8x256x10_S1x256x10_1_0_0) : (⟨S8x256x10, .f32⟩ : BufTy).Contents (Elt F) → (⟨S1x256x10, .f32⟩ : BufTy).Contents (Elt F)),
    reshape main_v46 main_v47 rfl shapeCasts_S1x256x10_S256x10,
    binary main_v45 main_v47 main_v48 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v49 ((extractStridedSlice S1x10 ![1, 0] · slices_S8x10_S1x10_1_0) : (⟨S8x10, .f32⟩ : BufTy).Contents (Elt F) → (⟨S1x10, .f32⟩ : BufTy).Contents (Elt F)),
    reshape main_v49 main_v50 rfl shapeCasts_S1x10_S10,
    unary main_v50 main_v51 (broadcastInDim S1x10 ![1] bcast_S10_S1x10_1 : (⟨S10, .f32⟩ : BufTy).Contents (Elt F) → (⟨S1x10, .f32⟩ : BufTy).Contents (Elt F)),
    unary main_v51 main_v52 (broadcastInDim S4096x10 ![0, 1] bcast_S1x10_S4096x10_0_1 : (⟨S1x10, .f32⟩ : BufTy).Contents (Elt F) → (⟨S4096x10, .f32⟩ : BufTy).Contents (Elt F)),
    binary main_v48 main_v52 main_v53 (addf : (⟨S4096x10, .f32⟩ : BufTy).Contents (Elt F) → (⟨S4096x10, .f32⟩ : BufTy).Contents (Elt F) → (⟨S4096x10, .f32⟩ : BufTy).Contents (Elt F)),
    unary main_arg1 main_v54 ((extractStridedSlice S4096x1 ![0, 1] · slices_S4096x8_S4096x1_0_1) : (⟨S4096x8, .i32⟩ : BufTy).Contents (Elt F) → (⟨S4096x1, .i32⟩ : BufTy).Contents (Elt F)),
    reshape main_v54 main_v55 rfl shapeCasts_S4096x1_S4096,
    nullary main_c_3 (constantI S_ 32 0#32),
    unary main_c_3 main_v56 (broadcastInDim S4096 ![] bcast_S_S4096 : (⟨S_, .i32⟩ : BufTy).Contents (Elt F) → (⟨S4096, .i32⟩ : BufTy).Contents (Elt F)),
    binary main_v55 main_v56 main_v57 (cmpi .ne : (⟨S4096, .i32⟩ : BufTy).Contents (Elt F) → (⟨S4096, .i32⟩ : BufTy).Contents (Elt F) → (⟨S4096, .i1⟩ : BufTy).Contents (Elt F)),
    unary main_v57 main_v58 (broadcastInDim S4096x1 ![0] bcast_S4096_S4096x1_0 : (⟨S4096, .i1⟩ : BufTy).Contents (Elt F) → (⟨S4096x1, .i1⟩ : BufTy).Contents (Elt F)),
    nullary main_cst_4 (constant S_ .f32 0x00000000#32),
    unary main_cst_4 main_v59 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v58) (TRef.of (T := ⟨S4096x10, .i1⟩) main_call1_v0) (broadcastInDim S4096x10 ![0, 1] bcast_S4096x1_S4096x10_0_1),
    TRef.ternary (TRef.of (T := ⟨S4096x10, .i1⟩) main_call1_v0) (TRef.of (T := ⟨S4096x10, .f32⟩) main_v53) (TRef.of (T := ⟨S4096x10, .f32⟩) main_v59) (TRef.of (T := ⟨S4096x10, .f32⟩) main_v60) select,
    binary main_v35 main_v60 main_v61 (addf : (⟨S4096x10, .f32⟩ : BufTy).Contents (Elt F) → (⟨S4096x10, .f32⟩ : BufTy).Contents (Elt F) → (⟨S4096x10, .f32⟩ : BufTy).Contents (Elt F)) ]
/-- The references chunk R1 writes. -/
abbrev opsR1_W : List (Ref sig .tc) := [main_v36, main_v37, main_v38, main_v39, main_v40, main_v41, main_v42, main_v43, main_cst_2, main_v44, main_v45, main_v46, main_v47, main_v48, main_v49, main_v50, main_v51, main_v52, main_v53, main_v54, main_v55, main_c_3, main_v56, main_v57, main_v58, main_cst_4, main_v59, main_call1_v0, main_v60, main_v61]
theorem opsR1_writes : (opsR1 : List (HloOp τ sig (Elt F))).Forall fun op => op.writes ⊆ (opsR1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk R1 writes no argument: contents that agree with Y on the arguments still do after it. -/
theorem argsEq_R1 {X Y : Valuation τ sig (Elt F)} (h : ArgsEq X Y) : ArgsEq (after opsR1 X) Y :=
  fun r hr => (after_of_writes_sub opsR1 X opsR1_writes ((by decide : ∀ r ∈ argRefs, r ∉ opsR1_W) r hr)).trans (h r hr)

/-- Chunk R2: operations 71 … 100. -/
abbrev opsR2 : List (HloOp τ sig (Elt F)) :=
  [ unary main_arg6 main_v62 ((extractStridedSlice S1x1024x256 ![2, 0, 0] · slices_S8x1024x256_S1x1024x256_2_0_0) : (⟨S8x1024x256, .f32⟩ : BufTy).Contents (Elt F) → (⟨S1x1024x256, .f32⟩ : BufTy).Contents (Elt F)),
    reshape main_v62 main_v63 rfl shapeCasts_S1x1024x256_S1024x256,
    binary main_arg0 main_v63 main_v64 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v65 ((extractStridedSlice S1x256 ![2, 0] · slices_S8x256_S1x256_2_0) : (⟨S8x256, .f32⟩ : BufTy).Contents (Elt F) → (⟨S1x256, .f32⟩ : BufTy).Contents (Elt F)),
    reshape main_v65 main_v66 rfl shapeCasts_S1x256_S256,
    unary main_v66 main_v67 (broadcastInDim S1x256 ![1] bcast_S256_S1x256_1 : (⟨S256, .f32⟩ : BufTy).Contents (Elt F) → (⟨S1x256, .f32⟩ : BufTy).Contents (Elt F)),
    unary main_v67 main_v68 (broadcastInDim S4096x256 ![0, 1] bcast_S1x256_S4096x256_0_1 : (⟨S1x256, .f32⟩ : BufTy).Contents (Elt F) → (⟨S4096x256, .f32⟩ : BufTy).Contents (Elt F)),
    binary main_v64 main_v68 main_v69 (addf : (⟨S4096x256, .f32⟩ : BufTy).Contents (Elt F) → (⟨S4096x256, .f32⟩ : BufTy).Contents (Elt F) → (⟨S4096x256, .f32⟩ : BufTy).Contents (Elt F)),
    nullary main_cst_5 (constant S_ .f32 0x00000000#32),
    unary main_cst_5 main_v70 (broadcastInDim S4096x256 ![] bcast_S_S4096x256 : (⟨S_, .f32⟩ : BufTy).Contents (Elt F) → (⟨S4096x256, .f32⟩ : BufTy).Contents (Elt F)),
    binary main_v69 main_v70 main_v71 (maximumf : (⟨S4096x256, .f32⟩ : BufTy).Contents (Elt F) → (⟨S4096x256, .f32⟩ : BufTy).Contents (Elt F) → (⟨S4096x256, .f32⟩ : BufTy).Contents (Elt F)),
    unary main_arg8 main_v72 ((extractStridedSlice S1x256x10 ![2, 0, 0] · slices_S8x256x10_S1x256x10_2_0_0) : (⟨S8x256x10, .f32⟩ : BufTy).Contents (Elt F) → (⟨S1x256x10, .f32⟩ : BufTy).Contents (Elt F)),
    reshape main_v72 main_v73 rfl shapeCasts_S1x256x10_S256x10,
    binary main_v71 main_v73 main_v74 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v75 ((extractStridedSlice S1x10 ![2, 0] · slices_S8x10_S1x10_2_0) : (⟨S8x10, .f32⟩ : BufTy).Contents (Elt F) → (⟨S1x10, .f32⟩ : BufTy).Contents (Elt F)),
    reshape main_v75 main_v76 rfl shapeCasts_S1x10_S10,
    unary main_v76 main_v77 (broadcastInDim S1x10 ![1] bcast_S10_S1x10_1 : (⟨S10, .f32⟩ : BufTy).Contents (Elt F) → (⟨S1x10, .f32⟩ : BufTy).Contents (Elt F)),
    unary main_v77 main_v78 (broadcastInDim S4096x10 ![0, 1] bcast_S1x10_S4096x10_0_1 : (⟨S1x10, .f32⟩ : BufTy).Contents (Elt F) → (⟨S4096x10, .f32⟩ : BufTy).Contents (Elt F)),
    binary main_v74 main_v78 main_v79 (addf : (⟨S4096x10, .f32⟩ : BufTy).Contents (Elt F) → (⟨S4096x10, .f32⟩ : BufTy).Contents (Elt F) → (⟨S4096x10, .f32⟩ : BufTy).Contents (Elt F)),
    unary main_arg1 main_v80 ((extractStridedSlice S4096x1 ![0, 2] · slices_S4096x8_S4096x1_0_2) : (⟨S4096x8, .i32⟩ : BufTy).Contents (Elt F) → (⟨S4096x1, .i32⟩ : BufTy).Contents (Elt F)),
    reshape main_v80 main_v81 rfl shapeCasts_S4096x1_S4096,
    nullary main_c_6 (constantI S_ 32 0#32),
    unary main_c_6 main_v82 (broadcastInDim S4096 ![] bcast_S_S4096 : (⟨S_, .i32⟩ : BufTy).Contents (Elt F) → (⟨S4096, .i32⟩ : BufTy).Contents (Elt F)),
    binary main_v81 main_v82 main_v83 (cmpi .ne : (⟨S4096, .i32⟩ : BufTy).Contents (Elt F) → (⟨S4096, .i32⟩ : BufTy).Contents (Elt F) → (⟨S4096, .i1⟩ : BufTy).Contents (Elt F)),
    unary main_v83 main_v84 (broadcastInDim S4096x1 ![0] bcast_S4096_S4096x1_0 : (⟨S4096, .i1⟩ : BufTy).Contents (Elt F) → (⟨S4096x1, .i1⟩ : BufTy).Contents (Elt F)),
    nullary main_cst_7 (constant S_ .f32 0x00000000#32),
    unary main_cst_7 main_v85 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v84) (TRef.of (T := ⟨S4096x10, .i1⟩) main_call2_v0) (broadcastInDim S4096x10 ![0, 1] bcast_S4096x1_S4096x10_0_1),
    TRef.ternary (TRef.of (T := ⟨S4096x10, .i1⟩) main_call2_v0) (TRef.of (T := ⟨S4096x10, .f32⟩) main_v79) (TRef.of (T := ⟨S4096x10, .f32⟩) main_v85) (TRef.of (T := ⟨S4096x10, .f32⟩) main_v86) select,
    binary main_v61 main_v86 main_v87 (addf : (⟨S4096x10, .f32⟩ : BufTy).Contents (Elt F) → (⟨S4096x10, .f32⟩ : BufTy).Contents (Elt F) → (⟨S4096x10, .f32⟩ : BufTy).Contents (Elt F)) ]
/-- The references chunk R2 writes. -/
abbrev opsR2_W : List (Ref sig .tc) := [main_v62, main_v63, main_v64, main_v65, main_v66, main_v67, main_v68, main_v69, main_cst_5, main_v70, main_v71, main_v72, main_v73, main_v74, main_v75, main_v76, main_v77, main_v78, main_v79, main_v80, main_v81, main_c_6, main_v82, main_v83, main_v84, main_cst_7, main_v85, main_call2_v0, main_v86, main_v87]
theorem opsR2_writes : (opsR2 : List (HloOp τ sig (Elt F))).Forall fun op => op.writes ⊆ (opsR2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk R2 writes no argument: contents that agree with Y on the arguments still do after it. -/
theorem argsEq_R2 {X Y : Valuation τ sig (Elt F)} (h : ArgsEq X Y) : ArgsEq (after opsR2 X) Y :=
  fun r hr => (after_of_writes_sub opsR2 X opsR2_writes ((by decide : ∀ r ∈ argRefs, r ∉ opsR2_W) r hr)).trans (h r hr)

/-- Chunk R3: operations 101 … 130. -/
abbrev opsR3 : List (HloOp τ sig (Elt F)) :=
  [ unary main_arg6 main_v88 ((extractStridedSlice S1x1024x256 ![3, 0, 0] · slices_S8x1024x256_S1x1024x256_3_0_0) : (⟨S8x1024x256, .f32⟩ : BufTy).Contents (Elt F) → (⟨S1x1024x256, .f32⟩ : BufTy).Contents (Elt F)),
    reshape main_v88 main_v89 rfl shapeCasts_S1x1024x256_S1024x256,
    binary main_arg0 main_v89 main_v90 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v91 ((extractStridedSlice S1x256 ![3, 0] · slices_S8x256_S1x256_3_0) : (⟨S8x256, .f32⟩ : BufTy).Contents (Elt F) → (⟨S1x256, .f32⟩ : BufTy).Contents (Elt F)),
    reshape main_v91 main_v92 rfl shapeCasts_S1x256_S256,
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S4096x256 ![0, 1] bcast_S1x256_S4096x256_0_1 : (⟨S1x256, .f32⟩ : BufTy).Contents (Elt F) → (⟨S4096x256, .f32⟩ : BufTy).Contents (Elt F)),
    binary main_v90 main_v94 main_v95 (addf : (⟨S4096x256, .f32⟩ : BufTy).Contents (Elt F) → (⟨S4096x256, .f32⟩ : BufTy).Contents (Elt F) → (⟨S4096x256, .f32⟩ : BufTy).Contents (Elt F)),
    nullary main_cst_8 (constant S_ .f32 0x00000000#32),
    unary main_cst_8 main_v96 (broadcastInDim S4096x256 ![] bcast_S_S4096x256 : (⟨S_, .f32⟩ : BufTy).Contents (Elt F) → (⟨S4096x256, .f32⟩ : BufTy).Contents (Elt F)),
    binary main_v95 main_v96 main_v97 (maximumf : (⟨S4096x256, .f32⟩ : BufTy).Contents (Elt F) → (⟨S4096x256, .f32⟩ : BufTy).Contents (Elt F) → (⟨S4096x256, .f32⟩ : BufTy).Contents (Elt F)),
    unary main_arg8 main_v98 ((extractStridedSlice S1x256x10 ![3, 0, 0] · slices_S8x256x10_S1x256x10_3_0_0) : (⟨S8x256x10, .f32⟩ : BufTy).Contents (Elt F) → (⟨S1x256x10, .f32⟩ : BufTy).Contents (Elt F)),
    reshape main_v98 main_v99 rfl shapeCasts_S1x256x10_S256x10,
    binary main_v97 main_v99 main_v100 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v101 ((extractStridedSlice S1x10 ![3, 0] · slices_S8x10_S1x10_3_0) : (⟨S8x10, .f32⟩ : BufTy).Contents (Elt F) → (⟨S1x10, .f32⟩ : BufTy).Contents (Elt F)),
    reshape main_v101 main_v102 rfl shapeCasts_S1x10_S10,
    unary main_v102 main_v103 (broadcastInDim S1x10 ![1] bcast_S10_S1x10_1 : (⟨S10, .f32⟩ : BufTy).Contents (Elt F) → (⟨S1x10, .f32⟩ : BufTy).Contents (Elt F)),
    unary main_v103 main_v104 (broadcastInDim S4096x10 ![0, 1] bcast_S1x10_S4096x10_0_1 : (⟨S1x10, .f32⟩ : BufTy).Contents (Elt F) → (⟨S4096x10, .f32⟩ : BufTy).Contents (Elt F)),
    binary main_v100 main_v104 main_v105 (addf : (⟨S4096x10, .f32⟩ : BufTy).Contents (Elt F) → (⟨S4096x10, .f32⟩ : BufTy).Contents (Elt F) → (⟨S4096x10, .f32⟩ : BufTy).Contents (Elt F)),
    unary main_arg1 main_v106 ((extractStridedSlice S4096x1 ![0, 3] · slices_S4096x8_S4096x1_0_3) : (⟨S4096x8, .i32⟩ : BufTy).Contents (Elt F) → (⟨S4096x1, .i32⟩ : BufTy).Contents (Elt F)),
    reshape main_v106 main_v107 rfl shapeCasts_S4096x1_S4096,
    nullary main_c_9 (constantI S_ 32 0#32),
    unary main_c_9 main_v108 (broadcastInDim S4096 ![] bcast_S_S4096 : (⟨S_, .i32⟩ : BufTy).Contents (Elt F) → (⟨S4096, .i32⟩ : BufTy).Contents (Elt F)),
    binary main_v107 main_v108 main_v109 (cmpi .ne : (⟨S4096, .i32⟩ : BufTy).Contents (Elt F) → (⟨S4096, .i32⟩ : BufTy).Contents (Elt F) → (⟨S4096, .i1⟩ : BufTy).Contents (Elt F)),
    unary main_v109 main_v110 (broadcastInDim S4096x1 ![0] bcast_S4096_S4096x1_0 : (⟨S4096, .i1⟩ : BufTy).Contents (Elt F) → (⟨S4096x1, .i1⟩ : BufTy).Contents (Elt F)),
    nullary main_cst_10 (constant S_ .f32 0x00000000#32),
    unary main_cst_10 main_v111 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v110) (TRef.of (T := ⟨S4096x10, .i1⟩) main_call3_v0) (broadcastInDim S4096x10 ![0, 1] bcast_S4096x1_S4096x10_0_1),
    TRef.ternary (TRef.of (T := ⟨S4096x10, .i1⟩) main_call3_v0) (TRef.of (T := ⟨S4096x10, .f32⟩) main_v105) (TRef.of (T := ⟨S4096x10, .f32⟩) main_v111) (TRef.of (T := ⟨S4096x10, .f32⟩) main_v112) select,
    binary main_v87 main_v112 main_v113 (addf : (⟨S4096x10, .f32⟩ : BufTy).Contents (Elt F) → (⟨S4096x10, .f32⟩ : BufTy).Contents (Elt F) → (⟨S4096x10, .f32⟩ : BufTy).Contents (Elt F)) ]
/-- The references chunk R3 writes. -/
abbrev opsR3_W : List (Ref sig .tc) := [main_v88, main_v89, main_v90, main_v91, main_v92, main_v93, main_v94, main_v95, main_cst_8, main_v96, main_v97, main_v98, main_v99, main_v100, main_v101, main_v102, main_v103, main_v104, main_v105, main_v106, main_v107, main_c_9, main_v108, main_v109, main_v110, main_cst_10, main_v111, main_call3_v0, main_v112, main_v113]
theorem opsR3_writes : (opsR3 : List (HloOp τ sig (Elt F))).Forall fun op => op.writes ⊆ (opsR3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk R3 writes no argument: contents that agree with Y on the arguments still do after it. -/
theorem argsEq_R3 {X Y : Valuation τ sig (Elt F)} (h : ArgsEq X Y) : ArgsEq (after opsR3 X) Y :=
  fun r hr => (after_of_writes_sub opsR3 X opsR3_writes ((by decide : ∀ r ∈ argRefs, r ∉ opsR3_W) r hr)).trans (h r hr)

/-- Chunk R4: operations 131 … 160. -/
abbrev opsR4 : List (HloOp τ sig (Elt F)) :=
  [ unary main_arg6 main_v114 ((extractStridedSlice S1x1024x256 ![4, 0, 0] · slices_S8x1024x256_S1x1024x256_4_0_0) : (⟨S8x1024x256, .f32⟩ : BufTy).Contents (Elt F) → (⟨S1x1024x256, .f32⟩ : BufTy).Contents (Elt F)),
    reshape main_v114 main_v115 rfl shapeCasts_S1x1024x256_S1024x256,
    binary main_arg0 main_v115 main_v116 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v117 ((extractStridedSlice S1x256 ![4, 0] · slices_S8x256_S1x256_4_0) : (⟨S8x256, .f32⟩ : BufTy).Contents (Elt F) → (⟨S1x256, .f32⟩ : BufTy).Contents (Elt F)),
    reshape main_v117 main_v118 rfl shapeCasts_S1x256_S256,
    unary main_v118 main_v119 (broadcastInDim S1x256 ![1] bcast_S256_S1x256_1 : (⟨S256, .f32⟩ : BufTy).Contents (Elt F) → (⟨S1x256, .f32⟩ : BufTy).Contents (Elt F)),
    unary main_v119 main_v120 (broadcastInDim S4096x256 ![0, 1] bcast_S1x256_S4096x256_0_1 : (⟨S1x256, .f32⟩ : BufTy).Contents (Elt F) → (⟨S4096x256, .f32⟩ : BufTy).Contents (Elt F)),
    binary main_v116 main_v120 main_v121 (addf : (⟨S4096x256, .f32⟩ : BufTy).Contents (Elt F) → (⟨S4096x256, .f32⟩ : BufTy).Contents (Elt F) → (⟨S4096x256, .f32⟩ : BufTy).Contents (Elt F)),
    nullary main_cst_11 (constant S_ .f32 0x00000000#32),
    unary main_cst_11 main_v122 (broadcastInDim S4096x256 ![] bcast_S_S4096x256 : (⟨S_, .f32⟩ : BufTy).Contents (Elt F) → (⟨S4096x256, .f32⟩ : BufTy).Contents (Elt F)),
    binary main_v121 main_v122 main_v123 (maximumf : (⟨S4096x256, .f32⟩ : BufTy).Contents (Elt F) → (⟨S4096x256, .f32⟩ : BufTy).Contents (Elt F) → (⟨S4096x256, .f32⟩ : BufTy).Contents (Elt F)),
    unary main_arg8 main_v124 ((extractStridedSlice S1x256x10 ![4, 0, 0] · slices_S8x256x10_S1x256x10_4_0_0) : (⟨S8x256x10, .f32⟩ : BufTy).Contents (Elt F) → (⟨S1x256x10, .f32⟩ : BufTy).Contents (Elt F)),
    reshape main_v124 main_v125 rfl shapeCasts_S1x256x10_S256x10,
    binary main_v123 main_v125 main_v126 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v127 ((extractStridedSlice S1x10 ![4, 0] · slices_S8x10_S1x10_4_0) : (⟨S8x10, .f32⟩ : BufTy).Contents (Elt F) → (⟨S1x10, .f32⟩ : BufTy).Contents (Elt F)),
    reshape main_v127 main_v128 rfl shapeCasts_S1x10_S10,
    unary main_v128 main_v129 (broadcastInDim S1x10 ![1] bcast_S10_S1x10_1 : (⟨S10, .f32⟩ : BufTy).Contents (Elt F) → (⟨S1x10, .f32⟩ : BufTy).Contents (Elt F)),
    unary main_v129 main_v130 (broadcastInDim S4096x10 ![0, 1] bcast_S1x10_S4096x10_0_1 : (⟨S1x10, .f32⟩ : BufTy).Contents (Elt F) → (⟨S4096x10, .f32⟩ : BufTy).Contents (Elt F)),
    binary main_v126 main_v130 main_v131 (addf : (⟨S4096x10, .f32⟩ : BufTy).Contents (Elt F) → (⟨S4096x10, .f32⟩ : BufTy).Contents (Elt F) → (⟨S4096x10, .f32⟩ : BufTy).Contents (Elt F)),
    unary main_arg1 main_v132 ((extractStridedSlice S4096x1 ![0, 4] · slices_S4096x8_S4096x1_0_4) : (⟨S4096x8, .i32⟩ : BufTy).Contents (Elt F) → (⟨S4096x1, .i32⟩ : BufTy).Contents (Elt F)),
    reshape main_v132 main_v133 rfl shapeCasts_S4096x1_S4096,
    nullary main_c_12 (constantI S_ 32 0#32),
    unary main_c_12 main_v134 (broadcastInDim S4096 ![] bcast_S_S4096 : (⟨S_, .i32⟩ : BufTy).Contents (Elt F) → (⟨S4096, .i32⟩ : BufTy).Contents (Elt F)),
    binary main_v133 main_v134 main_v135 (cmpi .ne : (⟨S4096, .i32⟩ : BufTy).Contents (Elt F) → (⟨S4096, .i32⟩ : BufTy).Contents (Elt F) → (⟨S4096, .i1⟩ : BufTy).Contents (Elt F)),
    unary main_v135 main_v136 (broadcastInDim S4096x1 ![0] bcast_S4096_S4096x1_0 : (⟨S4096, .i1⟩ : BufTy).Contents (Elt F) → (⟨S4096x1, .i1⟩ : BufTy).Contents (Elt F)),
    nullary main_cst_13 (constant S_ .f32 0x00000000#32),
    unary main_cst_13 main_v137 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v136) (TRef.of (T := ⟨S4096x10, .i1⟩) main_call4_v0) (broadcastInDim S4096x10 ![0, 1] bcast_S4096x1_S4096x10_0_1),
    TRef.ternary (TRef.of (T := ⟨S4096x10, .i1⟩) main_call4_v0) (TRef.of (T := ⟨S4096x10, .f32⟩) main_v131) (TRef.of (T := ⟨S4096x10, .f32⟩) main_v137) (TRef.of (T := ⟨S4096x10, .f32⟩) main_v138) select,
    binary main_v113 main_v138 main_v139 (addf : (⟨S4096x10, .f32⟩ : BufTy).Contents (Elt F) → (⟨S4096x10, .f32⟩ : BufTy).Contents (Elt F) → (⟨S4096x10, .f32⟩ : BufTy).Contents (Elt F)) ]
/-- The references chunk R4 writes. -/
abbrev opsR4_W : List (Ref sig .tc) := [main_v114, main_v115, main_v116, main_v117, main_v118, main_v119, main_v120, main_v121, main_cst_11, main_v122, main_v123, main_v124, main_v125, main_v126, main_v127, main_v128, main_v129, main_v130, main_v131, main_v132, main_v133, main_c_12, main_v134, main_v135, main_v136, main_cst_13, main_v137, main_call4_v0, main_v138, main_v139]
theorem opsR4_writes : (opsR4 : List (HloOp τ sig (Elt F))).Forall fun op => op.writes ⊆ (opsR4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk R4 writes no argument: contents that agree with Y on the arguments still do after it. -/
theorem argsEq_R4 {X Y : Valuation τ sig (Elt F)} (h : ArgsEq X Y) : ArgsEq (after opsR4 X) Y :=
  fun r hr => (after_of_writes_sub opsR4 X opsR4_writes ((by decide : ∀ r ∈ argRefs, r ∉ opsR4_W) r hr)).trans (h r hr)

/-- Chunk R5: operations 161 … 190. -/
abbrev opsR5 : List (HloOp τ sig (Elt F)) :=
  [ unary main_arg6 main_v140 ((extractStridedSlice S1x1024x256 ![5, 0, 0] · slices_S8x1024x256_S1x1024x256_5_0_0) : (⟨S8x1024x256, .f32⟩ : BufTy).Contents (Elt F) → (⟨S1x1024x256, .f32⟩ : BufTy).Contents (Elt F)),
    reshape main_v140 main_v141 rfl shapeCasts_S1x1024x256_S1024x256,
    binary main_arg0 main_v141 main_v142 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v143 ((extractStridedSlice S1x256 ![5, 0] · slices_S8x256_S1x256_5_0) : (⟨S8x256, .f32⟩ : BufTy).Contents (Elt F) → (⟨S1x256, .f32⟩ : BufTy).Contents (Elt F)),
    reshape main_v143 main_v144 rfl shapeCasts_S1x256_S256,
    unary main_v144 main_v145 (broadcastInDim S1x256 ![1] bcast_S256_S1x256_1 : (⟨S256, .f32⟩ : BufTy).Contents (Elt F) → (⟨S1x256, .f32⟩ : BufTy).Contents (Elt F)),
    unary main_v145 main_v146 (broadcastInDim S4096x256 ![0, 1] bcast_S1x256_S4096x256_0_1 : (⟨S1x256, .f32⟩ : BufTy).Contents (Elt F) → (⟨S4096x256, .f32⟩ : BufTy).Contents (Elt F)),
    binary main_v142 main_v146 main_v147 (addf : (⟨S4096x256, .f32⟩ : BufTy).Contents (Elt F) → (⟨S4096x256, .f32⟩ : BufTy).Contents (Elt F) → (⟨S4096x256, .f32⟩ : BufTy).Contents (Elt F)),
    nullary main_cst_14 (constant S_ .f32 0x00000000#32),
    unary main_cst_14 main_v148 (broadcastInDim S4096x256 ![] bcast_S_S4096x256 : (⟨S_, .f32⟩ : BufTy).Contents (Elt F) → (⟨S4096x256, .f32⟩ : BufTy).Contents (Elt F)),
    binary main_v147 main_v148 main_v149 (maximumf : (⟨S4096x256, .f32⟩ : BufTy).Contents (Elt F) → (⟨S4096x256, .f32⟩ : BufTy).Contents (Elt F) → (⟨S4096x256, .f32⟩ : BufTy).Contents (Elt F)),
    unary main_arg8 main_v150 ((extractStridedSlice S1x256x10 ![5, 0, 0] · slices_S8x256x10_S1x256x10_5_0_0) : (⟨S8x256x10, .f32⟩ : BufTy).Contents (Elt F) → (⟨S1x256x10, .f32⟩ : BufTy).Contents (Elt F)),
    reshape main_v150 main_v151 rfl shapeCasts_S1x256x10_S256x10,
    binary main_v149 main_v151 main_v152 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v153 ((extractStridedSlice S1x10 ![5, 0] · slices_S8x10_S1x10_5_0) : (⟨S8x10, .f32⟩ : BufTy).Contents (Elt F) → (⟨S1x10, .f32⟩ : BufTy).Contents (Elt F)),
    reshape main_v153 main_v154 rfl shapeCasts_S1x10_S10,
    unary main_v154 main_v155 (broadcastInDim S1x10 ![1] bcast_S10_S1x10_1 : (⟨S10, .f32⟩ : BufTy).Contents (Elt F) → (⟨S1x10, .f32⟩ : BufTy).Contents (Elt F)),
    unary main_v155 main_v156 (broadcastInDim S4096x10 ![0, 1] bcast_S1x10_S4096x10_0_1 : (⟨S1x10, .f32⟩ : BufTy).Contents (Elt F) → (⟨S4096x10, .f32⟩ : BufTy).Contents (Elt F)),
    binary main_v152 main_v156 main_v157 (addf : (⟨S4096x10, .f32⟩ : BufTy).Contents (Elt F) → (⟨S4096x10, .f32⟩ : BufTy).Contents (Elt F) → (⟨S4096x10, .f32⟩ : BufTy).Contents (Elt F)),
    unary main_arg1 main_v158 ((extractStridedSlice S4096x1 ![0, 5] · slices_S4096x8_S4096x1_0_5) : (⟨S4096x8, .i32⟩ : BufTy).Contents (Elt F) → (⟨S4096x1, .i32⟩ : BufTy).Contents (Elt F)),
    reshape main_v158 main_v159 rfl shapeCasts_S4096x1_S4096,
    nullary main_c_15 (constantI S_ 32 0#32),
    unary main_c_15 main_v160 (broadcastInDim S4096 ![] bcast_S_S4096 : (⟨S_, .i32⟩ : BufTy).Contents (Elt F) → (⟨S4096, .i32⟩ : BufTy).Contents (Elt F)),
    binary main_v159 main_v160 main_v161 (cmpi .ne : (⟨S4096, .i32⟩ : BufTy).Contents (Elt F) → (⟨S4096, .i32⟩ : BufTy).Contents (Elt F) → (⟨S4096, .i1⟩ : BufTy).Contents (Elt F)),
    unary main_v161 main_v162 (broadcastInDim S4096x1 ![0] bcast_S4096_S4096x1_0 : (⟨S4096, .i1⟩ : BufTy).Contents (Elt F) → (⟨S4096x1, .i1⟩ : BufTy).Contents (Elt F)),
    nullary main_cst_16 (constant S_ .f32 0x00000000#32),
    unary main_cst_16 main_v163 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v162) (TRef.of (T := ⟨S4096x10, .i1⟩) main_call5_v0) (broadcastInDim S4096x10 ![0, 1] bcast_S4096x1_S4096x10_0_1),
    TRef.ternary (TRef.of (T := ⟨S4096x10, .i1⟩) main_call5_v0) (TRef.of (T := ⟨S4096x10, .f32⟩) main_v157) (TRef.of (T := ⟨S4096x10, .f32⟩) main_v163) (TRef.of (T := ⟨S4096x10, .f32⟩) main_v164) select,
    binary main_v139 main_v164 main_v165 (addf : (⟨S4096x10, .f32⟩ : BufTy).Contents (Elt F) → (⟨S4096x10, .f32⟩ : BufTy).Contents (Elt F) → (⟨S4096x10, .f32⟩ : BufTy).Contents (Elt F)) ]
/-- The references chunk R5 writes. -/
abbrev opsR5_W : List (Ref sig .tc) := [main_v140, main_v141, main_v142, main_v143, main_v144, main_v145, main_v146, main_v147, main_cst_14, main_v148, main_v149, main_v150, main_v151, main_v152, main_v153, main_v154, main_v155, main_v156, main_v157, main_v158, main_v159, main_c_15, main_v160, main_v161, main_v162, main_cst_16, main_v163, main_call5_v0, main_v164, main_v165]
theorem opsR5_writes : (opsR5 : List (HloOp τ sig (Elt F))).Forall fun op => op.writes ⊆ (opsR5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk R5 writes no argument: contents that agree with Y on the arguments still do after it. -/
theorem argsEq_R5 {X Y : Valuation τ sig (Elt F)} (h : ArgsEq X Y) : ArgsEq (after opsR5 X) Y :=
  fun r hr => (after_of_writes_sub opsR5 X opsR5_writes ((by decide : ∀ r ∈ argRefs, r ∉ opsR5_W) r hr)).trans (h r hr)

/-- Chunk R6: operations 191 … 220. -/
abbrev opsR6 : List (HloOp τ sig (Elt F)) :=
  [ unary main_arg6 main_v166 ((extractStridedSlice S1x1024x256 ![6, 0, 0] · slices_S8x1024x256_S1x1024x256_6_0_0) : (⟨S8x1024x256, .f32⟩ : BufTy).Contents (Elt F) → (⟨S1x1024x256, .f32⟩ : BufTy).Contents (Elt F)),
    reshape main_v166 main_v167 rfl shapeCasts_S1x1024x256_S1024x256,
    binary main_arg0 main_v167 main_v168 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v169 ((extractStridedSlice S1x256 ![6, 0] · slices_S8x256_S1x256_6_0) : (⟨S8x256, .f32⟩ : BufTy).Contents (Elt F) → (⟨S1x256, .f32⟩ : BufTy).Contents (Elt F)),
    reshape main_v169 main_v170 rfl shapeCasts_S1x256_S256,
    unary main_v170 main_v171 (broadcastInDim S1x256 ![1] bcast_S256_S1x256_1 : (⟨S256, .f32⟩ : BufTy).Contents (Elt F) → (⟨S1x256, .f32⟩ : BufTy).Contents (Elt F)),
    unary main_v171 main_v172 (broadcastInDim S4096x256 ![0, 1] bcast_S1x256_S4096x256_0_1 : (⟨S1x256, .f32⟩ : BufTy).Contents (Elt F) → (⟨S4096x256, .f32⟩ : BufTy).Contents (Elt F)),
    binary main_v168 main_v172 main_v173 (addf : (⟨S4096x256, .f32⟩ : BufTy).Contents (Elt F) → (⟨S4096x256, .f32⟩ : BufTy).Contents (Elt F) → (⟨S4096x256, .f32⟩ : BufTy).Contents (Elt F)),
    nullary main_cst_17 (constant S_ .f32 0x00000000#32),
    unary main_cst_17 main_v174 (broadcastInDim S4096x256 ![] bcast_S_S4096x256 : (⟨S_, .f32⟩ : BufTy).Contents (Elt F) → (⟨S4096x256, .f32⟩ : BufTy).Contents (Elt F)),
    binary main_v173 main_v174 main_v175 (maximumf : (⟨S4096x256, .f32⟩ : BufTy).Contents (Elt F) → (⟨S4096x256, .f32⟩ : BufTy).Contents (Elt F) → (⟨S4096x256, .f32⟩ : BufTy).Contents (Elt F)),
    unary main_arg8 main_v176 ((extractStridedSlice S1x256x10 ![6, 0, 0] · slices_S8x256x10_S1x256x10_6_0_0) : (⟨S8x256x10, .f32⟩ : BufTy).Contents (Elt F) → (⟨S1x256x10, .f32⟩ : BufTy).Contents (Elt F)),
    reshape main_v176 main_v177 rfl shapeCasts_S1x256x10_S256x10,
    binary main_v175 main_v177 main_v178 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v179 ((extractStridedSlice S1x10 ![6, 0] · slices_S8x10_S1x10_6_0) : (⟨S8x10, .f32⟩ : BufTy).Contents (Elt F) → (⟨S1x10, .f32⟩ : BufTy).Contents (Elt F)),
    reshape main_v179 main_v180 rfl shapeCasts_S1x10_S10,
    unary main_v180 main_v181 (broadcastInDim S1x10 ![1] bcast_S10_S1x10_1 : (⟨S10, .f32⟩ : BufTy).Contents (Elt F) → (⟨S1x10, .f32⟩ : BufTy).Contents (Elt F)),
    unary main_v181 main_v182 (broadcastInDim S4096x10 ![0, 1] bcast_S1x10_S4096x10_0_1 : (⟨S1x10, .f32⟩ : BufTy).Contents (Elt F) → (⟨S4096x10, .f32⟩ : BufTy).Contents (Elt F)),
    binary main_v178 main_v182 main_v183 (addf : (⟨S4096x10, .f32⟩ : BufTy).Contents (Elt F) → (⟨S4096x10, .f32⟩ : BufTy).Contents (Elt F) → (⟨S4096x10, .f32⟩ : BufTy).Contents (Elt F)),
    unary main_arg1 main_v184 ((extractStridedSlice S4096x1 ![0, 6] · slices_S4096x8_S4096x1_0_6) : (⟨S4096x8, .i32⟩ : BufTy).Contents (Elt F) → (⟨S4096x1, .i32⟩ : BufTy).Contents (Elt F)),
    reshape main_v184 main_v185 rfl shapeCasts_S4096x1_S4096,
    nullary main_c_18 (constantI S_ 32 0#32),
    unary main_c_18 main_v186 (broadcastInDim S4096 ![] bcast_S_S4096 : (⟨S_, .i32⟩ : BufTy).Contents (Elt F) → (⟨S4096, .i32⟩ : BufTy).Contents (Elt F)),
    binary main_v185 main_v186 main_v187 (cmpi .ne : (⟨S4096, .i32⟩ : BufTy).Contents (Elt F) → (⟨S4096, .i32⟩ : BufTy).Contents (Elt F) → (⟨S4096, .i1⟩ : BufTy).Contents (Elt F)),
    unary main_v187 main_v188 (broadcastInDim S4096x1 ![0] bcast_S4096_S4096x1_0 : (⟨S4096, .i1⟩ : BufTy).Contents (Elt F) → (⟨S4096x1, .i1⟩ : BufTy).Contents (Elt F)),
    nullary main_cst_19 (constant S_ .f32 0x00000000#32),
    unary main_cst_19 main_v189 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v188) (TRef.of (T := ⟨S4096x10, .i1⟩) main_call6_v0) (broadcastInDim S4096x10 ![0, 1] bcast_S4096x1_S4096x10_0_1),
    TRef.ternary (TRef.of (T := ⟨S4096x10, .i1⟩) main_call6_v0) (TRef.of (T := ⟨S4096x10, .f32⟩) main_v183) (TRef.of (T := ⟨S4096x10, .f32⟩) main_v189) (TRef.of (T := ⟨S4096x10, .f32⟩) main_v190) select,
    binary main_v165 main_v190 main_v191 (addf : (⟨S4096x10, .f32⟩ : BufTy).Contents (Elt F) → (⟨S4096x10, .f32⟩ : BufTy).Contents (Elt F) → (⟨S4096x10, .f32⟩ : BufTy).Contents (Elt F)) ]
/-- The references chunk R6 writes. -/
abbrev opsR6_W : List (Ref sig .tc) := [main_v166, main_v167, main_v168, main_v169, main_v170, main_v171, main_v172, main_v173, main_cst_17, main_v174, main_v175, main_v176, main_v177, main_v178, main_v179, main_v180, main_v181, main_v182, main_v183, main_v184, main_v185, main_c_18, main_v186, main_v187, main_v188, main_cst_19, main_v189, main_call6_v0, main_v190, main_v191]
theorem opsR6_writes : (opsR6 : List (HloOp τ sig (Elt F))).Forall fun op => op.writes ⊆ (opsR6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk R6 writes no argument: contents that agree with Y on the arguments still do after it. -/
theorem argsEq_R6 {X Y : Valuation τ sig (Elt F)} (h : ArgsEq X Y) : ArgsEq (after opsR6 X) Y :=
  fun r hr => (after_of_writes_sub opsR6 X opsR6_writes ((by decide : ∀ r ∈ argRefs, r ∉ opsR6_W) r hr)).trans (h r hr)

/-- Chunk R7: operations 221 … 250. -/
abbrev opsR7 : List (HloOp τ sig (Elt F)) :=
  [ unary main_arg6 main_v192 ((extractStridedSlice S1x1024x256 ![7, 0, 0] · slices_S8x1024x256_S1x1024x256_7_0_0) : (⟨S8x1024x256, .f32⟩ : BufTy).Contents (Elt F) → (⟨S1x1024x256, .f32⟩ : BufTy).Contents (Elt F)),
    reshape main_v192 main_v193 rfl shapeCasts_S1x1024x256_S1024x256,
    binary main_arg0 main_v193 main_v194 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg7 main_v195 ((extractStridedSlice S1x256 ![7, 0] · slices_S8x256_S1x256_7_0) : (⟨S8x256, .f32⟩ : BufTy).Contents (Elt F) → (⟨S1x256, .f32⟩ : BufTy).Contents (Elt F)),
    reshape main_v195 main_v196 rfl shapeCasts_S1x256_S256,
    unary main_v196 main_v197 (broadcastInDim S1x256 ![1] bcast_S256_S1x256_1 : (⟨S256, .f32⟩ : BufTy).Contents (Elt F) → (⟨S1x256, .f32⟩ : BufTy).Contents (Elt F)),
    unary main_v197 main_v198 (broadcastInDim S4096x256 ![0, 1] bcast_S1x256_S4096x256_0_1 : (⟨S1x256, .f32⟩ : BufTy).Contents (Elt F) → (⟨S4096x256, .f32⟩ : BufTy).Contents (Elt F)),
    binary main_v194 main_v198 main_v199 (addf : (⟨S4096x256, .f32⟩ : BufTy).Contents (Elt F) → (⟨S4096x256, .f32⟩ : BufTy).Contents (Elt F) → (⟨S4096x256, .f32⟩ : BufTy).Contents (Elt F)),
    nullary main_cst_20 (constant S_ .f32 0x00000000#32),
    unary main_cst_20 main_v200 (broadcastInDim S4096x256 ![] bcast_S_S4096x256 : (⟨S_, .f32⟩ : BufTy).Contents (Elt F) → (⟨S4096x256, .f32⟩ : BufTy).Contents (Elt F)),
    binary main_v199 main_v200 main_v201 (maximumf : (⟨S4096x256, .f32⟩ : BufTy).Contents (Elt F) → (⟨S4096x256, .f32⟩ : BufTy).Contents (Elt F) → (⟨S4096x256, .f32⟩ : BufTy).Contents (Elt F)),
    unary main_arg8 main_v202 ((extractStridedSlice S1x256x10 ![7, 0, 0] · slices_S8x256x10_S1x256x10_7_0_0) : (⟨S8x256x10, .f32⟩ : BufTy).Contents (Elt F) → (⟨S1x256x10, .f32⟩ : BufTy).Contents (Elt F)),
    reshape main_v202 main_v203 rfl shapeCasts_S1x256x10_S256x10,
    binary main_v201 main_v203 main_v204 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg9 main_v205 ((extractStridedSlice S1x10 ![7, 0] · slices_S8x10_S1x10_7_0) : (⟨S8x10, .f32⟩ : BufTy).Contents (Elt F) → (⟨S1x10, .f32⟩ : BufTy).Contents (Elt F)),
    reshape main_v205 main_v206 rfl shapeCasts_S1x10_S10,
    unary main_v206 main_v207 (broadcastInDim S1x10 ![1] bcast_S10_S1x10_1 : (⟨S10, .f32⟩ : BufTy).Contents (Elt F) → (⟨S1x10, .f32⟩ : BufTy).Contents (Elt F)),
    unary main_v207 main_v208 (broadcastInDim S4096x10 ![0, 1] bcast_S1x10_S4096x10_0_1 : (⟨S1x10, .f32⟩ : BufTy).Contents (Elt F) → (⟨S4096x10, .f32⟩ : BufTy).Contents (Elt F)),
    binary main_v204 main_v208 main_v209 (addf : (⟨S4096x10, .f32⟩ : BufTy).Contents (Elt F) → (⟨S4096x10, .f32⟩ : BufTy).Contents (Elt F) → (⟨S4096x10, .f32⟩ : BufTy).Contents (Elt F)),
    unary main_arg1 main_v210 ((extractStridedSlice S4096x1 ![0, 7] · slices_S4096x8_S4096x1_0_7) : (⟨S4096x8, .i32⟩ : BufTy).Contents (Elt F) → (⟨S4096x1, .i32⟩ : BufTy).Contents (Elt F)),
    reshape main_v210 main_v211 rfl shapeCasts_S4096x1_S4096,
    nullary main_c_21 (constantI S_ 32 0#32),
    unary main_c_21 main_v212 (broadcastInDim S4096 ![] bcast_S_S4096 : (⟨S_, .i32⟩ : BufTy).Contents (Elt F) → (⟨S4096, .i32⟩ : BufTy).Contents (Elt F)),
    binary main_v211 main_v212 main_v213 (cmpi .ne : (⟨S4096, .i32⟩ : BufTy).Contents (Elt F) → (⟨S4096, .i32⟩ : BufTy).Contents (Elt F) → (⟨S4096, .i1⟩ : BufTy).Contents (Elt F)),
    unary main_v213 main_v214 (broadcastInDim S4096x1 ![0] bcast_S4096_S4096x1_0 : (⟨S4096, .i1⟩ : BufTy).Contents (Elt F) → (⟨S4096x1, .i1⟩ : BufTy).Contents (Elt F)),
    nullary main_cst_22 (constant S_ .f32 0x00000000#32),
    unary main_cst_22 main_v215 (broadcastInDim S4096x10 ![] bcast_S_S4096x10 : (⟨S_, .f32⟩ : BufTy).Contents (Elt F) → (⟨S4096x10, .f32⟩ : BufTy).Contents (Elt F)),
    TRef.unary (TRef.of (T := ⟨S4096x1, .i1⟩) main_v214) (TRef.of (T := ⟨S4096x10, .i1⟩) main_call7_v0) (broadcastInDim S4096x10 ![0, 1] bcast_S4096x1_S4096x10_0_1),
    TRef.ternary (TRef.of (T := ⟨S4096x10, .i1⟩) main_call7_v0) (TRef.of (T := ⟨S4096x10, .f32⟩) main_v209) (TRef.of (T := ⟨S4096x10, .f32⟩) main_v215) (TRef.of (T := ⟨S4096x10, .f32⟩) main_v216) select,
    binary main_v191 main_v216 main_v217 (addf : (⟨S4096x10, .f32⟩ : BufTy).Contents (Elt F) → (⟨S4096x10, .f32⟩ : BufTy).Contents (Elt F) → (⟨S4096x10, .f32⟩ : BufTy).Contents (Elt F)) ]
/-- The references chunk R7 writes. -/
abbrev opsR7_W : List (Ref sig .tc) := [main_v192, main_v193, main_v194, main_v195, main_v196, main_v197, main_v198, main_v199, main_cst_20, main_v200, main_v201, main_v202, main_v203, main_v204, main_v205, main_v206, main_v207, main_v208, main_v209, main_v210, main_v211, main_c_21, main_v212, main_v213, main_v214, main_cst_22, main_v215, main_call7_v0, main_v216, main_v217]
theorem opsR7_writes : (opsR7 : List (HloOp τ sig (Elt F))).Forall fun op => op.writes ⊆ (opsR7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- Chunk R7 writes no argument: contents that agree with Y on the arguments still do after it. -/
theorem argsEq_R7 {X Y : Valuation τ sig (Elt F)} (h : ArgsEq X Y) : ArgsEq (after opsR7 X) Y :=
  fun r hr => (after_of_writes_sub opsR7 X opsR7_writes ((by decide : ∀ r ∈ argRefs, r ∉ opsR7_W) r hr)).trans (h r hr)

/-- The target chunk, from any contents X that agree with Y on the arguments. -/
theorem targetT (X Y : Valuation τ sig (Elt F)) (h : ArgsEq X Y) :
    after opsT X (Proc.devRef .tc main_v9)
      = Cert.NetSum.Ref.target (Y (Proc.devRef .tc main_arg0)) (Y (Proc.devRef .tc main_arg2)) (Y (Proc.devRef .tc main_arg3)) (Y (Proc.devRef .tc main_arg4)) (Y (Proc.devRef .tc main_arg5)) := by
  rw [← h main_arg0 (by decide), ← h main_arg2 (by decide), ← h main_arg3 (by decide), ← h main_arg4 (by decide), ← h main_arg5 (by decide)]
  unfold Cert.NetSum.Ref.target
  after_results_simp <;> rfl

/-- Round 0, from any contents X that agree with Y on the arguments: the running total found, plus what patch round 0 adds. -/
theorem round0 (X Y : Valuation τ sig (Elt F)) (h : ArgsEq X Y) :
    after opsR0 X (Proc.devRef .tc main_v35)
      = addf (X (Proc.devRef .tc main_v9)) (Cert.NetSum.Ref.sel0 (Y (Proc.devRef .tc main_arg0)) (Y (Proc.devRef .tc main_arg1)) (Y (Proc.devRef .tc main_arg6)) (Y (Proc.devRef .tc main_arg7)) (Y (Proc.devRef .tc main_arg8)) (Y (Proc.devRef .tc main_arg9))) := by
  rw [← h main_arg0 (by decide), ← h main_arg1 (by decide), ← h main_arg6 (by decide), ← h main_arg7 (by decide), ← h main_arg8 (by decide), ← h main_arg9 (by decide)]
  unfold Cert.NetSum.Ref.sel0
  after_results_simp <;> rfl

/-- Round 1, from any contents X that agree with Y on the arguments: the running total found, plus what patch round 1 adds. -/
theorem round1 (X Y : Valuation τ sig (Elt F)) (h : ArgsEq X Y) :
    after opsR1 X (Proc.devRef .tc main_v61)
      = addf (X (Proc.devRef .tc main_v35)) (Cert.NetSum.Ref.sel1 (Y (Proc.devRef .tc main_arg0)) (Y (Proc.devRef .tc main_arg1)) (Y (Proc.devRef .tc main_arg6)) (Y (Proc.devRef .tc main_arg7)) (Y (Proc.devRef .tc main_arg8)) (Y (Proc.devRef .tc main_arg9))) := by
  rw [← h main_arg0 (by decide), ← h main_arg1 (by decide), ← h main_arg6 (by decide), ← h main_arg7 (by decide), ← h main_arg8 (by decide), ← h main_arg9 (by decide)]
  unfold Cert.NetSum.Ref.sel1
  after_results_simp <;> rfl

/-- Round 2, from any contents X that agree with Y on the arguments: the running total found, plus what patch round 2 adds. -/
theorem round2 (X Y : Valuation τ sig (Elt F)) (h : ArgsEq X Y) :
    after opsR2 X (Proc.devRef .tc main_v87)
      = addf (X (Proc.devRef .tc main_v61)) (Cert.NetSum.Ref.sel2 (Y (Proc.devRef .tc main_arg0)) (Y (Proc.devRef .tc main_arg1)) (Y (Proc.devRef .tc main_arg6)) (Y (Proc.devRef .tc main_arg7)) (Y (Proc.devRef .tc main_arg8)) (Y (Proc.devRef .tc main_arg9))) := by
  rw [← h main_arg0 (by decide), ← h main_arg1 (by decide), ← h main_arg6 (by decide), ← h main_arg7 (by decide), ← h main_arg8 (by decide), ← h main_arg9 (by decide)]
  unfold Cert.NetSum.Ref.sel2
  after_results_simp <;> rfl

/-- Round 3, from any contents X that agree with Y on the arguments: the running total found, plus what patch round 3 adds. -/
theorem round3 (X Y : Valuation τ sig (Elt F)) (h : ArgsEq X Y) :
    after opsR3 X (Proc.devRef .tc main_v113)
      = addf (X (Proc.devRef .tc main_v87)) (Cert.NetSum.Ref.sel3 (Y (Proc.devRef .tc main_arg0)) (Y (Proc.devRef .tc main_arg1)) (Y (Proc.devRef .tc main_arg6)) (Y (Proc.devRef .tc main_arg7)) (Y (Proc.devRef .tc main_arg8)) (Y (Proc.devRef .tc main_arg9))) := by
  rw [← h main_arg0 (by decide), ← h main_arg1 (by decide), ← h main_arg6 (by decide), ← h main_arg7 (by decide), ← h main_arg8 (by decide), ← h main_arg9 (by decide)]
  unfold Cert.NetSum.Ref.sel3
  after_results_simp <;> rfl

/-- Round 4, from any contents X that agree with Y on the arguments: the running total found, plus what patch round 4 adds. -/
theorem round4 (X Y : Valuation τ sig (Elt F)) (h : ArgsEq X Y) :
    after opsR4 X (Proc.devRef .tc main_v139)
      = addf (X (Proc.devRef .tc main_v113)) (Cert.NetSum.Ref.sel4 (Y (Proc.devRef .tc main_arg0)) (Y (Proc.devRef .tc main_arg1)) (Y (Proc.devRef .tc main_arg6)) (Y (Proc.devRef .tc main_arg7)) (Y (Proc.devRef .tc main_arg8)) (Y (Proc.devRef .tc main_arg9))) := by
  rw [← h main_arg0 (by decide), ← h main_arg1 (by decide), ← h main_arg6 (by decide), ← h main_arg7 (by decide), ← h main_arg8 (by decide), ← h main_arg9 (by decide)]
  unfold Cert.NetSum.Ref.sel4
  after_results_simp <;> rfl

/-- Round 5, from any contents X that agree with Y on the arguments: the running total found, plus what patch round 5 adds. -/
theorem round5 (X Y : Valuation τ sig (Elt F)) (h : ArgsEq X Y) :
    after opsR5 X (Proc.devRef .tc main_v165)
      = addf (X (Proc.devRef .tc main_v139)) (Cert.NetSum.Ref.sel5 (Y (Proc.devRef .tc main_arg0)) (Y (Proc.devRef .tc main_arg1)) (Y (Proc.devRef .tc main_arg6)) (Y (Proc.devRef .tc main_arg7)) (Y (Proc.devRef .tc main_arg8)) (Y (Proc.devRef .tc main_arg9))) := by
  rw [← h main_arg0 (by decide), ← h main_arg1 (by decide), ← h main_arg6 (by decide), ← h main_arg7 (by decide), ← h main_arg8 (by decide), ← h main_arg9 (by decide)]
  unfold Cert.NetSum.Ref.sel5
  after_results_simp <;> rfl

/-- Round 6, from any contents X that agree with Y on the arguments: the running total found, plus what patch round 6 adds. -/
theorem round6 (X Y : Valuation τ sig (Elt F)) (h : ArgsEq X Y) :
    after opsR6 X (Proc.devRef .tc main_v191)
      = addf (X (Proc.devRef .tc main_v165)) (Cert.NetSum.Ref.sel6 (Y (Proc.devRef .tc main_arg0)) (Y (Proc.devRef .tc main_arg1)) (Y (Proc.devRef .tc main_arg6)) (Y (Proc.devRef .tc main_arg7)) (Y (Proc.devRef .tc main_arg8)) (Y (Proc.devRef .tc main_arg9))) := by
  rw [← h main_arg0 (by decide), ← h main_arg1 (by decide), ← h main_arg6 (by decide), ← h main_arg7 (by decide), ← h main_arg8 (by decide), ← h main_arg9 (by decide)]
  unfold Cert.NetSum.Ref.sel6
  after_results_simp <;> rfl

/-- Round 7, from any contents X that agree with Y on the arguments: the running total found, plus what patch round 7 adds. -/
theorem round7 (X Y : Valuation τ sig (Elt F)) (h : ArgsEq X Y) :
    after opsR7 X (Proc.devRef .tc main_v217)
      = addf (X (Proc.devRef .tc main_v191)) (Cert.NetSum.Ref.sel7 (Y (Proc.devRef .tc main_arg0)) (Y (Proc.devRef .tc main_arg1)) (Y (Proc.devRef .tc main_arg6)) (Y (Proc.devRef .tc main_arg7)) (Y (Proc.devRef .tc main_arg8)) (Y (Proc.devRef .tc main_arg9))) := by
  rw [← h main_arg0 (by decide), ← h main_arg1 (by decide), ← h main_arg6 (by decide), ← h main_arg7 (by decide), ← h main_arg8 (by decide), ← h main_arg9 (by decide)]
  unfold Cert.NetSum.Ref.sel7
  after_results_simp <;> rfl

end Cert.NetSum.RefRun

end
-- ==== Proof.RefRun.lean ====
/-
  The reference's run: every weakly fair execution of the reference program terminates with its result buffer at
  `refOut` of the arguments as launched, and the arguments unchanged.

  A straight line of operations run from contents V leaves `after ops V`. Contents after a concatenation are contents
  after the second list from contents after the first, so the program's 251 operations are read nine chunks at a time:
  the target chunk leaves the target net in the running total's first buffer; round e leaves, in the next, what it
  found there plus what patch round e adds; no chunk writes an argument, so every chunk reads the arguments as
  launched. The two ways of cutting the same list — five printed stretches, nine chunks — are the same list.
-/
import proofs.«168783_g10831907520693_week1_w3_86_18_alg».proof.Proof.RefMain
import proofs.«168783_g10831907520693_week1_w3_86_18_alg».proof.Proof.RefRounds

noncomputable section

namespace Cert.NetSum.RefRun

open Cert.ReferenceIdeal Cert.ReferenceIdeal.Gen Idealize.ShloMosaic Idealize.ShloMosaic.TcCoe Idealize.SL.Sem Idealize.ShloMosaic.StableHlo

variable {F : FTy → Type} [FloatOps F]

/-- Contents after two lists run one after the other. -/
theorem after_append (l₁ l₂ : List (HloOp τ sig (Elt F))) (V : Valuation τ sig (Elt F)) : after (l₁ ++ l₂) V = after l₂ (after l₁ V) := by
  induction l₁ generalizing V with
  | nil => rfl
  | cons op l ih => exact ih (op.result V)

/-- The nine chunks in order. -/
abbrev opsChunks : List (HloOp τ sig (Elt F)) :=
  opsT ++ (opsR0 ++ (opsR1 ++ (opsR2 ++ (opsR3 ++ (opsR4 ++ (opsR5 ++ (opsR6 ++ opsR7)))))))

/-- The five stretches and the nine chunks are one list. -/
theorem ops_eq_chunks : (ops : List (HloOp τ sig (Elt F))) = opsChunks := rfl

/-- From any contents V: the result buffer ends at `refOut` of V's arguments, and the arguments as in V. -/
theorem result_eq (V : Valuation τ sig (Elt F)) :
    after ops V (Proc.devRef .tc main_v217)
      = Cert.NetSum.Ref.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    ∧ ArgsEq (after ops V) V := by
  rw [ops_eq_chunks]
  have eT := argsEq_T (ArgsEq.refl V)
  have e0 := argsEq_R0 eT
  have e1 := argsEq_R1 e0
  have e2 := argsEq_R2 e1
  have e3 := argsEq_R3 e2
  have e4 := argsEq_R4 e3
  have e5 := argsEq_R5 e4
  have e6 := argsEq_R6 e5
  have e7 := argsEq_R7 e6
  simp only [opsChunks, after_append]
  refine ⟨?_, e7⟩
  rw [round7 _ V e6, round6 _ V e5, round5 _ V e4, round4 _ V e3, round3 _ V e2, round2 _ V e1, round1 _ V e0,
    round0 _ V eT, targetT _ V (ArgsEq.refl V)]
  rfl

/-- On every device, from any memory with zero counters: every weakly fair execution of the reference terminates with
    its result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v217) = Cert.NetSum.Ref.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨hv, ha⟩ := result_eq (F := F) (launchContents m c)
      exact ⟨(h c main_v217).trans hv,
        (h c main_arg0).trans (ha main_arg0 (by decide)),
        (h c main_arg1).trans (ha main_arg1 (by decide)),
        (h c main_arg2).trans (ha main_arg2 (by decide)),
        (h c main_arg3).trans (ha main_arg3 (by decide)),
        (h c main_arg4).trans (ha main_arg4 (by decide)),
        (h c main_arg5).trans (ha main_arg5 (by decide)),
        (h c main_arg6).trans (ha main_arg6 (by decide)),
        (h c main_arg7).trans (ha main_arg7 (by decide)),
        (h c main_arg8).trans (ha main_arg8 (by decide)),
        (h c main_arg9).trans (ha main_arg9 (by decide))⟩)
    (run_seq scopedRefs_eq scopedSems_eq defs main (fun _ => ops) main_eq (fun _ => ops_sub) m ρ (fun _ => ops_fresh))

end Cert.NetSum.RefRun

end
-- ==== Proof.RefRead.lean ====
/-
  The reference program's result `refOut`, read at an index, is the network `Cert.NetSum.G` of its argument arrays.

  `refOut` is a running total: the target net's output, to which the 8 patch rounds are added one after the other.
  Everything is read at (row n, class c). A matrix product is the sum over the contracted coordinate. A block of a
  stacked array (block e of the 8 first-layer matrices, say), sliced out and reshaped, reads the stacked array at
  (e, ·, ·); a bias row broadcast down the rows reads the bias at the column; the mask column broadcast along the
  classes reads the mask at the row. The mask test `bit ≠ 0` selects between the patch net's output and 0.

  The eight rounds differ only in the block they slice, so one lemma (`sel_core`), stated for an arbitrary block
  number e and arbitrary slice offsets equal to the block's, serves all eight.
-/
import proofs.«168783_g10831907520693_week1_w3_86_18_alg».proof.Proof.RefStages
import proofs.«168783_g10831907520693_week1_w3_86_18_alg».proof.Proof.Spec
import Idealize.ShloMosaic.Lib.Pipeline.Value
import Idealize.ShloMosaic.Lib.ValueIdx
import Idealize.ShloMosaic.Lib.Affine
import Idealize.ShloMosaic.PureOps.Ideal.Laws

noncomputable section

namespace Cert.NetSum.Ref

open Cert.ReferenceIdeal Cert.ReferenceIdeal.Gen Idealize.ShloMosaic Idealize.ShloMosaic.ValueIdx

/-! ## The layout operations and the matrix product, read at coordinates -/

section Layout
variable {α : Type}

/-- A scalar broadcast to any shape reads the scalar everywhere. -/
theorem bcast_scalar_apply {t : Shape} (h : S_.BroadcastsInDim t ![]) (y : S_.Idx → α) (j : t.Idx) :
    broadcastInDim t ![] h y j = y ix0 :=
  broadcastInDim_apply _ h y j ix0 (fun a => a.elim0)

/-- The zero word, broadcast to any shape, reads 0 everywhere. -/
theorem zeros_apply {t : Shape} (h : S_.BroadcastsInDim t ![]) (j : t.Idx) :
    broadcastInDim t ![] h (constant (F := Ideal) S_ .f32 0x00000000#32) j = 0 :=
  (bcast_scalar_apply h _ j).trans Ideal.ofBits_zero_f32

/-- A vector of length B made a row and broadcast down A rows reads, at (a, b), the vector at b. -/
theorem row_bcast_apply {A B : Nat} (hB : B ≠ 1) (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (a : Fin A) (b : Fin B) :
    broadcastInDim ⟨2, ![A, B]⟩ ![0, 1] h2 (broadcastInDim ⟨2, ![1, B]⟩ ![1] h1 v) (ix2 a b) = v (ix1 b) :=
  (broadcastInDim_apply _ h2 _ (ix2 a b) (ix2 (0 : Fin 1) b) (fun x => match x with
    | ⟨0, _⟩ => by show 0 = if (1 : Nat) = 1 then 0 else a.val; rw [if_pos rfl]
    | ⟨1, _⟩ => by show b.val = if B = 1 then 0 else b.val; rw [if_neg hB])).trans
  (broadcastInDim_apply _ h1 v (ix2 (0 : Fin 1) b) (ix1 b) (fun x => match x with
    | ⟨0, _⟩ => by show b.val = if B = 1 then 0 else b.val; rw [if_neg hB]))

/-- A vector of length N made a column and broadcast along C columns reads, at (n, c), the vector at n. -/
theorem col_bcast_apply {N C : Nat} (hN : N ≠ 1) (m : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, C]⟩ ![0, 1]) (n : Fin N) (c : Fin C) :
    broadcastInDim ⟨2, ![N, C]⟩ ![0, 1] h2 (broadcastInDim ⟨2, ![N, 1]⟩ ![0] h1 m) (ix2 n c) = m (ix1 n) :=
  (broadcastInDim_apply _ h2 _ (ix2 n c) (ix2 n (0 : Fin 1)) (fun x => match x with
    | ⟨0, _⟩ => by show n.val = if N = 1 then 0 else n.val; rw [if_neg hN]
    | ⟨1, _⟩ => by show 0 = if (1 : Nat) = 1 then 0 else c.val; rw [if_pos rfl])).trans
  (broadcastInDim_apply _ h1 m (ix2 n (0 : Fin 1)) (ix1 n) (fun x => match x with
    | ⟨0, _⟩ => by show n.val = if N = 1 then 0 else n.val; rw [if_neg hN]))

/-- Block e of a stack of E matrices, sliced out and reshaped to a matrix, reads the stack at (e, p, q). -/
theorem block3_apply {E P Q : Nat} (x : (⟨3, ![E, P, Q]⟩ : Shape).Idx → α) (e : Fin E) (off : Fin 3 → Nat)
    (hoff : off = ![e.val, 0, 0]) (hs : (⟨3, ![E, P, Q]⟩ : Shape).Slices off ⟨3, ![1, P, Q]⟩)
    (hc : (⟨3, ![1, P, Q]⟩ : Shape).ShapeCasts ⟨2, ![P, Q]⟩) (p : Fin P) (q : Fin Q) :
    shapeCast ⟨2, ![P, Q]⟩ (extractStridedSlice ⟨3, ![1, P, Q]⟩ off x hs) hc (ix2 p q) = x (ix3 e p q) := by
  subst hoff
  refine (shapeCast_apply _ hc (ix2 p q) (ix3 (0 : Fin 1) p q) ?_).trans
    (extractStridedSlice_apply _ x hs (ix3 (0 : Fin 1) p q) (ix3 e p q) (fun a => match a with
      | ⟨0, _⟩ => by show e.val = e.val + 0; omega
      | ⟨1, _⟩ => by show p.val = 0 + p.val; omega
      | ⟨2, _⟩ => by show q.val = 0 + q.val; omega))
  rewrite [Shape.rowMajor_val_three, Shape.rowMajor_val_two]
  show (0 * P + p.val) * Q + q.val = p.val * Q + q.val
  rw [Nat.zero_mul, Nat.zero_add]

/-- Row e of a matrix of E rows, sliced out and reshaped to a vector, reads the matrix at (e, q). -/
theorem block2_apply {E Q : Nat} (x : (⟨2, ![E, Q]⟩ : Shape).Idx → α) (e : Fin E) (off : Fin 2 → Nat)
    (hoff : off = ![e.val, 0]) (hs : (⟨2, ![E, Q]⟩ : Shape).Slices off ⟨2, ![1, Q]⟩)
    (hc : (⟨2, ![1, Q]⟩ : Shape).ShapeCasts ⟨1, ![Q]⟩) (q : Fin Q) :
    shapeCast ⟨1, ![Q]⟩ (extractStridedSlice ⟨2, ![1, Q]⟩ off x hs) hc (ix1 q) = x (ix2 e q) := by
  subst hoff
  refine (shapeCast_apply _ hc (ix1 q) (ix2 (0 : Fin 1) q) ?_).trans
    (extractStridedSlice_apply _ x hs (ix2 (0 : Fin 1) q) (ix2 e q) (fun a => match a with
      | ⟨0, _⟩ => by show e.val = e.val + 0; omega
      | ⟨1, _⟩ => by show q.val = 0 + q.val; omega))
  rewrite [Shape.rowMajor_val_two, Shape.rowMajor_val_one]
  show 0 * Q + q.val = q.val
  rw [Nat.zero_mul, Nat.zero_add]

/-- Column e of a matrix of E columns, sliced out and reshaped to a vector, reads the matrix at (n, e). -/
theorem column_apply {N E : Nat} (x : (⟨2, ![N, E]⟩ : Shape).Idx → α) (e : Fin E) (off : Fin 2 → Nat)
    (hoff : off = ![0, e.val]) (hs : (⟨2, ![N, E]⟩ : Shape).Slices off ⟨2, ![N, 1]⟩)
    (hc : (⟨2, ![N, 1]⟩ : Shape).ShapeCasts ⟨1, ![N]⟩) (n : Fin N) :
    shapeCast ⟨1, ![N]⟩ (extractStridedSlice ⟨2, ![N, 1]⟩ off x hs) hc (ix1 n) = x (ix2 n e) := by
  subst hoff
  refine (shapeCast_apply _ hc (ix1 n) (ix2 n (0 : Fin 1)) ?_).trans
    (extractStridedSlice_apply _ x hs (ix2 n (0 : Fin 1)) (ix2 n e) (fun a => match a with
      | ⟨0, _⟩ => by show n.val = 0 + n.val; omega
      | ⟨1, _⟩ => by show e.val = e.val + 0; omega))
  rewrite [Shape.rowMajor_val_two, Shape.rowMajor_val_one]
  show n.val * 1 + 0 = n.val
  omega

end Layout

/-- A rows-by-columns matrix product at the ideal values, read at (a, b): the sum over the contracted coordinate. -/
theorem dot_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (F := Ideal) (⟨[1], [0], [0], [1], [], [], w⟩ : DotDims _ _ _) prec A B (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The target net -/

/-- The target net at (row n, class c): the hidden units against column c of the second layer, plus its bias. -/
theorem target_core (x0 : FVec Ideal S4096x1024 .f32) (x2 : FVec Ideal S1024x2048 .f32)
    (x3 : FVec Ideal S2048 .f32) (x4 : FVec Ideal S2048x10 .f32)
    (x5 : FVec Ideal S10 .f32) (n : Fin 4096) (c : Fin 10) :
    target (F := Ideal) x0 x2 x3 x4 x5 (ix2 n c)
      = ∑ j : Fin 2048, hidden (fun d => x0 (ix2 n d)) (fun d j => x2 (ix2 d j)) (fun j => x3 (ix1 j)) j * x4 (ix2 j c)
          + x5 (ix1 c) := by
  unfold target
  rw [addf_apply]
  refine congrArg₂ (· + ·) ?_ (row_bcast_apply (B := 10) (by decide) x5 _ _ n c)
  refine (dot_nn_apply dot_S4096x2048_S2048x10_S4096x10_1_0_0_1_n_n.wf none _ _ n c).trans ?_
  refine Finset.sum_congr rfl fun j _ => congrArg (· * x4 (ix2 j c)) ?_
  rw [maximumf_apply, addf_apply]
  show _ = max (∑ d : Fin 1024, x0 (ix2 n d) * x2 (ix2 d j) + x3 (ix1 j)) 0
  refine congrArg₂ max (congrArg₂ (· + ·) ?_ (row_bcast_apply (B := 2048) (by decide) x3 _ _ n j)) (zeros_apply _ _)
  exact dot_nn_apply dot_S4096x1024_S1024x2048_S4096x2048_1_0_0_1_n_n.wf none x0 x2 n j

/-! ## One patch round, for an arbitrary block number -/

/-- What patch round e adds at (row n, class c): patch net e's output where the row's bit e is not 0, and 0 elsewhere. -/
def patchRound (x0 : FVec Ideal S4096x1024 .f32) (x1 : IVec S4096x8 32)
    (x6 : FVec Ideal S8x1024x256 .f32) (x7 : FVec Ideal S8x256 .f32)
    (x8 : FVec Ideal S8x256x10 .f32) (x9 : FVec Ideal S8x10 .f32)
    (e : Fin 8) (n : Fin 4096) (c : Fin 10) : EReal :=
  if x1 (ix2 n e) ≠ 0#32 then
    (∑ k : Fin 256, phidden (fun d => x0 (ix2 n d)) (fun e d k => x6 (ix3 e d k)) (fun e k => x7 (ix2 e k)) e k * x8 (ix3 e k c) + x9 (ix2 e c))
  else 0

/-- Patch net e's output at (row n, class c), the slices taken at any offsets equal to block e's. -/
theorem patch_core (x0 : FVec Ideal S4096x1024 .f32) (x6 : FVec Ideal S8x1024x256 .f32)
    (x7 : FVec Ideal S8x256 .f32) (x8 : FVec Ideal S8x256x10 .f32)
    (x9 : FVec Ideal S8x10 .f32) (e : Fin 8)
    (off6 : Fin 3 → Nat) (h6 : off6 = ![e.val, 0, 0]) (hs6 : S8x1024x256.Slices off6 S1x1024x256)
    (off7 : Fin 2 → Nat) (h7 : off7 = ![e.val, 0]) (hs7 : S8x256.Slices off7 S1x256)
    (off8 : Fin 3 → Nat) (h8 : off8 = ![e.val, 0, 0]) (hs8 : S8x256x10.Slices off8 S1x256x10)
    (off9 : Fin 2 → Nat) (h9 : off9 = ![e.val, 0]) (hs9 : S8x10.Slices off9 S1x10)
    (n : Fin 4096) (c : Fin 10) :
    (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 off6 x6 hs6) shapeCasts_S1x1024x256_S1024x256)) (broadcastInDim S4096x256 ![0, 1] bcast_S1x256_S4096x256_0_1 (broadcastInDim S1x256 ![1] bcast_S256_S1x256_1 (shapeCast _ (extractStridedSlice S1x256 off7 x7 hs7) shapeCasts_S1x256_S256)))) (broadcastInDim S4096x256 ![] bcast_S_S4096x256 (constant (F := Ideal) S_ .f32 0x00000000#32))) (shapeCast _ (extractStridedSlice S1x256x10 off8 x8 hs8) shapeCasts_S1x256x10_S256x10)) (broadcastInDim S4096x10 ![0, 1] bcast_S1x10_S4096x10_0_1 (broadcastInDim S1x10 ![1] bcast_S10_S1x10_1 (shapeCast _ (extractStridedSlice S1x10 off9 x9 hs9) shapeCasts_S1x10_S10)))) (ix2 n c)
      = (∑ k : Fin 256, phidden (fun d => x0 (ix2 n d)) (fun e d k => x6 (ix3 e d k)) (fun e k => x7 (ix2 e k)) e k * x8 (ix3 e k c) + x9 (ix2 e c)) := by
  rw [addf_apply]
  refine congrArg₂ (· + ·) ?_
    ((row_bcast_apply (B := 10) (by decide) _ _ _ n c).trans (block2_apply x9 e off9 h9 hs9 _ c))
  refine (dot_nn_apply dot_S4096x256_S256x10_S4096x10_1_0_0_1_n_n.wf none _ _ n c).trans ?_
  refine Finset.sum_congr rfl fun k _ => congrArg₂ (· * ·) ?_ (block3_apply x8 e off8 h8 hs8 _ k c)
  rw [maximumf_apply, addf_apply]
  show _ = max (∑ d : Fin 1024, x0 (ix2 n d) * x6 (ix3 e d k) + x7 (ix2 e k)) 0
  refine congrArg₂ max (congrArg₂ (· + ·) ?_
    ((row_bcast_apply (B := 256) (by decide) _ _ _ n k).trans (block2_apply x7 e off7 h7 hs7 _ k))) (zeros_apply _ _)
  refine (dot_nn_apply dot_S4096x1024_S1024x256_S4096x256_1_0_0_1_n_n.wf none _ _ n k).trans ?_
  exact Finset.sum_congr rfl fun d _ => congrArg (x0 (ix2 n d) * ·) (block3_apply x6 e off6 h6 hs6 _ d k)

/-- Round e's mask at (row n, any class): the test `bit e of row n ≠ 0`, the column sliced at any offset equal to e's. -/
theorem mask_core (x1 : IVec S4096x8 32) (e : Fin 8)
    (off1 : Fin 2 → Nat) (h1 : off1 = ![0, e.val]) (hs1 : S4096x8.Slices off1 S4096x1) (n : Fin 4096) (c : Fin 10) :
    (broadcastInDim S4096x10 ![0, 1] bcast_S4096x1_S4096x10_0_1 (broadcastInDim S4096x1 ![0] bcast_S4096_S4096x1_0 (cmpi .ne (shapeCast _ (extractStridedSlice S4096x1 off1 x1 hs1) shapeCasts_S4096x1_S4096) (broadcastInDim S4096 ![] bcast_S_S4096 (constantI S_ 32 0#32))))) (ix2 n c)
      = IntOp.cmpi .ne (x1 (ix2 n e)) 0#32 := by
  refine (col_bcast_apply (N := 4096) (by decide) _ _ _ n c).trans ?_
  exact congrArg₂ (IntOp.cmpi .ne) (column_apply x1 e off1 h1 hs1 _ n) (bcast_scalar_apply _ _ _)

/-- A patch round's body, its five slices taken at any offsets equal to block e's, is `patchRound e`. -/
theorem sel_core (x0 : FVec Ideal S4096x1024 .f32) (x1 : IVec S4096x8 32)
    (x6 : FVec Ideal S8x1024x256 .f32) (x7 : FVec Ideal S8x256 .f32)
    (x8 : FVec Ideal S8x256x10 .f32) (x9 : FVec Ideal S8x10 .f32) (e : Fin 8)
    (off1 : Fin 2 → Nat) (h1 : off1 = ![0, e.val]) (hs1 : S4096x8.Slices off1 S4096x1)
    (off6 : Fin 3 → Nat) (h6 : off6 = ![e.val, 0, 0]) (hs6 : S8x1024x256.Slices off6 S1x1024x256)
    (off7 : Fin 2 → Nat) (h7 : off7 = ![e.val, 0]) (hs7 : S8x256.Slices off7 S1x256)
    (off8 : Fin 3 → Nat) (h8 : off8 = ![e.val, 0, 0]) (hs8 : S8x256x10.Slices off8 S1x256x10)
    (off9 : Fin 2 → Nat) (h9 : off9 = ![e.val, 0]) (hs9 : S8x10.Slices off9 S1x10)
    (n : Fin 4096) (c : Fin 10) :
    select (broadcastInDim S4096x10 ![0, 1] bcast_S4096x1_S4096x10_0_1 (broadcastInDim S4096x1 ![0] bcast_S4096_S4096x1_0 (cmpi .ne (shapeCast _ (extractStridedSlice S4096x1 off1 x1 hs1) shapeCasts_S4096x1_S4096) (broadcastInDim S4096 ![] bcast_S_S4096 (constantI S_ 32 0#32)))))
      (addf (Host.dotGeneral dot_S4096x256_S256x10_S4096x10_1_0_0_1_n_n none (maximumf (addf (Host.dotGeneral dot_S4096x1024_S1024x256_S4096x256_1_0_0_1_n_n none x0 (shapeCast _ (extractStridedSlice S1x1024x256 off6 x6 hs6) shapeCasts_S1x1024x256_S1024x256)) (broadcastInDim S4096x256 ![0, 1] bcast_S1x256_S4096x256_0_1 (broadcastInDim S1x256 ![1] bcast_S256_S1x256_1 (shapeCast _ (extractStridedSlice S1x256 off7 x7 hs7) shapeCasts_S1x256_S256)))) (broadcastInDim S4096x256 ![] bcast_S_S4096x256 (constant (F := Ideal) S_ .f32 0x00000000#32))) (shapeCast _ (extractStridedSlice S1x256x10 off8 x8 hs8) shapeCasts_S1x256x10_S256x10)) (broadcastInDim S4096x10 ![0, 1] bcast_S1x10_S4096x10_0_1 (broadcastInDim S1x10 ![1] bcast_S10_S1x10_1 (shapeCast _ (extractStridedSlice S1x10 off9 x9 hs9) shapeCasts_S1x10_S10))))
      (broadcastInDim S4096x10 ![] bcast_S_S4096x10 (constant (F := Ideal) S_ .f32 0x00000000#32)) (ix2 n c)
      = patchRound x0 x1 x6 x7 x8 x9 e n c := by
  rw [select_apply, mask_core x1 e off1 h1 hs1 n c,
    patch_core x0 x6 x7 x8 x9 e off6 h6 hs6 off7 h7 hs7 off8 h8 hs8 off9 h9 hs9 n c, zeros_apply]
  unfold patchRound
  by_cases h : x1 (ix2 n e) = 0#32
  · have hb : IntOp.cmpi .ne (x1 (ix2 n e)) 0#32 = 0#1 := eq_zero_of_ne_one (fun hh => IntOp.cmpi_ne.mp hh h)
    rw [if_neg (not_not.mpr h), hb, select_zero]
  · rw [if_pos h, IntOp.cmpi_ne.mpr h, select_one]

/-! ## The eight rounds -/

/-- Round 0 of the program, at (row n, class c), is `patchRound 0`: its slices are block 0's. -/
theorem sel0_apply (x0 : (⟨S4096x1024, .f32⟩ : BufTy).Contents (Elt Ideal)) (x1 : (⟨S4096x8, .i32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) (n : Fin 4096) (c : Fin 10) :
    sel0 (F := Ideal) x0 x1 x6 x7 x8 x9 (ix2 n c) = patchRound x0 x1 x6 x7 x8 x9 (0 : Fin 8) n c := by
  unfold sel0
  exact sel_core x0 x1 x6 x7 x8 x9 (0 : Fin 8) _ rfl _ _ rfl _ _ rfl _ _ rfl _ _ rfl _ n c

/-- Round 1 of the program, at (row n, class c), is `patchRound 1`: its slices are block 1's. -/
theorem sel1_apply (x0 : (⟨S4096x1024, .f32⟩ : BufTy).Contents (Elt Ideal)) (x1 : (⟨S4096x8, .i32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) (n : Fin 4096) (c : Fin 10) :
    sel1 (F := Ideal) x0 x1 x6 x7 x8 x9 (ix2 n c) = patchRound x0 x1 x6 x7 x8 x9 (1 : Fin 8) n c := by
  unfold sel1
  exact sel_core x0 x1 x6 x7 x8 x9 (1 : Fin 8) _ rfl _ _ rfl _ _ rfl _ _ rfl _ _ rfl _ n c

/-- Round 2 of the program, at (row n, class c), is `patchRound 2`: its slices are block 2's. -/
theorem sel2_apply (x0 : (⟨S4096x1024, .f32⟩ : BufTy).Contents (Elt Ideal)) (x1 : (⟨S4096x8, .i32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) (n : Fin 4096) (c : Fin 10) :
    sel2 (F := Ideal) x0 x1 x6 x7 x8 x9 (ix2 n c) = patchRound x0 x1 x6 x7 x8 x9 (2 : Fin 8) n c := by
  unfold sel2
  exact sel_core x0 x1 x6 x7 x8 x9 (2 : Fin 8) _ rfl _ _ rfl _ _ rfl _ _ rfl _ _ rfl _ n c

/-- Round 3 of the program, at (row n, class c), is `patchRound 3`: its slices are block 3's. -/
theorem sel3_apply (x0 : (⟨S4096x1024, .f32⟩ : BufTy).Contents (Elt Ideal)) (x1 : (⟨S4096x8, .i32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) (n : Fin 4096) (c : Fin 10) :
    sel3 (F := Ideal) x0 x1 x6 x7 x8 x9 (ix2 n c) = patchRound x0 x1 x6 x7 x8 x9 (3 : Fin 8) n c := by
  unfold sel3
  exact sel_core x0 x1 x6 x7 x8 x9 (3 : Fin 8) _ rfl _ _ rfl _ _ rfl _ _ rfl _ _ rfl _ n c

/-- Round 4 of the program, at (row n, class c), is `patchRound 4`: its slices are block 4's. -/
theorem sel4_apply (x0 : (⟨S4096x1024, .f32⟩ : BufTy).Contents (Elt Ideal)) (x1 : (⟨S4096x8, .i32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) (n : Fin 4096) (c : Fin 10) :
    sel4 (F := Ideal) x0 x1 x6 x7 x8 x9 (ix2 n c) = patchRound x0 x1 x6 x7 x8 x9 (4 : Fin 8) n c := by
  unfold sel4
  exact sel_core x0 x1 x6 x7 x8 x9 (4 : Fin 8) _ rfl _ _ rfl _ _ rfl _ _ rfl _ _ rfl _ n c

/-- Round 5 of the program, at (row n, class c), is `patchRound 5`: its slices are block 5's. -/
theorem sel5_apply (x0 : (⟨S4096x1024, .f32⟩ : BufTy).Contents (Elt Ideal)) (x1 : (⟨S4096x8, .i32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) (n : Fin 4096) (c : Fin 10) :
    sel5 (F := Ideal) x0 x1 x6 x7 x8 x9 (ix2 n c) = patchRound x0 x1 x6 x7 x8 x9 (5 : Fin 8) n c := by
  unfold sel5
  exact sel_core x0 x1 x6 x7 x8 x9 (5 : Fin 8) _ rfl _ _ rfl _ _ rfl _ _ rfl _ _ rfl _ n c

/-- Round 6 of the program, at (row n, class c), is `patchRound 6`: its slices are block 6's. -/
theorem sel6_apply (x0 : (⟨S4096x1024, .f32⟩ : BufTy).Contents (Elt Ideal)) (x1 : (⟨S4096x8, .i32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) (n : Fin 4096) (c : Fin 10) :
    sel6 (F := Ideal) x0 x1 x6 x7 x8 x9 (ix2 n c) = patchRound x0 x1 x6 x7 x8 x9 (6 : Fin 8) n c := by
  unfold sel6
  exact sel_core x0 x1 x6 x7 x8 x9 (6 : Fin 8) _ rfl _ _ rfl _ _ rfl _ _ rfl _ _ rfl _ n c

/-- Round 7 of the program, at (row n, class c), is `patchRound 7`: its slices are block 7's. -/
theorem sel7_apply (x0 : (⟨S4096x1024, .f32⟩ : BufTy).Contents (Elt Ideal)) (x1 : (⟨S4096x8, .i32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) (n : Fin 4096) (c : Fin 10) :
    sel7 (F := Ideal) x0 x1 x6 x7 x8 x9 (ix2 n c) = patchRound x0 x1 x6 x7 x8 x9 (7 : Fin 8) n c := by
  unfold sel7
  exact sel_core x0 x1 x6 x7 x8 x9 (7 : Fin 8) _ rfl _ _ rfl _ _ rfl _ _ rfl _ _ rfl _ n c

/-! ## The running total -/

/-- The reference's result, as a whole array, is `G` of the argument arrays read by coordinates. -/
theorem refOut_eq_G (x0 : (⟨S4096x1024, .f32⟩ : BufTy).Contents (Elt Ideal)) (x1 : (⟨S4096x8, .i32⟩ : BufTy).Contents (Elt Ideal))
    (x2 : (⟨S1024x2048, .f32⟩ : BufTy).Contents (Elt Ideal)) (x3 : (⟨S2048, .f32⟩ : BufTy).Contents (Elt Ideal))
    (x4 : (⟨S2048x10, .f32⟩ : BufTy).Contents (Elt Ideal)) (x5 : (⟨S10, .f32⟩ : BufTy).Contents (Elt Ideal))
    (x6 : (⟨S8x1024x256, .f32⟩ : BufTy).Contents (Elt Ideal)) (x7 : (⟨S8x256, .f32⟩ : BufTy).Contents (Elt Ideal))
    (x8 : (⟨S8x256x10, .f32⟩ : BufTy).Contents (Elt Ideal)) (x9 : (⟨S8x10, .f32⟩ : BufTy).Contents (Elt Ideal)) :
    refOut (F := Ideal) x0 x1 x2 x3 x4 x5 x6 x7 x8 x9
      = fun i => Cert.NetSum.G (fun n d => x0 (ix2 n d)) (fun n e => x1 (ix2 n e)) (fun d j => x2 (ix2 d j)) (fun j => x3 (ix1 j))
          (fun j c => x4 (ix2 j c)) (fun c => x5 (ix1 c)) (fun e d k => x6 (ix3 e d k)) (fun e k => x7 (ix2 e k))
          (fun e k c => x8 (ix3 e k c)) (fun e c => x9 (ix2 e c)) (i 0) (i 1) := by
  funext i
  obtain ⟨n, c, rfl⟩ : ∃ (n : Fin 4096) (c : Fin 10), i = ix2 n c := ⟨i 0, i 1, eq_ix2 i⟩
  unfold refOut
  simp only [addf_apply]
  rw [target_core, sel0_apply, sel1_apply, sel2_apply, sel3_apply, sel4_apply, sel5_apply, sel6_apply, sel7_apply]
  show _ = Cert.NetSum.G _ _ _ _ _ _ _ _ _ _ n c
  unfold Cert.NetSum.G patchRound
  rw [Fin.sum_univ_eight]
  simp only [add_assoc]

end Cert.NetSum.Ref

end
-- ==== Proof.lean ====
/-
  A row of features x goes through a target net (2048 hidden units, ReLU, 10 classes) and through 8 patch nets
  (256 hidden units each); patch net e adds its output to the row only where the row's bit e is set.

  The reference computes this as written: the target net's output, then for each patch net in turn
  `out + where(bit ≠ 0, patch output, 0)`. The kernel computes, per block of 512 rows, ONE contraction: it lays the
  2048 target units and the 8 × 256 patch units side by side (each patch unit already multiplied by its row's bit read
  as a number), multiplies by the target's and the patch nets' second layers stacked on top of each other, and adds the
  bits times the patch biases.

  Over the extended reals, with every float format change the identity, the two are the same function of the inputs
  when every bit is 0 or 1: the sum over 4096 units splits into the first 2048 and 8 runs of 256 (regrouping a sum of
  extended reals is free); a bit 1 drops out as a factor; at a bit 0 every product with 0 is 0, so the patch net's run
  and its bias vanish together, which is what `where` selects. With a bit equal to 2 the kernel would add the patch
  net twice and the reference once: the precondition therefore says, beside every float input being finite, that every
  entry of the bitmap is 0 or 1, and only that part of it is used.

  The kernel's frames are the generated ones. The reference's run is read nine chunks at a time (the target net, then
  one round per patch net) and its frame is that run with the result dropped; nothing was rewritten when the
  kernel was read over the extended reals, so there is nothing to preserve.
-/
import proofs.«168783_g10831907520693_week1_w3_86_18_alg».proof.Defs
import proofs.«168783_g10831907520693_week1_w3_86_18_alg».proof.Proof.Gen.Kernel
import proofs.«168783_g10831907520693_week1_w3_86_18_alg».proof.Proof.Gen.Kernel.Frame
import proofs.«168783_g10831907520693_week1_w3_86_18_alg».proof.Proof.Gen.KernelIdeal
import proofs.«168783_g10831907520693_week1_w3_86_18_alg».proof.Proof.Gen.KernelIdeal.Frame
import proofs.«168783_g10831907520693_week1_w3_86_18_alg».proof.Proof.Gen.KernelIdeal.Value
import proofs.«168783_g10831907520693_week1_w3_86_18_alg».proof.Proof.Gen.ReferenceIdeal
import proofs.«168783_g10831907520693_week1_w3_86_18_alg».proof.Proof.Gen.Pre_finite_inputs
import proofs.«168783_g10831907520693_week1_w3_86_18_alg».proof.Proof.PreBits
import proofs.«168783_g10831907520693_week1_w3_86_18_alg».proof.Proof.KernelArray
import proofs.«168783_g10831907520693_week1_w3_86_18_alg».proof.Proof.RefRun
import proofs.«168783_g10831907520693_week1_w3_86_18_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.NetSum.RefRun.run (F := Ideal) m ρ)

/-- Both programs end with the network `GA` of the inputs in their result array. -/
theorem algebraic : Cert.algebraic_KernelIdeal_ReferenceIdeal := by
  intro m ρ m' ρ' hpre hagree
  have hB : ∀ (c : Dev Cert.KernelIdeal.nD) (i : Cert.KernelIdeal.S4096x8.Idx),
      (m ((c : Thread Cert.KernelIdeal.nD Cert.KernelIdeal.τ).loc Cert.KernelIdeal.main_arg1) : Cert.KernelIdeal.S4096x8.Idx → BitVec 32) i = 0#32
      ∨ (m ((c : Thread Cert.KernelIdeal.nD Cert.KernelIdeal.τ).loc Cert.KernelIdeal.main_arg1) : Cert.KernelIdeal.S4096x8.Idx → BitVec 32) i = 1#32 :=
    fun c i => Cert.NetSum.Pre.bits_of_pre _ _ _ _ _ _ _ _ _ _ (hpre c) i
  refine ⟨fun c => Cert.NetSum.Kernel.result m c, ?_, ?_⟩
  · exact (θ_run Cert.KernelIdeal.defs _ _).mono
      (fun r h c => ⟨(h c).1.trans (Cert.NetSum.Kernel.final m hB c), (h c).2⟩)
      (Cert.KernelIdeal.Value.run_blocks m ρ)
  · refine (θ_run Cert.ReferenceIdeal.defs _ _).mono (fun _ h c => ⟨(h c).1.trans ?_, (h c).2⟩)
      (Cert.NetSum.RefRun.run (F := Ideal) m' ρ')
    rw [Cert.NetSum.Ref.refOut_eq_G]
    obtain ⟨a0, a1, a2, a3, a4, a5, a6, a7, a8, a9⟩ := hagree c
    rw [a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
